-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S4000x1280 : Shape := ⟨2, ![4000, 1280]⟩
abbrev S2x150000 : Shape := ⟨2, ![2, 150000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x1 : Shape := ⟨2, ![256, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4000x1280 : S_.BroadcastsInDim S4000x1280 (![] : Fin 0 → Fin S4000x1280.rank)
  reducesTo_S4000x1280_S_d0_1 : S4000x1280.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S1280x128 : S_.BroadcastsInDim S1280x128 (![] : Fin 0 → Fin S1280x128.rank)
  reducesTo_S1280x128_S_d0_1 : S1280x128.ReducesTo [0, 1] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S256x1 .f32) (main_arg16 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128x128 .f32) (main_arg13 : FVec F S128 .f32) (main_arg14 : FVec F S128x128 .f32) (main_arg15 : FVec F S256x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_v63 main_v67

def fn_part2 {F : FTy → Type} [FloatOps F] (main_arg8 : FVec F S4x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S256x1 .f32) (main_arg16 : FVec F S1 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S1280x128 .f32) (main_arg6 : FVec F S1280x128 .f32) (main_arg7 : FVec F S128 .f32) (main_arg8 : FVec F S4x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S256x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1280x128 .f32 := Host.absf main_arg5
  let main_cst_6 : FVec F S_ .f32 := constant S_ .f32 0x7F800000#32
  let main_v20 : FVec F S1280x128 .f32 := broadcastInDim S1280x128 ![] bcast_S_S1280x128 main_cst_6
  let main_v21 : IVec S1280x128 1 := cmpf .olt main_v19 main_v20
  let main_c_7 : IVec S_ 1 := constantI S_ 1 1#1
  let main_v22 : IVec S_ 1 := (fun x v => Host.reduce IntOp.andi x v reducesTo_S1280x128_S_d0_1 h_S_) main_v21 main_c_7
  let main_v23 : IVec S_ 1 := andi main_v18 main_v22
  let main_v24 : FVec F S1280x128 .f32 := Host.absf main_arg6
  let main_cst_8 : FVec F S_ .f32 := constant S_ .f32 0x7F800000#32
  let main_v25 : FVec F S1280x128 .f32 := broadcastInDim S1280x128 ![] bcast_S_S1280x128 main_cst_8
  let main_v26 : IVec S1280x128 1 := cmpf .olt main_v24 main_v25
  let main_c_9 : IVec S_ 1 := constantI S_ 1 1#1
  let main_v27 : IVec S_ 1 := (fun x v => Host.reduce IntOp.andi x v reducesTo_S1280x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x4 .f32) (main_arg1 : FVec F S4000x1280 .f32) (main_arg2 : IVec S2x150000 32) (main_arg3 : FVec F S4x128 .f32) (main_arg4 : FVec F S128 .f32) (main_arg5 : FVec F S1280x128 .f32) (main_arg6 : FVec F S1280x128 .f32) (main_arg7 : FVec F S128 .f32) (main_arg8 : FVec F S4x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S256x1 .f32) (main_arg16 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4000x1280 .f32 := Host.absf main_arg1
  let main_cst_0 : FVec F S_ .f32 := constant S_ .f32 0x7F800000#32
  let main_v5 : FVec F S4000x1280 .f32 := broadcastInDim S4000x1280 ![] bcast_S_S4000x1280 main_cst_0
  let main_v6 : IVec S4000x1280 1 := cmpf .olt main_v4 main_v5
  let main_c_1 : IVec S_ 1 := constantI S_ 1 1#1
  let main_v7 : IVec S_ 1 := (fun x v => Host.reduce IntOp.andi x v reducesTo_S4000x1280_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S4000x1280 : Shape := ⟨2, ![4000, 1280]⟩
abbrev S2x150000 : Shape := ⟨2, ![2, 150000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x1 : Shape := ⟨2, ![256, 1]⟩
abbrev S1 : Shape := ⟨1, ![1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x4 : Shape := ⟨2, ![150000, 4]⟩
abbrev S4000x4 : Shape := ⟨2, ![4000, 4]⟩
abbrev S4000x1 : Shape := ⟨2, ![4000, 1]⟩
abbrev S128x1 : Shape := ⟨2, ![128, 1]⟩
abbrev S1x128 : Shape := ⟨2, ![1, 128]⟩
abbrev S4000x128 : Shape := ⟨2, ![4000, 128]⟩
abbrev S1000x4 : Shape := ⟨2, ![1000, 4]⟩
abbrev S1000x1280 : Shape := ⟨2, ![1000, 1280]⟩
abbrev S1000x128 : Shape := ⟨2, ![1000, 128]⟩
abbrev S150000x128 : Shape := ⟨2, ![150000, 128]⟩
abbrev S100000x128 : Shape := ⟨2, ![100000, 128]⟩
abbrev S100000x1 : Shape := ⟨2, ![100000, 1]⟩
abbrev S5000x128 : Shape := ⟨2, ![5000, 128]⟩
abbrev S5000x4 : Shape := ⟨2, ![5000, 4]⟩
abbrev S1000x1 : Shape := ⟨2, ![1000, 1]⟩
abbrev S5000x1 : Shape := ⟨2, ![5000, 1]⟩
abbrev S150000x2 : Shape := ⟨2, ![150000, 2]⟩

abbrev nBuf : Space → Nat
  | .hbm => 162
  | .vmem => 44
  | .smem => 0
  | _ => 0

abbrev hbmTy0_0 (i : Nat) : BufTy := match i % 128 with
  | 0 => ⟨S100000x4, .f32⟩
  | 1 => ⟨S4000x1280, .f32⟩
  | 2 => ⟨S2x150000, .i32⟩
  | 3 => ⟨S4x128, .f32⟩
  | 4 => ⟨S128, .f32⟩
  | 5 => ⟨S1280x128, .f32⟩
  | 6 => ⟨S1280x128, .f32⟩
  | 7 => ⟨S128, .f32⟩
  | 8 => ⟨S4x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S256x1, .f32⟩
  | 16 => ⟨S1, .f32⟩
  | 17 => ⟨S1x150000, .i32⟩
  | 18 => ⟨S150000, .i32⟩
  | 19 => ⟨S1x150000, .i32⟩
  | 20 => ⟨S150000, .i32⟩
  | 21 => ⟨S_, .i32⟩
  | 22 => ⟨S150000, .i32⟩
  | 23 => ⟨S150000, .i1⟩
  | 24 => ⟨S_, .i32⟩
  | 25 => ⟨S150000, .i32⟩
  | 26 => ⟨S150000, .i32⟩
  | 27 => ⟨S150000, .i32⟩
  | 28 => ⟨S150000x1, .i32⟩
  | 29 => ⟨S150000x4, .f32⟩
  | 30 => ⟨S_, .f32⟩
  | 31 => ⟨S4000x4, .f32⟩
  | 32 => ⟨S150000x1, .i32⟩
  | 33 => ⟨S4000x4, .f32⟩
  | 34 => ⟨S_, .f32⟩
  | 35 => ⟨S150000x1, .f32⟩
  | 36 => ⟨S_, .f32⟩
  | 37 => ⟨S4000x1, .f32⟩
  | 38 => ⟨S150000x1, .i32⟩
  | 39 => ⟨S4000x1, .f32⟩
  | 40 => ⟨S_, .f32⟩
  | 41 => ⟨S4000x1, .f32⟩
  | 42 => ⟨S4000x1, .f32⟩
  | 43 => ⟨S4000x4, .f32⟩
  | 44 => ⟨S4000x4, .f32⟩
  | 45 => ⟨S128x1, .f32⟩
  | 46 => ⟨S128x1, .f32⟩
  | 47 => ⟨S1x128, .f32⟩
  | 48 => ⟨S4000x128, .f32⟩
  | 49 => ⟨S4000x128, .f32⟩
  | 50 => ⟨S4000x128, .f32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x128, .f32⟩
  | 60 => ⟨S_, .f32⟩
  | 61 => ⟨S100000x128, .f32⟩
  | 62 => ⟨S150000x1, .i32⟩
  | 63 => ⟨S100000x128, .f32⟩
  | 64 => ⟨S_, .f32⟩
  | 65 => ⟨S150000x1, .f32⟩
  | 66 => ⟨S_, .f32⟩
  | 67 => ⟨S100000x1, .f32⟩
  | 68 => ⟨S150000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S150000, .i32⟩
  | 80 => ⟨S150000, .i1⟩
  | 81 => ⟨S_, .i32⟩
  | 82 => ⟨S150000, .i32⟩
  | 83 => ⟨S150000, .i32⟩
  | 84 => ⟨S150000, .i32⟩
  | 85 => ⟨S150000x1, .i32⟩
  | 86 => ⟨S150000x128, .f32⟩
  | 87 => ⟨S_, .f32⟩
  | 88 => ⟨S4000x128, .f32⟩
  | 89 => ⟨S150000x1, .i32⟩
  | 90 => ⟨S4000x128, .f32⟩
  | 91 => ⟨S_, .f32⟩
  | 92 => ⟨S150000x1, .f32⟩
  | 93 => ⟨S_, .f32⟩
  | 94 => ⟨S4000x1, .f32⟩
  | 95 => ⟨S150000x1, .i32⟩
  | 96 => ⟨S4000x1, .f32⟩
  | 97 => ⟨S_, .f32⟩
  | 98 => ⟨S4000x1, .f32⟩
  | 99 => ⟨S4000x1, .f32⟩
  | 100 => ⟨S4000x128, .f32⟩
  | 101 => ⟨S4000x128, .f32⟩
  | 102 => ⟨S_, .i32⟩
  | 103 => ⟨S150000, .i32⟩
  | 104 => ⟨S150000, .i1⟩
  | 105 => ⟨S_, .i32⟩
  | 106 => ⟨S150000, .i32⟩
  | 107 => ⟨S150000, .i32⟩
  | 108 => ⟨S150000, .i32⟩
  | 109 => ⟨S150000x1, .i32⟩
  | 110 => ⟨S150000x128, .f32⟩
  | 111 => ⟨S_, .f32⟩
  | 112 => ⟨S100000x128, .f32⟩
  | 113 => ⟨S150000x1, .i32⟩
  | 114 => ⟨S100000x128, .f32⟩
  | 115 => ⟨S_, .f32⟩
  | 116 => ⟨S150000x1, .f32⟩
  | 117 => ⟨S_, .f32⟩
  | 118 => ⟨S100000x1, .f32⟩
  | 119 => ⟨S150000x1, .i32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S1x128, .f32⟩
  | 127 => ⟨S4000x1, .f32⟩
  | _ => ⟨S100000x4, .f32⟩

abbrev hbmTy0_1 (i : Nat) : BufTy := match i % 128 with
  | 0 => ⟨S1x128, .f32⟩
  | 1 => ⟨S100000x1, .f32⟩
  | 2 => ⟨S_, .i32⟩
  | 3 => ⟨S150000, .i32⟩
  | 4 => ⟨S150000, .i1⟩
  | 5 => ⟨S_, .i32⟩
  | 6 => ⟨S150000, .i32⟩
  | 7 => ⟨S150000, .i32⟩
  | 8 => ⟨S150000, .i32⟩
  | 9 => ⟨S_, .i32⟩
  | 10 => ⟨S150000, .i32⟩
  | 11 => ⟨S150000, .i32⟩
  | 12 => ⟨S150000x1, .i32⟩
  | 13 => ⟨S150000x1, .i32⟩
  | 14 => ⟨S150000x2, .i32⟩
  | 15 => ⟨S150000, .f32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S_, .i32⟩
  | 24 => ⟨S150000, .i32⟩
  | 25 => ⟨S150000, .i32⟩
  | 26 => ⟨S150000x1, .i32⟩
  | 27 => ⟨S150000x1, .i32⟩
  | 28 => ⟨S150000x2, .i32⟩
  | 29 => ⟨S150000, .f32⟩
  | 30 => ⟨S150000, .f32⟩
  | 31 => ⟨S_, .f32⟩
  | 32 => ⟨S150000, .f32⟩
  | 33 => ⟨S150000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S1000x4, .f32⟩
  | .local _ .vmem, ⟨1, _⟩ => ⟨S1000x4, .f32⟩
  | .local _ .vmem, ⟨2, _⟩ => ⟨S1000x1280, .f32⟩
  | .local _ .vmem, ⟨3, _⟩ => ⟨S1000x1280, .f32⟩
  | .local _ .vmem, ⟨4, _⟩ => ⟨S4x128, .f32⟩
  | .local _ .vmem, ⟨5, _⟩ => ⟨S1x128, .f32⟩
  | .local _ .vmem, ⟨6, _⟩ => ⟨S1280x128, .f32⟩
  | .local _ .vmem, ⟨7, _⟩ => ⟨S128x128, .f32⟩
  | .local _ .vmem, ⟨8, _⟩ => ⟨S1280x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x4, .f32⟩
  | .local _ .vmem, ⟨19, _⟩ => ⟨S5000x4, .f32⟩
  | .local _ .vmem, ⟨20, _⟩ => ⟨S4x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1000x128, .f32⟩
  | .local _ .vmem, ⟨27, _⟩ => ⟨S1000x128, .f32⟩
  | .local _ .vmem, ⟨28, _⟩ => ⟨S1x128, .f32⟩
  | .local _ .vmem, ⟨29, _⟩ => ⟨S1000x128, .f32⟩
  | .local _ .vmem, ⟨30, _⟩ => ⟨S1000x128, .f32⟩
  | .local _ .vmem, ⟨31, _⟩ => ⟨S128x128, .f32⟩
  | .local _ .vmem, ⟨32, _⟩ => ⟨S128x1, .f32⟩
  | .local _ .vmem, ⟨33, _⟩ => ⟨S1000x1, .f32⟩
  | .local _ .vmem, ⟨34, _⟩ => ⟨S1000x1, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x1, .f32⟩
  | .local _ .vmem, ⟨42, _⟩ => ⟨S5000x1, .f32⟩
  | .local _ .vmem, ⟨43, _⟩ => ⟨S5000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_v74 : Ref sig .tc := ⟨.hbm, 116, rfl⟩
abbrev main_cst_20 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_21 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_22 : Ref sig .tc := ⟨.hbm, 130, rfl⟩
abbrev main_v86 : Ref sig .tc := ⟨.hbm, 131, rfl⟩
abbrev main_v87 : Ref sig .tc := ⟨.hbm, 132, rfl⟩
abbrev main_c_23 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_24 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_25 : Ref sig .tc := ⟨.hbm, 144, rfl⟩
abbrev main_v97 : Ref sig .tc := ⟨.hbm, 145, rfl⟩
abbrev main_v98 : Ref sig .tc := ⟨.hbm, 146, rfl⟩
abbrev main_c_26 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_27 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S4000x4 : S_.BroadcastsInDim S4000x4 (![] : Fin 0 → Fin S4000x4.rank)
  bcast_S_S150000x1 : S_.BroadcastsInDim S150000x1 (![] : Fin 0 → Fin S150000x1.rank)
  bcast_S_S4000x1 : S_.BroadcastsInDim S4000x1 (![] : Fin 0 → Fin S4000x1.rank)
  bcast_S4000x1_S4000x4_0_1 : S4000x1.BroadcastsInDim S4000x4 (![0, 1] : Fin 2 → Fin S4000x4.rank)
  slices_S256x1_S128x1_0_0 : S256x1.Slices ![0, 0] S128x1
  slices_S256x1_S128x1_128_0 : S256x1.Slices ![128, 0] S128x1
  shapeCasts_S128_S1x128 : S128.ShapeCasts S1x128
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  bitsLt_bf16_f32 : FTy.bits .bf16 < FTy.bits .f32
  inb_S1000x1280_S1000x1280_0_0 : ∀ a, (![0, 0] : Fin 2 → Nat) a + S1000x1280.size a ≤ S1000x1280.size a
  h_S1000x1280 : 0 < S1000x1280.numel
  inb_S4x128_S4x128_0_0 : ∀ a, (![0, 0] : Fin 2 → Nat) a + S4x128.size a ≤ S4x128.size a
  h_S4x128 : 0 < S4x128.numel
  inb_S1280x128_S1280x128_0_0 : ∀ a, (![0, 0] : Fin 2 → Nat) a + S1280x128.size a ≤ S1280x128.size a
  h_S1280x128 : 0 < S1280x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x4_S5000x4_0_0 : ∀ a, (![0, 0] : Fin 2 → Nat) a + S5000x4.size a ≤ S5000x4.size a
  h_S5000x4 : 0 < S5000x4.numel
  broadcasts_S1x128_S5000x128 : S1x128.Broadcasts S5000x128
  bcast_S_S4000x128 : S_.BroadcastsInDim S4000x128 (![] : Fin 0 → Fin S4000x128.rank)
  bcast_S4000x1_S4000x128_0_1 : S4000x1.BroadcastsInDim S4000x128 (![0, 1] : Fin 2 → Fin S4000x128.rank)
  shapeCasts_S1000x128_S1000x128 : S1000x128.ShapeCasts S1000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1000x1_S1000x1_0_0 : ∀ a, (![0, 0] : Fin 2 → Nat) a + S1000x1.size a ≤ S1000x1.size a
  h_S1000x1 : 0 < S1000x1.numel
  inb_S5000x1_S5000x1_0_0 : ∀ a, (![0, 0] : Fin 2 → Nat) a + S5000x1.size a ≤ S5000x1.size a
  h_S5000x1 : 0 < S5000x1.numel
  concatenates_S150000x1_S150000x1_S150000x2_d1 : Shape.Concatenates [S150000x1, S150000x1] S150000x2 1
  shapeCasts_S1_S_ : S1.ShapeCasts S_
  gather_S100000x4_S150000x1_S150000x4_1_0_n_n_0_1_14_wf : GatherDims.WF S100000x4 S150000x1 S150000x4 [1] [0] [] [0] [] 1 ![1, 4]
  scatter_S4000x4_S150000x1_S150000x4_1_0_0_1_wf : ScatterDims.WF S4000x4 S150000x1 S150000x4 [1] [0] [0] 1
  scatter_S4000x1_S150000x1_S150000x1_1_0_0_1_wf : ScatterDims.WF S4000x1 S150000x1 S150000x1 [1] [0] [0] 1
  dot_S1000x4_S4x128_S1000x128_1_0_0_1_n_n_wf : DotDims.WF S1000x4 S4x128 S1000x128 [1] [0] [0] [1] [] []
  dot_S1000x1280_S1280x128_S1000x128_1_0_0_1_n_n_wf : DotDims.WF S1000x1280 S1280x128 S1000x128 [1] [0] [0] [1] [] []
  dot_S1000x128_S128x128_S1000x128_1_0_0_1_n_n_wf : DotDims.WF S1000x128 S128x128 S1000x128 [1] [0] [0] [1] [] []
  gather_S4000x128_S150000x1_S150000x128_1_0_n_n_0_1_1128_wf : GatherDims.WF S4000x128 S150000x1 S150000x128 [1] [0] [] [0] [] 1 ![1, 128]
  scatter_S100000x128_S150000x1_S150000x128_1_0_0_1_wf : ScatterDims.WF S100000x128 S150000x1 S150000x128 [1] [0] [0] 1
  scatter_S100000x1_S150000x1_S150000x1_1_0_0_1_wf : ScatterDims.WF S100000x1 S150000x1 S150000x1 [1] [0] [0] 1
  dot_S5000x4_S4x128_S5000x128_1_0_0_1_n_n_wf : DotDims.WF S5000x4 S4x128 S5000x128 [1] [0] [0] [1] [] []
  dot_S5000x128_S128x128_S5000x128_1_0_0_1_n_n_wf : DotDims.WF S5000x128 S128x128 S5000x128 [1] [0] [0] [1] [] []
  gather_S100000x128_S150000x1_S150000x128_1_0_n_n_0_1_1128_wf : GatherDims.WF S100000x128 S150000x1 S150000x128 [1] [0] [] [0] [] 1 ![1, 128]
  scatter_S4000x128_S150000x1_S150000x128_1_0_0_1_wf : ScatterDims.WF S4000x128 S150000x1 S150000x128 [1] [0] [0] 1
  dot_S1000x128_S128x1_S1000x1_1_0_0_1_n_n_wf : DotDims.WF S1000x128 S128x1 S1000x1 [1] [0] [0] [1] [] []
  dot_S5000x128_S128x1_S5000x1_1_0_0_1_n_n_wf : DotDims.WF S5000x128 S128x1 S5000x1 [1] [0] [0] [1] [] []
  gather_S100000x1_S150000x2_S150000_n_01_n_n_01_1_11_wf : GatherDims.WF S100000x1 S150000x2 S150000 [] [0, 1] [] [0, 1] [] 1 ![1, 1]
  gather_S4000x1_S150000x2_S150000_n_01_n_n_01_1_11_wf : GatherDims.WF S4000x1 S150000x2 S150000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4.size a ≤ S4000x4.size a
  hwx0_0 : ∀ i : grid0.Coords, EltTy.bits .f32 = 32 ∨ (Rect.block (s := S4000x4) S1000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1280.size a ≤ S4000x1280.size a
  hwx0_1 : ∀ i : grid0.Coords, EltTy.bits .f32 = 32 ∨ (Rect.block (s := S4000x1280) S1000x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x128.size a ≤ S1280x128.size a
  hwx0_4 : ∀ i : grid0.Coords, EltTy.bits .f32 = 32 ∨ (Rect.block (s := S1280x128) S1280x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280x128.size a ≤ S1280x128.size a
  hwx0_6 : ∀ i : grid0.Coords, EltTy.bits .f32 = 32 ∨ (Rect.block (s := S1280x128) S1280x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S4000x128.size a
  hwx0_7 : ∀ i : grid0.Coords, EltTy.bits .f32 = 32 ∨ (Rect.block (s := S4000x128) S1000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S4000x128.size a
  hwx0_8 : ∀ i : grid0.Coords, EltTy.bits .f32 = 32 ∨ (Rect.block (s := S4000x128) S1000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S4000x128.size a
  hwx0_9 : ∀ i : grid0.Coords, EltTy.bits .f32 = 32 ∨ (Rect.block (s := S4000x128) S1000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S100000x4.size a
  hwx1_2 : ∀ i : grid1.Coords, EltTy.bits .f32 = 32 ∨ (Rect.block (s := S100000x4) S5000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S4000x128.size a
  hwx2_0 : ∀ i : grid2.Coords, EltTy.bits .f32 = 32 ∨ (Rect.block (s := S4000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S4000x128.size a
  hwx2_2 : ∀ i : grid2.Coords, EltTy.bits .f32 = 32 ∨ (Rect.block (s := S4000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x1.size a ≤ S4000x1.size a
  hwx2_5 : ∀ i : grid2.Coords, EltTy.bits .f32 = 32 ∨ (Rect.block (s := S4000x1) S1000x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def gather_S100000x4_S150000x1_S150000x4_1_0_n_n_0_1_14 : GatherDims S100000x4 S150000x1 S150000x4 where
  offsetDims := [1]
  collapsedSliceDims := [0]
  operandBatchingDims := []
  startIndicesBatchingDims := []
  startIndexMap := [0]
  indexVectorDim := 1
  sliceSizes := ![1, 4]
  wf := gather_S100000x4_S150000x1_S150000x4_1_0_n_n_0_1_14_wf
def scatter_S4000x4_S150000x1_S150000x4_1_0_0_1 : ScatterDims S4000x4 S150000x1 S150000x4 where
  updateWindowDims := [1]
  insertedWindowDims := [0]
  scatterDimsToOperandDims := [0]
  indexVectorDim := 1
  wf := scatter_S4000x4_S150000x1_S150000x4_1_0_0_1_wf
def scatter_S4000x1_S150000x1_S150000x1_1_0_0_1 : ScatterDims S4000x1 S150000x1 S150000x1 where
  updateWindowDims := [1]
  insertedWindowDims := [0]
  scatterDimsToOperandDims := [0]
  indexVectorDim := 1
  wf := scatter_S4000x1_S150000x1_S150000x1_1_0_0_1_wf
def dot_S1000x4_S4x128_S1000x128_1_0_0_1_n_n : DotDims S1000x4 S4x128 S1000x128 where
  lhsContracting := [1]
  rhsContracting := [0]
  lhsNonContracting := [0]
  rhsNonContracting := [1]
  lhsBatch := []
  rhsBatch := []
  wf := dot_S1000x4_S4x128_S1000x128_1_0_0_1_n_n_wf
def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S4000x128_S150000x1_S150000x128_1_0_n_n_0_1_1128 : GatherDims S4000x128 S150000x1 S150000x128 where
  offsetDims := [1]
  collapsedSliceDims := [0]
  operandBatchingDims := []
  startIndicesBatchingDims := []
  startIndexMap := [0]
  indexVectorDim := 1
  sliceSizes := ![1, 128]
  wf := gather_S4000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000x1_S150000x1_S150000x1_1_0_0_1 : ScatterDims S100000x1 S150000x1 S150000x1 where
  updateWindowDims := [1]
  insertedWindowDims := [0]
  scatterDimsToOperandDims := [0]
  indexVectorDim := 1
  wf := scatter_S100000x1_S150000x1_S150000x1_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S4000x128_S150000x1_S150000x128_1_0_0_1 : ScatterDims S4000x128 S150000x1 S150000x128 where
  updateWindowDims := [1]
  insertedWindowDims := [0]
  scatterDimsToOperandDims := [0]
  indexVectorDim := 1
  wf := scatter_S4000x128_S150000x1_S150000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S150000x2_S150000_n_01_n_n_01_1_11 : GatherDims S100000x1 S150000x2 S150000 where
  offsetDims := []
  collapsedSliceDims := [0, 1]
  operandBatchingDims := []
  startIndicesBatchingDims := []
  startIndexMap := [0, 1]
  indexVectorDim := 1
  sliceSizes := ![1, 1]
  wf := gather_S100000x1_S150000x2_S150000_n_01_n_n_01_1_11_wf
def gather_S4000x1_S150000x2_S150000_n_01_n_n_01_1_11 : GatherDims S4000x1 S150000x2 S150000 where
  offsetDims := []
  collapsedSliceDims := [0, 1]
  operandBatchingDims := []
  startIndicesBatchingDims := []
  startIndexMap := [0, 1]
  indexVectorDim := 1
  sliceSizes := ![1, 1]
  wf := gather_S4000x1_S150000x2_S150000_n_01_n_n_01_1_11_wf

abbrev win0_0 : Pipeline.Window sig grid0 :=
  Pipeline.Window.ofSpec (Memref.whole main_v21) S1000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1280x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1280x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S1000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S1000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v25_2) S1000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v45_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25_0) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S1000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x4 : Shape := ⟨2, ![100000, 4]⟩
abbrev S4000x1280 : Shape := ⟨2, ![4000, 1280]⟩
abbrev S2x150000 : Shape := ⟨2, ![2, 150000]⟩
abbrev S4x128 : Shape := ⟨2, ![4, 128]⟩
abbrev S128 : Shape := ⟨1, ![128]⟩
abbrev S1280x128 : Shape := ⟨2, ![1280, 128]⟩
abbrev S128x128 : Shape := ⟨2, ![128, 128]⟩
abbrev S256x1 : Shape := ⟨2, ![256, 1]⟩
abbrev S1 : Shape := ⟨1, ![1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x4 : Shape := ⟨2, ![150000, 4]⟩
abbrev S4000x4 : Shape := ⟨2, ![4000, 4]⟩
abbrev S4000x1 : Shape := ⟨2, ![4000, 1]⟩
abbrev S4000x128 : Shape := ⟨2, ![4000, 128]⟩
abbrev S1x128 : Shape := ⟨2, ![1, 128]⟩
abbrev S150000x1280 : Shape := ⟨2, ![150000, 1280]⟩
abbrev S100000x1280 : Shape := ⟨2, ![100000, 1280]⟩
abbrev S100000x1 : Shape := ⟨2, ![100000, 1]⟩
abbrev S100000x128 : Shape := ⟨2, ![100000, 128]⟩
abbrev S150000x128 : Shape := ⟨2, ![150000, 128]⟩
abbrev S150000x256 : Shape := ⟨2, ![150000, 256]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S100000x4, .f32⟩
  | 1 => ⟨S4000x1280, .f32⟩
  | 2 => ⟨S2x150000, .i32⟩
  | 3 => ⟨S4x128, .f32⟩
  | 4 => ⟨S128, .f32⟩
  | 5 => ⟨S1280x128, .f32⟩
  | 6 => ⟨S1280x128, .f32⟩
  | 7 => ⟨S128, .f32⟩
  | 8 => ⟨S4x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S256x1, .f32⟩
  | 16 => ⟨S1, .f32⟩
  | 17 => ⟨S1x150000, .i32⟩
  | 18 => ⟨S150000, .i32⟩
  | 19 => ⟨S1x150000, .i32⟩
  | 20 => ⟨S150000, .i32⟩
  | 21 => ⟨S_, .i32⟩
  | 22 => ⟨S150000, .i32⟩
  | 23 => ⟨S150000, .i1⟩
  | 24 => ⟨S_, .i32⟩
  | 25 => ⟨S150000, .i32⟩
  | 26 => ⟨S150000, .i32⟩
  | 27 => ⟨S150000, .i32⟩
  | 28 => ⟨S150000x1, .i32⟩
  | 29 => ⟨S150000x4, .f32⟩
  | 30 => ⟨S_, .f32⟩
  | 31 => ⟨S4000x4, .f32⟩
  | 32 => ⟨S150000x1, .i32⟩
  | 33 => ⟨S4000x4, .f32⟩
  | 34 => ⟨S_, .f32⟩
  | 35 => ⟨S150000x1, .f32⟩
  | 36 => ⟨S_, .f32⟩
  | 37 => ⟨S4000x1, .f32⟩
  | 38 => ⟨S150000x1, .i32⟩
  | 39 => ⟨S4000x1, .f32⟩
  | 40 => ⟨S_, .f32⟩
  | 41 => ⟨S4000x1, .f32⟩
  | 42 => ⟨S4000x1, .f32⟩
  | 43 => ⟨S4000x4, .f32⟩
  | 44 => ⟨S4000x4, .f32⟩
  | 45 => ⟨S4000x128, .f32⟩
  | 46 => ⟨S1x128, .f32⟩
  | 47 => ⟨S4000x128, .f32⟩
  | 48 => ⟨S4000x128, .f32⟩
  | 49 => ⟨S4000x128, .f32⟩
  | 50 => ⟨S4000x128, .f32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x1280, .f32⟩
  | 60 => ⟨S_, .f32⟩
  | 61 => ⟨S100000x1280, .f32⟩
  | 62 => ⟨S150000x1, .i32⟩
  | 63 => ⟨S100000x1280, .f32⟩
  | 64 => ⟨S_, .f32⟩
  | 65 => ⟨S150000x1, .f32⟩
  | 66 => ⟨S_, .f32⟩
  | 67 => ⟨S100000x1, .f32⟩
  | 68 => ⟨S150000x1, .i32⟩
  | 69 => ⟨S100000x1, .f32⟩
  | 70 => ⟨S_, .f32⟩
  | 71 => ⟨S100000x1, .f32⟩
  | 72 => ⟨S100000x1, .f32⟩
  | 73 => ⟨S100000x1280, .f32⟩
  | 74 => ⟨S100000x1280, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S4000x128, .f32⟩
  | 83 => ⟨S4000x128, .f32⟩
  | 84 => ⟨S_, .f32⟩
  | 85 => ⟨S100000x128, .f32⟩
  | 86 => ⟨S100000x128, .f32⟩
  | 87 => ⟨S_, .i32⟩
  | 88 => ⟨S150000, .i32⟩
  | 89 => ⟨S150000, .i1⟩
  | 90 => ⟨S_, .i32⟩
  | 91 => ⟨S150000, .i32⟩
  | 92 => ⟨S150000, .i32⟩
  | 93 => ⟨S150000, .i32⟩
  | 94 => ⟨S150000x1, .i32⟩
  | 95 => ⟨S150000x128, .f32⟩
  | 96 => ⟨S_, .f32⟩
  | 97 => ⟨S4000x128, .f32⟩
  | 98 => ⟨S150000x1, .i32⟩
  | 99 => ⟨S4000x128, .f32⟩
  | 100 => ⟨S_, .f32⟩
  | 101 => ⟨S150000x1, .f32⟩
  | 102 => ⟨S_, .f32⟩
  | 103 => ⟨S4000x1, .f32⟩
  | 104 => ⟨S150000x1, .i32⟩
  | 105 => ⟨S4000x1, .f32⟩
  | 106 => ⟨S_, .f32⟩
  | 107 => ⟨S4000x1, .f32⟩
  | 108 => ⟨S4000x1, .f32⟩
  | 109 => ⟨S4000x128, .f32⟩
  | 110 => ⟨S4000x128, .f32⟩
  | 111 => ⟨S4000x128, .f32⟩
  | 112 => ⟨S1x128, .f32⟩
  | 113 => ⟨S4000x128, .f32⟩
  | 114 => ⟨S4000x128, .f32⟩
  | 115 => ⟨S4000x128, .f32⟩
  | 116 => ⟨S4000x128, .f32⟩
  | 117 => ⟨S_, .f32⟩
  | 118 => ⟨S4000x128, .f32⟩
  | 119 => ⟨S4000x128, .f32⟩
  | 120 => ⟨S_, .i32⟩
  | 121 => ⟨S150000, .i32⟩
  | 122 => ⟨S150000, .i1⟩
  | 123 => ⟨S_, .i32⟩
  | 124 => ⟨S150000, .i32⟩
  | 125 => ⟨S150000, .i32⟩
  | 126 => ⟨S150000, .i32⟩
  | 127 => ⟨S150000x1, .i32⟩
  | _ => ⟨S100000x4, .f32⟩

abbrev hbmTy0_1 (i : Nat) : BufTy := match i % 128 with
  | 0 => ⟨S150000x128, .f32⟩
  | 1 => ⟨S_, .f32⟩
  | 2 => ⟨S100000x128, .f32⟩
  | 3 => ⟨S150000x1, .i32⟩
  | 4 => ⟨S100000x128, .f32⟩
  | 5 => ⟨S_, .f32⟩
  | 6 => ⟨S150000x1, .f32⟩
  | 7 => ⟨S_, .f32⟩
  | 8 => ⟨S100000x1, .f32⟩
  | 9 => ⟨S150000x1, .i32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000x128, .f32⟩
  | 34 => ⟨S_, .i32⟩
  | 35 => ⟨S150000, .i32⟩
  | 36 => ⟨S150000, .i1⟩
  | 37 => ⟨S_, .i32⟩
  | 38 => ⟨S150000, .i32⟩
  | 39 => ⟨S150000, .i32⟩
  | 40 => ⟨S150000, .i32⟩
  | 41 => ⟨S150000x1, .i32⟩
  | 42 => ⟨S150000x128, .f32⟩
  | 43 => ⟨S150000x256, .f32⟩
  | 44 => ⟨S150000x1, .f32⟩
  | 45 => ⟨S1x1, .f32⟩
  | 46 => ⟨S150000x1, .f32⟩
  | 47 => ⟨S150000x1, .f32⟩
  | 48 => ⟨S150000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call0_cst : Ref sig .tc := ⟨.hbm, 81, rfl⟩
abbrev main_call0_v0 : Ref sig .tc := ⟨.hbm, 82, rfl⟩
abbrev main_v52 : Ref sig .tc := ⟨.hbm, 83, rfl⟩
abbrev main_call1_cst : Ref sig .tc := ⟨.hbm, 84, rfl⟩
abbrev main_call1_v0 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call2_cst : Ref sig .tc := ⟨.hbm, 117, rfl⟩
abbrev main_call2_v0 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_call3_cst : Ref sig .tc := ⟨.hbm, 150, rfl⟩
abbrev main_call3_v0 : Ref sig .tc := ⟨.hbm, 151, rfl⟩
abbrev main_v103 : Ref sig .tc := ⟨.hbm, 152, rfl⟩
abbrev main_c_22 : Ref sig .tc := ⟨.hbm, 153, rfl⟩
abbrev main_v104 : Ref sig .tc := ⟨.hbm, 154, rfl⟩
abbrev main_v105 : Ref sig .tc := ⟨.hbm, 155, rfl⟩
abbrev main_c_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_24 : Ref sig .tc := ⟨.hbm, 162, rfl⟩
abbrev main_v111 : Ref sig .tc := ⟨.hbm, 163, rfl⟩
abbrev main_v112 : Ref sig .tc := ⟨.hbm, 164, rfl⟩
abbrev main_c_25 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S4000x4 : S_.BroadcastsInDim S4000x4 (![] : Fin 0 → Fin S4000x4.rank)
  bcast_S_S150000x1 : S_.BroadcastsInDim S150000x1 (![] : Fin 0 → Fin S150000x1.rank)
  bcast_S_S4000x1 : S_.BroadcastsInDim S4000x1 (![] : Fin 0 → Fin S4000x1.rank)
  bcast_S4000x1_S4000x4_0_1 : S4000x1.BroadcastsInDim S4000x4 (![0, 1] : Fin 2 → Fin S4000x4.rank)
  bcast_S128_S1x128_1 : S128.BroadcastsInDim S1x128 (![1] : Fin 1 → Fin S1x128.rank)
  bcast_S1x128_S4000x128_0_1 : S1x128.BroadcastsInDim S4000x128 (![0, 1] : Fin 2 → Fin S4000x128.rank)
  bcast_S_S100000x1280 : S_.BroadcastsInDim S100000x1280 (![] : Fin 0 → Fin S100000x1280.rank)
  bcast_S_S100000x1 : S_.BroadcastsInDim S100000x1 (![] : Fin 0 → Fin S100000x1.rank)
  bcast_S100000x1_S100000x1280_0_1 : S100000x1.BroadcastsInDim S100000x1280 (![0, 1] : Fin 2 → Fin S100000x1280.rank)
  bcast_S1x128_S100000x128_0_1 : S1x128.BroadcastsInDim S100000x128 (![0, 1] : Fin 2 → Fin S100000x128.rank)
  bcast_S_S4000x128 : S_.BroadcastsInDim S4000x128 (![] : Fin 0 → Fin S4000x128.rank)
  bcast_S_S100000x128 : S_.BroadcastsInDim S100000x128 (![] : Fin 0 → Fin S100000x128.rank)
  bcast_S4000x1_S4000x128_0_1 : S4000x1.BroadcastsInDim S4000x128 (![0, 1] : Fin 2 → Fin S4000x128.rank)
  bcast_S100000x1_S100000x128_0_1 : S100000x1.BroadcastsInDim S100000x128 (![0, 1] : Fin 2 → Fin S100000x128.rank)
  concatenates_S150000x128_S150000x128_S150000x256_d1 : Shape.Concatenates [S150000x128, S150000x128] S150000x256 1
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  shapeCasts_S150000x1_S150000 : S150000x1.ShapeCasts S150000
  gather_S100000x4_S150000x1_S150000x4_1_0_n_n_0_1_14_wf : GatherDims.WF S100000x4 S150000x1 S150000x4 [1] [0] [] [0] [] 1 ![1, 4]
  scatter_S4000x4_S150000x1_S150000x4_1_0_0_1_wf : ScatterDims.WF S4000x4 S150000x1 S150000x4 [1] [0] [0] 1
  scatter_S4000x1_S150000x1_S150000x1_1_0_0_1_wf : ScatterDims.WF S4000x1 S150000x1 S150000x1 [1] [0] [0] 1
  dot_S4000x4_S4x128_S4000x128_1_0_0_1_n_n_wf : DotDims.WF S4000x4 S4x128 S4000x128 [1] [0] [0] [1] [] []
  dot_S4000x1280_S1280x128_S4000x128_1_0_0_1_n_n_wf : DotDims.WF S4000x1280 S1280x128 S4000x128 [1] [0] [0] [1] [] []
  gather_S4000x1280_S150000x1_S150000x1280_1_0_n_n_0_1_11280_wf : GatherDims.WF S4000x1280 S150000x1 S150000x1280 [1] [0] [] [0] [] 1 ![1, 1280]
  scatter_S100000x1280_S150000x1_S150000x1280_1_0_0_1_wf : ScatterDims.WF S100000x1280 S150000x1 S150000x1280 [1] [0] [0] 1
  scatter_S100000x1_S150000x1_S150000x1_1_0_0_1_wf : ScatterDims.WF S100000x1 S150000x1 S150000x1 [1] [0] [0] 1
  dot_S100000x1280_S1280x128_S100000x128_1_0_0_1_n_n_wf : DotDims.WF S100000x1280 S1280x128 S100000x128 [1] [0] [0] [1] [] []
  dot_S100000x4_S4x128_S100000x128_1_0_0_1_n_n_wf : DotDims.WF S100000x4 S4x128 S100000x128 [1] [0] [0] [1] [] []
  gather_S100000x128_S150000x1_S150000x128_1_0_n_n_0_1_1128_wf : GatherDims.WF S100000x128 S150000x1 S150000x128 [1] [0] [] [0] [] 1 ![1, 128]
  scatter_S4000x128_S150000x1_S150000x128_1_0_0_1_wf : ScatterDims.WF S4000x128 S150000x1 S150000x128 [1] [0] [0] 1
  dot_S4000x128_S128x128_S4000x128_1_0_0_1_n_n_wf : DotDims.WF S4000x128 S128x128 S4000x128 [1] [0] [0] [1] [] []
  gather_S4000x128_S150000x1_S150000x128_1_0_n_n_0_1_1128_wf : GatherDims.WF S4000x128 S150000x1 S150000x128 [1] [0] [] [0] [] 1 ![1, 128]
  scatter_S100000x128_S150000x1_S150000x128_1_0_0_1_wf : ScatterDims.WF S100000x128 S150000x1 S150000x128 [1] [0] [0] 1
  dot_S100000x128_S128x128_S100000x128_1_0_0_1_n_n_wf : DotDims.WF S100000x128 S128x128 S100000x128 [1] [0] [0] [1] [] []
  dot_S150000x256_S256x1_S150000x1_1_0_0_1_n_n_wf : DotDims.WF S150000x256 S256x1 S150000x1 [1] [0] [0] [1] [] []

variable [Facts₀]

def gather_S100000x4_S150000x1_S150000x4_1_0_n_n_0_1_14 : GatherDims S100000x4 S150000x1 S150000x4 where
  offsetDims := [1]
  collapsedSliceDims := [0]
  operandBatchingDims := []
  startIndicesBatchingDims := []
  startIndexMap := [0]
  indexVectorDim := 1
  sliceSizes := ![1, 4]
  wf := gather_S100000x4_S150000x1_S150000x4_1_0_n_n_0_1_14_wf
def scatter_S4000x4_S150000x1_S150000x4_1_0_0_1 : ScatterDims S4000x4 S150000x1 S150000x4 where
  updateWindowDims := [1]
  insertedWindowDims := [0]
  scatterDimsToOperandDims := [0]
  indexVectorDim := 1
  wf := scatter_S4000x4_S150000x1_S150000x4_1_0_0_1_wf
def scatter_S4000x1_S150000x1_S150000x1_1_0_0_1 : ScatterDims S4000x1 S150000x1 S150000x1 where
  updateWindowDims := [1]
  insertedWindowDims := [0]
  scatterDimsToOperandDims := [0]
  indexVectorDim := 1
  wf := scatter_S4000x1_S150000x1_S150000x1_1_0_0_1_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def dot_S4000x1280_S1280x128_S4000x128_1_0_0_1_n_n : DotDims S4000x1280 S1280x128 S4000x128 where
  lhsContracting := [1]
  rhsContracting := [0]
  lhsNonContracting := [0]
  rhsNonContracting := [1]
  lhsBatch := []
  rhsBatch := []
  wf := dot_S4000x1280_S1280x128_S4000x128_1_0_0_1_n_n_wf
def gather_S4000x1280_S150000x1_S150000x1280_1_0_n_n_0_1_11280 : GatherDims S4000x1280 S150000x1 S150000x1280 where
  offsetDims := [1]
  collapsedSliceDims := [0]
  operandBatchingDims := []
  startIndicesBatchingDims := []
  startIndexMap := [0]
  indexVectorDim := 1
  sliceSizes := ![1, 1280]
  wf := gather_S4000x1280_S150000x1_S150000x1280_1_0_n_n_0_1_11280_wf
def scatter_S100000x1280_S150000x1_S150000x1280_1_0_0_1 : ScatterDims S100000x1280 S150000x1 S150000x1280 where
  updateWindowDims := [1]
  insertedWindowDims := [0]
  scatterDimsToOperandDims := [0]
  indexVectorDim := 1
  wf := scatter_S100000x1280_S150000x1_S150000x1280_1_0_0_1_wf
def scatter_S100000x1_S150000x1_S150000x1_1_0_0_1 : ScatterDims S100000x1 S150000x1 S150000x1 where
  updateWindowDims := [1]
  insertedWindowDims := [0]
  scatterDimsToOperandDims := [0]
  indexVectorDim := 1
  wf := scatter_S100000x1_S150000x1_S150000x1_1_0_0_1_wf
def dot_S100000x1280_S1280x128_S100000x128_1_0_0_1_n_n : DotDims S100000x1280 S1280x128 S100000x128 where
  lhsContracting := [1]
  rhsContracting := [0]
  lhsNonContracting := [0]
  rhsNonContracting := [1]
  lhsBatch := []
  rhsBatch := []
  wf := dot_S100000x1280_S1280x128_S100000x128_1_0_0_1_n_n_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S4000x128_S150000x1_S150000x128_1_0_0_1 : ScatterDims S4000x128 S150000x1 S150000x128 where
  updateWindowDims := [1]
  insertedWindowDims := [0]
  scatterDimsToOperandDims := [0]
  indexVectorDim := 1
  wf := scatter_S4000x128_S150000x1_S150000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S4000x128_S150000x1_S150000x128_1_0_n_n_0_1_1128 : GatherDims S4000x128 S150000x1 S150000x128 where
  offsetDims := [1]
  collapsedSliceDims := [0]
  operandBatchingDims := []
  startIndicesBatchingDims := []
  startIndexMap := [0]
  indexVectorDim := 1
  sliceSizes := ![1, 128]
  wf := gather_S4000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S150000x256_S256x1_S150000x1_1_0_0_1_n_n : DotDims S150000x256 S256x1 S150000x1 where
  lhsContracting := [1]
  rhsContracting := [0]
  lhsNonContracting := [0]
  rhsNonContracting := [1]
  lhsBatch := []
  rhsBatch := []
  wf := dot_S150000x256_S256x1_S150000x1_1_0_0_1_n_n_wf

class Facts : Prop extends Facts₀ where

variable [Facts]
-- ==== Proof.KerRun.lean ====
/-
  The idealized kernel's run with its result named.

  The program is four pipelined regions among five stretches of host operations. Its buffer contents at the nine
  segment boundaries are a fold from the launch memory: a stretch of host operations maps the contents to the
  operations' results, a region leaves every array it wrote at what its write-backs fold to and every other buffer as
  entered. Every weakly fair execution terminates, without a fault, in a state whose unscoped buffers hold the last
  boundary's contents; in particular the result buffer holds the last boundary's value of it, and the seventeen
  argument arrays hold what they were launched with.
-/
import proofs.«151303_j73272142069881_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates, nothing faulting; the result buffer
    ends at the last boundary's contents and the argument arrays end as launched. -/
theorem run_value : θ_run defs (onTc (τ := τ) (main (F := F))) ⟨m, fun _ => 0, ρ⟩ (fun r => ∀ c : Dev nD,
      r.2.mem ((c.tc : Thread nD τ).loc main_v111) = W9 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v111 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.KerRun

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KerPay.lean ====
/-
  What each region's body stores, read at an entry.

  Every body is a few matrix products into zeros, sums of them with a bias row, and a rectifier. Over the extended
  reals a change of float format is the identity, a matrix product into zeros at entry (p, q) is the inner product of
  row p with column q, and a [1, 128] row broadcast over the rows reads the row at (0, q). So each stored value, at
  entry (p, q) of its block, is the textbook formula in the entries of the loaded blocks.
-/
import proofs.«151303_j73272142069881_2_alg».proof.Proof.Gen.KernelIdeal.Skeleton
import proofs.«151303_j73272142069881_2_alg».proof.Proof.LibMatmulNN
import Idealize.ShloMosaic.Lib.Pipeline.Value
import Idealize.ShloMosaic.Lib.ValueIdx
import Idealize.ShloMosaic.PureOps.Ideal.Laws

noncomputable section

namespace Cert.KernelIdeal.KerPay

open Cert.KernelIdeal Cert.KernelIdeal.Gen Idealize.ShloMosaic Idealize.ShloMosaic.ValueIdx

/-- A bias row broadcast over 1000 rows, at (p, q), is the row's entry q. -/
theorem bias1000 (b : Vec Ideal S1x128 .f32) (p : Fin 1000) (q : Fin 128) :
    broadcastTo S1000x128 b broadcasts_S1x128_S1000x128 (ix2 p q) = b (ix2 (0 : Fin 1) q) :=
  broadcastTo_apply b _ (ix2 p q) (ix2 (0 : Fin 1) q) fun a => match a with
    | ⟨0, _⟩ => by show (0 : Nat) = if (1 : Nat) = 1 then 0 else _; rw [if_pos rfl]
    | ⟨1, _⟩ => by show q.val = if (128 : Nat) = 1 then 0 else q.val; rw [if_neg (by decide)]

/-- The same over 5000 rows. -/
theorem bias5000 (b : Vec Ideal S1x128 .f32) (p : Fin 5000) (q : Fin 128) :
    broadcastTo S5000x128 b broadcasts_S1x128_S5000x128 (ix2 p q) = b (ix2 (0 : Fin 1) q) :=
  broadcastTo_apply b _ (ix2 p q) (ix2 (0 : Fin 1) q) fun a => match a with
    | ⟨0, _⟩ => by show (0 : Nat) = if (1 : Nat) = 1 then 0 else _; rw [if_pos rfl]
    | ⟨1, _⟩ => by show q.val = if (128 : Nat) = 1 then 0 else q.val; rw [if_neg (by decide)]

/-- The zero the rectifier compares against. -/
theorem relu_zero : (Scalar.ofBits (F := Ideal) .f32 0x00000000#32 : EReal) = 0 := Ideal.ofBits_zero_f32

/-! ## Region 0: the first round's target side -/

/-- The rectified pre-activation: neighbours' mean times A, plus own features times B, plus the bias. -/
theorem pay_ht (x0 : Vec Ideal S1000x4 .f32) (x1 : Vec Ideal S1000x1280 .f32) (x2 : Vec Ideal S4x128 .f32)
    (x4 : Vec Ideal S1280x128 .f32) (x3 : Vec Ideal S1x128 .f32) (p : Fin 1000) (q : Fin 128) :
    k0_pay2 (F := Ideal) x0 x1 x2 x4 x3 (ix2 p q)
      = max (((∑ k : Fin 4, x0 (ix2 p k) * x2 (ix2 k q)) + ∑ k : Fin 1280, x1 (ix2 p k) * x4 (ix2 k q))
          + x3 (ix2 (0 : Fin 1) q)) 0 := by
  unfold k0_pay2 k0_pay1
  simp only [matmul, shapeCast_self]
  rw [maximumf_apply, addf_apply, addf_apply, Cert.MatmulNN.matmul_zero_apply (M := 1000) (K := 4) (N := 128) dot_S1000x4_S4x128_S1000x128_1_0_0_1_n_n rfl, Cert.MatmulNN.matmul_zero_apply (M := 1000) (K := 1280) (N := 128) dot_S1000x1280_S1280x128_S1000x128_1_0_0_1_n_n rfl,
    bias1000, broadcast_apply, relu_zero]
  rfl

/-- Its product with the second round's ligand-side neighbour map. -/
theorem pay_qt (x0 : Vec Ideal S1000x4 .f32) (x1 : Vec Ideal S1000x1280 .f32) (x2 : Vec Ideal S4x128 .f32)
    (x4 : Vec Ideal S1280x128 .f32) (x5 : Vec Ideal S128x128 .f32) (x3 : Vec Ideal S1x128 .f32) (p : Fin 1000) (q : Fin 128) :
    k0_pay3 (F := Ideal) x0 x1 x2 x4 x5 x3 (ix2 p q)
      = ∑ k : Fin 128, k0_pay2 (F := Ideal) x0 x1 x2 x4 x3 (ix2 p k) * x5 (ix2 k q) := by
  unfold k0_pay3
  simp only [matmul]
  rw [Cert.MatmulNN.matmul_zero_apply (M := 1000) (K := 128) (N := 128) dot_S1000x128_S128x128_S1000x128_1_0_0_1_n_n rfl]
  rfl

/-- The own features times the first round's ligand-side neighbour map. -/
theorem pay_pt (x1 : Vec Ideal S1000x1280 .f32) (x6 : Vec Ideal S1280x128 .f32) (p : Fin 1000) (q : Fin 128) :
    k0_pay4 (F := Ideal) x1 x6 (ix2 p q) = ∑ k : Fin 1280, x1 (ix2 p k) * x6 (ix2 k q) := by
  unfold k0_pay4 k0_pay1
  simp only [matmul]
  rw [Cert.MatmulNN.matmul_zero_apply (M := 1000) (K := 1280) (N := 128) dot_S1000x1280_S1280x128_S1000x128_1_0_0_1_n_n rfl]
  rfl

/-! ## Region 1: the first round's ligand side -/

theorem pay_hl (x0 : Vec Ideal S5000x128 .f32) (x2 : Vec Ideal S5000x4 .f32) (x3 : Vec Ideal S4x128 .f32)
    (x1 : Vec Ideal S1x128 .f32) (p : Fin 5000) (q : Fin 128) :
    k1_pay1 (F := Ideal) x0 x2 x3 x1 (ix2 p q)
      = max ((x0 (ix2 p q) + ∑ k : Fin 4, x2 (ix2 p k) * x3 (ix2 k q)) + x1 (ix2 (0 : Fin 1) q)) 0 := by
  unfold k1_pay1
  simp only [matmul, shapeCast_self]
  rw [maximumf_apply, addf_apply, addf_apply, Cert.MatmulNN.matmul_zero_apply (M := 5000) (K := 4) (N := 128) dot_S5000x4_S4x128_S5000x128_1_0_0_1_n_n rfl, bias5000, broadcast_apply, relu_zero]
  rfl

theorem pay_ql (x0 : Vec Ideal S5000x128 .f32) (x2 : Vec Ideal S5000x4 .f32) (x3 : Vec Ideal S4x128 .f32)
    (x4 : Vec Ideal S128x128 .f32) (x1 : Vec Ideal S1x128 .f32) (p : Fin 5000) (q : Fin 128) :
    k1_pay2 (F := Ideal) x0 x2 x3 x4 x1 (ix2 p q)
      = ∑ k : Fin 128, k1_pay1 (F := Ideal) x0 x2 x3 x1 (ix2 p k) * x4 (ix2 k q) := by
  unfold k1_pay2
  simp only [matmul]
  rw [Cert.MatmulNN.matmul_zero_apply (M := 5000) (K := 128) (N := 128) dot_S5000x128_S128x128_S5000x128_1_0_0_1_n_n rfl]
  rfl

/-! ## Regions 2 and 3: the second round and the node's half of the edge score -/

theorem pay_pt2 (x0 x2 : Vec Ideal S1000x128 .f32) (x3 : Vec Ideal S128x128 .f32) (x4 : Vec Ideal S128x1 .f32)
    (x1 : Vec Ideal S1x128 .f32) (p : Fin 1000) :
    k2_pay1 (F := Ideal) x0 x2 x3 x4 x1 (ix2 p (0 : Fin 1))
      = ∑ k : Fin 128, max ((x0 (ix2 p k) + ∑ i : Fin 128, x2 (ix2 p i) * x3 (ix2 i k)) + x1 (ix2 (0 : Fin 1) k)) 0
          * x4 (ix2 k (0 : Fin 1)) := by
  unfold k2_pay1
  simp only [matmul, shapeCast_self]
  rw [Cert.MatmulNN.matmul_zero_apply (M := 1000) (K := 128) (N := 1) dot_S1000x128_S128x1_S1000x1_1_0_0_1_n_n rfl]
  refine Finset.sum_congr rfl fun k _ => ?_
  rw [truncf_apply, maximumf_apply, addf_apply, addf_apply, Cert.MatmulNN.matmul_zero_apply (M := 1000) (K := 128) (N := 128) dot_S1000x128_S128x128_S1000x128_1_0_0_1_n_n rfl, bias1000, broadcast_apply,
    relu_zero]
  rfl

theorem pay_pl2 (x0 x2 : Vec Ideal S5000x128 .f32) (x3 : Vec Ideal S128x128 .f32) (x4 : Vec Ideal S128x1 .f32)
    (x1 : Vec Ideal S1x128 .f32) (p : Fin 5000) :
    k3_pay1 (F := Ideal) x0 x2 x3 x4 x1 (ix2 p (0 : Fin 1))
      = ∑ k : Fin 128, max ((x0 (ix2 p k) + ∑ i : Fin 128, x2 (ix2 p i) * x3 (ix2 i k)) + x1 (ix2 (0 : Fin 1) k)) 0
          * x4 (ix2 k (0 : Fin 1)) := by
  unfold k3_pay1
  simp only [matmul, shapeCast_self]
  rw [Cert.MatmulNN.matmul_zero_apply (M := 5000) (K := 128) (N := 1) dot_S5000x128_S128x1_S5000x1_1_0_0_1_n_n rfl]
  refine Finset.sum_congr rfl fun k _ => ?_
  rw [truncf_apply, maximumf_apply, addf_apply, addf_apply, Cert.MatmulNN.matmul_zero_apply (M := 5000) (K := 128) (N := 128) dot_S5000x128_S128x128_S5000x128_1_0_0_1_n_n rfl, bias5000, broadcast_apply,
    relu_zero]
  rfl

end Cert.KernelIdeal.KerPay

end
-- ==== Proof.KerFns.lean ====
/-
  The four regions' results as whole-array functions.

  Region 0 reads the mean of the neighbouring ligands m (4000 rows of 4), the targets' features x (4000 rows of 1280), two
  weight matrices, a bias row and two more weight matrices, and writes three arrays of 4000 rows of 128: the rectified
  pre-activation h, the product of h with one matrix, and the product of x with the other. Region 1 is the ligand-side
  analogue with the aggregated term already mapped, 100000 rows. Regions 2 and 3 add a mapped aggregate, the node's own
  mapped features and a bias, rectify, and contract with a column of 128 weights, giving one number per node.

  Each is written here as a function of whole arrays, row by row, and then one lemma per stored value says: if a block
  holds rows 1000 t .. 1000 t + 999 (or 5000 t ..) of the row-tiled inputs and the whole of the untiled ones, the value
  the body stores at (p, q) of its block is the array function at row 1000 t + p.
-/
import proofs.«151303_j73272142069881_2_alg».proof.Proof.KerPay

noncomputable section

namespace Cert.KernelIdeal.KerFns

open Cert.KernelIdeal Cert.KernelIdeal.Gen Idealize.ShloMosaic Idealize.ShloMosaic.ValueIdx

/-- Row and column of an index of a rank-2 array. -/
abbrev row {A B : Nat} (i : (⟨2, ![A, B]⟩ : Shape).Idx) : Fin A := ⟨(i 0).val, idx2_lt0 i⟩
abbrev col {A B : Nat} (i : (⟨2, ![A, B]⟩ : Shape).Idx) : Fin B := ⟨(i 1).val, idx2_lt1 i⟩

/-! ## Region 0 -/

/-- h = max((m A + x B) + bias, 0). -/
def arrHT (m : S4000x4.Idx → EReal) (x : S4000x1280.Idx → EReal) (A : S4x128.Idx → EReal) (b : S1x128.Idx → EReal)
    (B : S1280x128.Idx → EReal) : S4000x128.Idx → EReal := fun i =>
  max (((∑ k : Fin 4, m (ix2 (row i) k) * A (ix2 k (col i))) + ∑ k : Fin 1280, x (ix2 (row i) k) * B (ix2 k (col i)))
    + b (ix2 (0 : Fin 1) (col i))) 0

/-- h R. -/
def arrQT (m : S4000x4.Idx → EReal) (x : S4000x1280.Idx → EReal) (A : S4x128.Idx → EReal) (b : S1x128.Idx → EReal)
    (B : S1280x128.Idx → EReal) (R : S128x128.Idx → EReal) : S4000x128.Idx → EReal := fun i =>
  ∑ k : Fin 128, arrHT m x A b B (ix2 (row i) k) * R (ix2 k (col i))

/-- x C. -/
def arrPT (x : S4000x1280.Idx → EReal) (C : S1280x128.Idx → EReal) : S4000x128.Idx → EReal := fun i =>
  ∑ k : Fin 1280, x (ix2 (row i) k) * C (ix2 k (col i))

theorem ht_point (x0 : Vec Ideal S1000x4 .f32) (x1 : Vec Ideal S1000x1280 .f32) (x2 : Vec Ideal S4x128 .f32)
    (x4 : Vec Ideal S1280x128 .f32) (x3 : Vec Ideal S1x128 .f32)
    (m : S4000x4.Idx → EReal) (x : S4000x1280.Idx → EReal) (p : Fin 1000) (q : Fin 128) (P : Fin 4000)
    (h0 : ∀ k, x0 (ix2 p k) = m (ix2 P k)) (h1 : ∀ k, x1 (ix2 p k) = x (ix2 P k)) :
    k0_pay2 (F := Ideal) x0 x1 x2 x4 x3 (ix2 p q) = arrHT m x x2 x3 x4 (ix2 P q) := by
  rw [KerPay.pay_ht]
  show _ = max (((∑ k : Fin 4, m (ix2 P k) * x2 (ix2 k q)) + ∑ k : Fin 1280, x (ix2 P k) * x4 (ix2 k q))
    + x3 (ix2 (0 : Fin 1) q)) 0
  simp only [h0, h1]

theorem qt_point (x0 : Vec Ideal S1000x4 .f32) (x1 : Vec Ideal S1000x1280 .f32) (x2 : Vec Ideal S4x128 .f32)
    (x4 : Vec Ideal S1280x128 .f32) (x5 : Vec Ideal S128x128 .f32) (x3 : Vec Ideal S1x128 .f32)
    (m : S4000x4.Idx → EReal) (x : S4000x1280.Idx → EReal) (p : Fin 1000) (q : Fin 128) (P : Fin 4000)
    (h0 : ∀ k, x0 (ix2 p k) = m (ix2 P k)) (h1 : ∀ k, x1 (ix2 p k) = x (ix2 P k)) :
    k0_pay3 (F := Ideal) x0 x1 x2 x4 x5 x3 (ix2 p q) = arrQT m x x2 x3 x4 x5 (ix2 P q) := by
  rw [KerPay.pay_qt]
  show _ = ∑ k : Fin 128, arrHT m x x2 x3 x4 (ix2 P k) * x5 (ix2 k q)
  exact Finset.sum_congr rfl fun k _ => by rw [ht_point x0 x1 x2 x4 x3 m x p k P h0 h1]

theorem pt_point (x1 : Vec Ideal S1000x1280 .f32) (x6 : Vec Ideal S1280x128 .f32)
    (x : S4000x1280.Idx → EReal) (p : Fin 1000) (q : Fin 128) (P : Fin 4000)
    (h1 : ∀ k, x1 (ix2 p k) = x (ix2 P k)) :
    k0_pay4 (F := Ideal) x1 x6 (ix2 p q) = arrPT x x6 (ix2 P q) := by
  rw [KerPay.pay_pt]
  show _ = ∑ k : Fin 1280, x (ix2 P k) * x6 (ix2 k q)
  simp only [h1]

/-! ## Region 1 -/

/-- h = max((a + x D) + bias, 0). -/
def arrHL (a : S100000x128.Idx → EReal) (b : S1x128.Idx → EReal) (x : S100000x4.Idx → EReal) (D : S4x128.Idx → EReal) :
    S100000x128.Idx → EReal := fun i =>
  max ((a (ix2 (row i) (col i)) + ∑ k : Fin 4, x (ix2 (row i) k) * D (ix2 k (col i))) + b (ix2 (0 : Fin 1) (col i))) 0

/-- h P. -/
def arrQL (a : S100000x128.Idx → EReal) (b : S1x128.Idx → EReal) (x : S100000x4.Idx → EReal) (D : S4x128.Idx → EReal)
    (P : S128x128.Idx → EReal) : S100000x128.Idx → EReal := fun i =>
  ∑ k : Fin 128, arrHL a b x D (ix2 (row i) k) * P (ix2 k (col i))

theorem hl_point (x0 : Vec Ideal S5000x128 .f32) (x2 : Vec Ideal S5000x4 .f32) (x3 : Vec Ideal S4x128 .f32)
    (x1 : Vec Ideal S1x128 .f32) (a : S100000x128.Idx → EReal) (x : S100000x4.Idx → EReal)
    (p : Fin 5000) (q : Fin 128) (P : Fin 100000)
    (h0 : ∀ k, x0 (ix2 p k) = a (ix2 P k)) (h2 : ∀ k, x2 (ix2 p k) = x (ix2 P k)) :
    k1_pay1 (F := Ideal) x0 x2 x3 x1 (ix2 p q) = arrHL a x1 x x3 (ix2 P q) := by
  rw [KerPay.pay_hl]
  show _ = max ((a (ix2 P q) + ∑ k : Fin 4, x (ix2 P k) * x3 (ix2 k q)) + x1 (ix2 (0 : Fin 1) q)) 0
  simp only [h0, h2]

theorem ql_point (x0 : Vec Ideal S5000x128 .f32) (x2 : Vec Ideal S5000x4 .f32) (x3 : Vec Ideal S4x128 .f32)
    (x4 : Vec Ideal S128x128 .f32) (x1 : Vec Ideal S1x128 .f32) (a : S100000x128.Idx → EReal)
    (x : S100000x4.Idx → EReal) (p : Fin 5000) (q : Fin 128) (P : Fin 100000)
    (h0 : ∀ k, x0 (ix2 p k) = a (ix2 P k)) (h2 : ∀ k, x2 (ix2 p k) = x (ix2 P k)) :
    k1_pay2 (F := Ideal) x0 x2 x3 x4 x1 (ix2 p q) = arrQL a x1 x x3 x4 (ix2 P q) := by
  rw [KerPay.pay_ql]
  show _ = ∑ k : Fin 128, arrHL a x1 x x3 (ix2 P k) * x4 (ix2 k q)
  exact Finset.sum_congr rfl fun k _ => by rw [hl_point x0 x2 x3 x1 a x p k P h0 h2]

/-! ## Regions 2 and 3 -/

/-- One number per target node: max((a + h Q) + bias, 0) against a column of 128 weights. -/
def arrPT2 (a : S4000x128.Idx → EReal) (b : S1x128.Idx → EReal) (h : S4000x128.Idx → EReal) (Q : S128x128.Idx → EReal)
    (w : S128x1.Idx → EReal) : S4000x1.Idx → EReal := fun i =>
  ∑ k : Fin 128, max ((a (ix2 (row i) k) + ∑ j : Fin 128, h (ix2 (row i) j) * Q (ix2 j k)) + b (ix2 (0 : Fin 1) k)) 0
    * w (ix2 k (0 : Fin 1))

/-- One number per ligand node. -/
def arrPL2 (a : S100000x128.Idx → EReal) (b : S1x128.Idx → EReal) (h : S100000x128.Idx → EReal) (Q : S128x128.Idx → EReal)
    (w : S128x1.Idx → EReal) : S100000x1.Idx → EReal := fun i =>
  ∑ k : Fin 128, max ((a (ix2 (row i) k) + ∑ j : Fin 128, h (ix2 (row i) j) * Q (ix2 j k)) + b (ix2 (0 : Fin 1) k)) 0
    * w (ix2 k (0 : Fin 1))

theorem pt2_point (x0 x2 : Vec Ideal S1000x128 .f32) (x3 : Vec Ideal S128x128 .f32) (x4 : Vec Ideal S128x1 .f32)
    (x1 : Vec Ideal S1x128 .f32) (a h : S4000x128.Idx → EReal) (p : Fin 1000) (P : Fin 4000)
    (h0 : ∀ k, x0 (ix2 p k) = a (ix2 P k)) (h2 : ∀ k, x2 (ix2 p k) = h (ix2 P k)) :
    k2_pay1 (F := Ideal) x0 x2 x3 x4 x1 (ix2 p (0 : Fin 1)) = arrPT2 a x1 h x3 x4 (ix2 P (0 : Fin 1)) := by
  rw [KerPay.pay_pt2]
  show _ = ∑ k : Fin 128, max ((a (ix2 P k) + ∑ j : Fin 128, h (ix2 P j) * x3 (ix2 j k)) + x1 (ix2 (0 : Fin 1) k)) 0
    * x4 (ix2 k (0 : Fin 1))
  simp only [h0, h2]

theorem pl2_point (x0 x2 : Vec Ideal S5000x128 .f32) (x3 : Vec Ideal S128x128 .f32) (x4 : Vec Ideal S128x1 .f32)
    (x1 : Vec Ideal S1x128 .f32) (a h : S100000x128.Idx → EReal) (p : Fin 5000) (P : Fin 100000)
    (h0 : ∀ k, x0 (ix2 p k) = a (ix2 P k)) (h2 : ∀ k, x2 (ix2 p k) = h (ix2 P k)) :
    k3_pay1 (F := Ideal) x0 x2 x3 x4 x1 (ix2 p (0 : Fin 1)) = arrPL2 a x1 h x3 x4 (ix2 P (0 : Fin 1)) := by
  rw [KerPay.pay_pl2]
  show _ = ∑ k : Fin 128, max ((a (ix2 P k) + ∑ j : Fin 128, h (ix2 P j) * x3 (ix2 j k)) + x1 (ix2 (0 : Fin 1) k)) 0
    * x4 (ix2 k (0 : Fin 1))
  simp only [h0, h2]

end Cert.KernelIdeal.KerFns

end
-- ==== Proof.KerReg0.lean ====
/-
  Region 0's three output arrays.

  The grid has four points; point t works on rows 1000 t .. 1000 t + 999 of the two row-tiled inputs (the neighbours'
  mean and the targets' features) and of the three outputs, and on the whole of the five untiled inputs. So what point t
  writes back to an output is rows 1000 t .. of one whole-array function of the input arrays, the four blocks cover the
  4000 rows, and each output array ends holding that function.
-/
import proofs.«151303_j73272142069881_2_alg».proof.Proof.Gen.KernelIdeal.Frame
import proofs.«151303_j73272142069881_2_alg».proof.Proof.KerFns
import Idealize.ShloMosaic.Lib.Pipeline.Value

set_option maxRecDepth 16384

noncomputable section

namespace Cert.KernelIdeal.KerReg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KerFns

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows are at block row t, the untiled ones at block (0, 0). -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem tlt (t : Fin cfg0.N) : t.val < 4 := by
  have h : t.val < cfg0.N := t.isLt
  have hN : cfg0.N = 4 := N_0
  omega

/-- The row of the arrays that row p of point t's blocks is. -/
abbrev rowAt (t : Fin cfg0.N) (p : Fin 1000) : Fin 4000 := ⟨1000 * t.val + p.val, by have := tlt t; have := p.isLt; omega⟩

/-! ## The blocks as rows of the arrays -/

theorem blk0 (c : Dev nD) (t : Fin cfg0.N) (p : Fin 1000) (k : Fin 4) :
    (iblk0 V c 0 t : Vec Ideal S1000x4 .f32) (ix2 p k) = (V c main_v21 : S4000x4.Idx → EReal) (ix2 (rowAt t p) k) := by
  obtain ⟨⟨e0, e1⟩, -⟩ := idx t
  unfold iblk0
  rw [View.read_apply]
  show (V c main_v21 : S4000x4.Idx → EReal) _ = _
  congr 1
  funext a; apply Fin.ext
  match a with
  | ⟨0, _⟩ => show win0_0.index t (0 : Fin 2) * 1000 + 1 * p.val = 1000 * t.val + p.val; rw [e0]; omega
  | ⟨1, _⟩ => show win0_0.index t (1 : Fin 2) * 4 + 1 * k.val = k.val; rw [e1]; omega

theorem blk1 (c : Dev nD) (t : Fin cfg0.N) (p : Fin 1000) (k : Fin 1280) :
    (iblk0 V c 1 t : Vec Ideal S1000x1280 .f32) (ix2 p k) = (V c main_arg1 : S4000x1280.Idx → EReal) (ix2 (rowAt t p) k) := by
  obtain ⟨-, ⟨e0, e1⟩, -⟩ := idx t
  unfold iblk0
  rw [View.read_apply]
  show (V c main_arg1 : S4000x1280.Idx → EReal) _ = _
  congr 1
  funext a; apply Fin.ext
  match a with
  | ⟨0, _⟩ => show win0_1.index t (0 : Fin 2) * 1000 + 1 * p.val = 1000 * t.val + p.val; rw [e0]; omega
  | ⟨1, _⟩ => show win0_1.index t (1 : Fin 2) * 1280 + 1 * k.val = k.val; rw [e1]; omega

theorem blk2 (c : Dev nD) (t : Fin cfg0.N) : (iblk0 V c 2 t : Vec Ideal S4x128 .f32) = (V c main_arg3 : S4x128.Idx → EReal) := by
  obtain ⟨-, -, ⟨e0, e1⟩, -⟩ := idx t
  unfold iblk0
  funext j
  rw [View.read_apply]
  show (V c main_arg3 : S4x128.Idx → EReal) _ = _
  congr 1
  funext a; apply Fin.ext
  match a with
  | ⟨0, _⟩ => show win0_2.index t (0 : Fin 2) * 4 + 1 * (j 0).val = (j 0).val; rw [e0]; omega
  | ⟨1, _⟩ => show win0_2.index t (1 : Fin 2) * 128 + 1 * (j 1).val = (j 1).val; rw [e1]; omega

theorem blk3 (c : Dev nD) (t : Fin cfg0.N) : (iblk0 V c 3 t : Vec Ideal S1x128 .f32) = (V c main_v24 : S1x128.Idx → EReal) := by
  obtain ⟨-, -, -, ⟨e0, e1⟩, -⟩ := idx t
  unfold iblk0
  funext j
  rw [View.read_apply]
  show (V c main_v24 : S1x128.Idx → EReal) _ = _
  congr 1
  funext a; apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

theorem blk4 (c : Dev nD) (t : Fin cfg0.N) : (iblk0 V c 4 t : Vec Ideal S1280x128 .f32) = (V c main_arg5 : S1280x128.Idx → EReal) := by
  obtain ⟨-, -, -, -, ⟨e0, e1⟩, -⟩ := idx t
  unfold iblk0
  funext j
  rw [View.read_apply]
  show (V c main_arg5 : S1280x128.Idx → EReal) _ = _
  congr 1
  funext a; apply Fin.ext
  match a with
  | ⟨0, _⟩ => show win0_4.index t (0 : Fin 2) * 1280 + 1 * (j 0).val = (j 0).val; rw [e0]; omega
  | ⟨1, _⟩ => show win0_4.index t (1 : Fin 2) * 128 + 1 * (j 1).val = (j 1).val; rw [e1]; omega

theorem blk5 (c : Dev nD) (t : Fin cfg0.N) : (iblk0 V c 5 t : Vec Ideal S128x128 .f32) = (V c main_arg12 : S128x128.Idx → EReal) := by
  obtain ⟨-, -, -, -, -, ⟨e0, e1⟩, -⟩ := idx t
  unfold iblk0
  funext j
  rw [View.read_apply]
  show (V c main_arg12 : S128x128.Idx → EReal) _ = _
  congr 1
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem blk6 (c : Dev nD) (t : Fin cfg0.N) : (iblk0 V c 6 t : Vec Ideal S1280x128 .f32) = (V c main_arg6 : S1280x128.Idx → EReal) := by
  obtain ⟨-, -, -, -, -, -, ⟨e0, e1⟩, -⟩ := idx t
  unfold iblk0
  funext j
  rw [View.read_apply]
  show (V c main_arg6 : S1280x128.Idx → EReal) _ = _
  congr 1
  funext a; apply Fin.ext
  match a with
  | ⟨0, _⟩ => show win0_6.index t (0 : Fin 2) * 1280 + 1 * (j 0).val = (j 0).val; rw [e0]; omega
  | ⟨1, _⟩ => show win0_6.index t (1 : Fin 2) * 128 + 1 * (j 1).val = (j 1).val; rw [e1]; omega

/-! ## The three results -/

/-- The rectified pre-activation of the targets, of the arrays as the region finds them. -/
abbrev HT (c : Dev nD) : S4000x128.Idx → EReal :=
  arrHT (V c main_v21) (V c main_arg1) (V c main_arg3) (V c main_v24) (V c main_arg5)
abbrev QT (c : Dev nD) : S4000x128.Idx → EReal :=
  arrQT (V c main_v21) (V c main_arg1) (V c main_arg3) (V c main_v24) (V c main_arg5) (V c main_arg12)
abbrev PT (c : Dev nD) : S4000x128.Idx → EReal := arrPT (V c main_arg1) (V c main_arg6)

/-- Where entry (p, q) of an output block of point t sits in its array. -/
theorem emb7 (t : Fin cfg0.N) (p : Fin 1000) (q : Fin 128) :
    ((cfg0.win 7).blk t).view.emb (ix2 p q) = (ix2 (rowAt t p) q : S4000x128.Idx) := by
  obtain ⟨-, -, -, -, -, -, -, ⟨e0, e1⟩, -⟩ := idx t
  funext a; apply Fin.ext
  match a with
  | ⟨0, _⟩ => show win0_7.index t (0 : Fin 2) * 1000 + 1 * p.val = 1000 * t.val + p.val; rw [e0]; omega
  | ⟨1, _⟩ => show win0_7.index t (1 : Fin 2) * 128 + 1 * q.val = q.val; rw [e1]; omega
theorem emb8 (t : Fin cfg0.N) (p : Fin 1000) (q : Fin 128) :
    ((cfg0.win 8).blk t).view.emb (ix2 p q) = (ix2 (rowAt t p) q : S4000x128.Idx) := by
  obtain ⟨-, -, -, -, -, -, -, -, ⟨e0, e1⟩, -⟩ := idx t
  funext a; apply Fin.ext
  match a with
  | ⟨0, _⟩ => show win0_8.index t (0 : Fin 2) * 1000 + 1 * p.val = 1000 * t.val + p.val; rw [e0]; omega
  | ⟨1, _⟩ => show win0_8.index t (1 : Fin 2) * 128 + 1 * q.val = q.val; rw [e1]; omega
theorem emb9 (t : Fin cfg0.N) (p : Fin 1000) (q : Fin 128) :
    ((cfg0.win 9).blk t).view.emb (ix2 p q) = (ix2 (rowAt t p) q : S4000x128.Idx) := by
  obtain ⟨-, -, -, -, -, -, -, -, -, e0, e1⟩ := idx t
  funext a; apply Fin.ext
  match a with
  | ⟨0, _⟩ => show win0_9.index t (0 : Fin 2) * 1000 + 1 * p.val = 1000 * t.val + p.val; rw [e0]; omega
  | ⟨1, _⟩ => show win0_9.index t (1 : Fin 2) * 128 + 1 * q.val = q.val; rw [e1]; omega

/-- What point t writes back to the first output is rows 1000 t .. of HT. -/
theorem flushed7 (c : Dev nD) (t : Fin cfg0.N) :
    (dat0 V c).flushed 7 t = ((cfg0.win 7).blk t).view.read (Elt Ideal) (HT V c) := by
  show (cfg0.win 7).cut (grid0.coords t) ((dat0 V c).after 7 t) = _
  rw [after0_7]
  unfold out0_7
  rw [View.canon_unit_zero hz]
  simp only [View.ld_unit_zero (S := S1000x4) hz, View.ld_unit_zero (S := S1000x1280) hz, View.ld_unit_zero (S := S4x128) hz,
    View.ld_unit_zero (S := S1280x128) hz, View.ld_unit_zero (S := S1x128) hz]
  funext j
  obtain ⟨p, q, rfl⟩ : ∃ (p : Fin 1000) (q : Fin 128), j = ix2 p q := ⟨⟨(j 0).val, idx2_lt0 j⟩, ⟨(j 1).val, idx2_lt1 j⟩, eq_ix2 j⟩
  rw [View.read_apply, emb7]
  show k0_pay2 (F := Ideal) (iblk0 V c 0 t) (iblk0 V c 1 t) (iblk0 V c 2 t) (iblk0 V c 4 t) (iblk0 V c 3 t) (ix2 p q) = _
  rw [blk2, blk3, blk4]
  exact ht_point _ _ _ _ _ _ _ p q (rowAt t p) (fun k => blk0 V c t p k) (fun k => blk1 V c t p k)

theorem flushed8 (c : Dev nD) (t : Fin cfg0.N) :
    (dat0 V c).flushed 8 t = ((cfg0.win 8).blk t).view.read (Elt Ideal) (QT V c) := by
  show (cfg0.win 8).cut (grid0.coords t) ((dat0 V c).after 8 t) = _
  rw [after0_8]
  unfold out0_8
  rw [View.canon_unit_zero hz]
  simp only [View.ld_unit_zero (S := S1000x4) hz, View.ld_unit_zero (S := S1000x1280) hz, View.ld_unit_zero (S := S4x128) hz,
    View.ld_unit_zero (S := S1280x128) hz, View.ld_unit_zero (S := S128x128) hz, View.ld_unit_zero (S := S1x128) hz]
  funext j
  obtain ⟨p, q, rfl⟩ : ∃ (p : Fin 1000) (q : Fin 128), j = ix2 p q := ⟨⟨(j 0).val, idx2_lt0 j⟩, ⟨(j 1).val, idx2_lt1 j⟩, eq_ix2 j⟩
  rw [View.read_apply, emb8]
  show k0_pay3 (F := Ideal) (iblk0 V c 0 t) (iblk0 V c 1 t) (iblk0 V c 2 t) (iblk0 V c 4 t) (iblk0 V c 5 t) (iblk0 V c 3 t) (ix2 p q) = _
  rw [blk2, blk3, blk4, blk5]
  exact qt_point _ _ _ _ _ _ _ _ p q (rowAt t p) (fun k => blk0 V c t p k) (fun k => blk1 V c t p k)

theorem flushed9 (c : Dev nD) (t : Fin cfg0.N) :
    (dat0 V c).flushed 9 t = ((cfg0.win 9).blk t).view.read (Elt Ideal) (PT V c) := by
  show (cfg0.win 9).cut (grid0.coords t) ((dat0 V c).after 9 t) = _
  rw [after0_9]
  unfold out0_9
  rw [View.canon_unit_zero hz]
  simp only [View.ld_unit_zero (S := S1000x1280) hz, View.ld_unit_zero (S := S1280x128) hz]
  funext j
  obtain ⟨p, q, rfl⟩ : ∃ (p : Fin 1000) (q : Fin 128), j = ix2 p q := ⟨⟨(j 0).val, idx2_lt0 j⟩, ⟨(j 1).val, idx2_lt1 j⟩, eq_ix2 j⟩
  rw [View.read_apply, emb9]
  show k0_pay4 (F := Ideal) (iblk0 V c 1 t) (iblk0 V c 6 t) (ix2 p q) = _
  rw [blk6]
  exact pt_point _ _ _ p q (rowAt t p) (fun k => blk1 V c t p k)

/-! ## The blocks cover the arrays -/

/-- The point whose block holds row r. -/
abbrev ptOf (r : Nat) (hr : r < 4000) : Fin cfg0.N := ⟨r / 1000, by have hN : cfg0.N = 4 := N_0; omega⟩

theorem cover7 (i : S4000x128.Idx) : ∃ t : Fin cfg0.N, (cfg0.win 7).flush t = true ∧ i ∈ ((cfg0.win 7).blk t).view.set := by
  have h0 : (i 0).val < 4000 := (i 0).isLt
  have h1 : (i 1).val < 128 := (i 1).isLt
  refine ⟨ptOf (i 0).val h0, flush0_7 _, ?_⟩
  obtain ⟨-, -, -, -, -, -, -, ⟨e0, e1⟩, -⟩ := idx (ptOf (i 0).val h0)
  show i ∈ ((View.whole main_v25_0).slice (win0_7.rect (ptOf (i 0).val h0))).set
  rw [View.set_slice_whole, Rect.mem_set_unit]
  intro a
  match a with
  | ⟨0, _⟩ =>
    show win0_7.index (ptOf (i 0).val h0) (0 : Fin 2) * 1000 ≤ (i 0).val ∧ (i 0).val < win0_7.index (ptOf (i 0).val h0) (0 : Fin 2) * 1000 + 1000
    rw [e0]; show (i 0).val / 1000 * 1000 ≤ (i 0).val ∧ (i 0).val < (i 0).val / 1000 * 1000 + 1000; omega
  | ⟨1, _⟩ =>
    show win0_7.index (ptOf (i 0).val h0) (1 : Fin 2) * 128 ≤ (i 1).val ∧ (i 1).val < win0_7.index (ptOf (i 0).val h0) (1 : Fin 2) * 128 + 128
    rw [e1]; omega

theorem cover8 (i : S4000x128.Idx) : ∃ t : Fin cfg0.N, (cfg0.win 8).flush t = true ∧ i ∈ ((cfg0.win 8).blk t).view.set := by
  have h0 : (i 0).val < 4000 := (i 0).isLt
  have h1 : (i 1).val < 128 := (i 1).isLt
  refine ⟨ptOf (i 0).val h0, flush0_8 _, ?_⟩
  obtain ⟨-, -, -, -, -, -, -, -, ⟨e0, e1⟩, -⟩ := idx (ptOf (i 0).val h0)
  show i ∈ ((View.whole main_v25_1).slice (win0_8.rect (ptOf (i 0).val h0))).set
  rw [View.set_slice_whole, Rect.mem_set_unit]
  intro a
  match a with
  | ⟨0, _⟩ =>
    show win0_8.index (ptOf (i 0).val h0) (0 : Fin 2) * 1000 ≤ (i 0).val ∧ (i 0).val < win0_8.index (ptOf (i 0).val h0) (0 : Fin 2) * 1000 + 1000
    rw [e0]; show (i 0).val / 1000 * 1000 ≤ (i 0).val ∧ (i 0).val < (i 0).val / 1000 * 1000 + 1000; omega
  | ⟨1, _⟩ =>
    show win0_8.index (ptOf (i 0).val h0) (1 : Fin 2) * 128 ≤ (i 1).val ∧ (i 1).val < win0_8.index (ptOf (i 0).val h0) (1 : Fin 2) * 128 + 128
    rw [e1]; omega

theorem cover9 (i : S4000x128.Idx) : ∃ t : Fin cfg0.N, (cfg0.win 9).flush t = true ∧ i ∈ ((cfg0.win 9).blk t).view.set := by
  have h0 : (i 0).val < 4000 := (i 0).isLt
  have h1 : (i 1).val < 128 := (i 1).isLt
  refine ⟨ptOf (i 0).val h0, flush0_9 _, ?_⟩
  obtain ⟨-, -, -, -, -, -, -, -, -, e0, e1⟩ := idx (ptOf (i 0).val h0)
  show i ∈ ((View.whole main_v25_2).slice (win0_9.rect (ptOf (i 0).val h0))).set
  rw [View.set_slice_whole, Rect.mem_set_unit]
  intro a
  match a with
  | ⟨0, _⟩ =>
    show win0_9.index (ptOf (i 0).val h0) (0 : Fin 2) * 1000 ≤ (i 0).val ∧ (i 0).val < win0_9.index (ptOf (i 0).val h0) (0 : Fin 2) * 1000 + 1000
    rw [e0]; show (i 0).val / 1000 * 1000 ≤ (i 0).val ∧ (i 0).val < (i 0).val / 1000 * 1000 + 1000; omega
  | ⟨1, _⟩ =>
    show win0_9.index (ptOf (i 0).val h0) (1 : Fin 2) * 128 ≤ (i 1).val ∧ (i 1).val < win0_9.index (ptOf (i 0).val h0) (1 : Fin 2) * 128 + 128
    rw [e1]; omega

/-! ## The arrays after the region -/

theorem final7 (c : Dev nD) : (dat0 V c).arrAt 7 cfg0.N = HT V c :=
  (dat0 V c).arrAt_eq_of_cover 7 (HT V c) (fun t _ => flushed7 V c t) cover7
theorem final8 (c : Dev nD) : (dat0 V c).arrAt 8 cfg0.N = QT V c :=
  (dat0 V c).arrAt_eq_of_cover 8 (QT V c) (fun t _ => flushed8 V c t) cover8
theorem final9 (c : Dev nD) : (dat0 V c).arrAt 9 cfg0.N = PT V c :=
  (dat0 V c).arrAt_eq_of_cover 9 (PT V c) (fun t _ => flushed9 V c t) cover9

end Cert.KernelIdeal.KerReg0

end
-- ==== Proof.KerReg1.lean ====
/-
  Region 1's two output arrays.

  The grid has twenty points; point t works on rows 5000 t .. 5000 t + 4999 of the two row-tiled inputs (the mapped
  aggregate and the ligands' features) and of the two outputs, and on the whole of the bias row and the two weight
  matrices. What point t writes back is rows 5000 t .. of one whole-array function of the input arrays, the twenty blocks
  cover the 100000 rows, and each output array ends holding that function.
-/
import proofs.«151303_j73272142069881_2_alg».proof.Proof.Gen.KernelIdeal.Frame
import proofs.«151303_j73272142069881_2_alg».proof.Proof.KerFns
import Idealize.ShloMosaic.Lib.Pipeline.Value

set_option maxRecDepth 16384

noncomputable section

namespace Cert.KernelIdeal.KerReg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KerFns

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows are at block row t, the untiled ones at block (0, 0). -/
theorem idx : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem tlt (t : Fin cfg1.N) : t.val < 20 := by
  have h : t.val < cfg1.N := t.isLt
  have hN : cfg1.N = 20 := N_1
  omega

/-- The row of the arrays that row p of point t's blocks is. -/
abbrev rowAt (t : Fin cfg1.N) (p : Fin 5000) : Fin 100000 := ⟨5000 * t.val + p.val, by have := tlt t; have := p.isLt; omega⟩

/-! ## The blocks as rows of the arrays -/

theorem blk0 (c : Dev nD) (t : Fin cfg1.N) (p : Fin 5000) (k : Fin 128) :
    (iblk1 V c 0 t : Vec Ideal S5000x128 .f32) (ix2 p k) = (V c main_v43 : S100000x128.Idx → EReal) (ix2 (rowAt t p) k) := by
  obtain ⟨⟨e0, e1⟩, -⟩ := idx t
  unfold iblk1
  rw [View.read_apply]
  show (V c main_v43 : S100000x128.Idx → EReal) _ = _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

theorem blk1 (c : Dev nD) (t : Fin cfg1.N) : (iblk1 V c 1 t : Vec Ideal S1x128 .f32) = (V c main_v44 : S1x128.Idx → EReal) := by
  obtain ⟨-, ⟨e0, e1⟩, -⟩ := idx t
  unfold iblk1
  funext j
  rw [View.read_apply]
  show (V c main_v44 : S1x128.Idx → EReal) _ = _
  congr 1
  funext a; apply Fin.ext
  match a with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega

theorem blk2 (c : Dev nD) (t : Fin cfg1.N) (p : Fin 5000) (k : Fin 4) :
    (iblk1 V c 2 t : Vec Ideal S5000x4 .f32) (ix2 p k) = (V c main_arg0 : S100000x4.Idx → EReal) (ix2 (rowAt t p) k) := by
  obtain ⟨-, -, ⟨e0, e1⟩, -⟩ := idx t
  unfold iblk1
  rw [View.read_apply]
  show (V c main_arg0 : S100000x4.Idx → EReal) _ = _
  congr 1
  funext a; apply Fin.ext
  match a with
  | ⟨0, _⟩ => show win1_2.index t (0 : Fin 2) * 5000 + 1 * p.val = 5000 * t.val + p.val; rw [e0]; omega
  | ⟨1, _⟩ => show win1_2.index t (1 : Fin 2) * 4 + 1 * k.val = k.val; rw [e1]; omega

theorem blk3 (c : Dev nD) (t : Fin cfg1.N) : (iblk1 V c 3 t : Vec Ideal S4x128 .f32) = (V c main_arg8 : S4x128.Idx → EReal) := by
  obtain ⟨-, -, -, ⟨e0, e1⟩, -⟩ := idx t
  unfold iblk1
  funext j
  rw [View.read_apply]
  show (V c main_arg8 : S4x128.Idx → EReal) _ = _
  congr 1
  funext a; apply Fin.ext
  match a with
  | ⟨0, _⟩ => show win1_3.index t (0 : Fin 2) * 4 + 1 * (j 0).val = (j 0).val; rw [e0]; omega
  | ⟨1, _⟩ => show win1_3.index t (1 : Fin 2) * 128 + 1 * (j 1).val = (j 1).val; rw [e1]; omega

theorem blk4 (c : Dev nD) (t : Fin cfg1.N) : (iblk1 V c 4 t : Vec Ideal S128x128 .f32) = (V c main_arg9 : S128x128.Idx → EReal) := by
  obtain ⟨-, -, -, -, ⟨e0, e1⟩, -⟩ := idx t
  unfold iblk1
  funext j
  rw [View.read_apply]
  show (V c main_arg9 : S128x128.Idx → EReal) _ = _
  congr 1
  funext a; apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-! ## The results -/

/-- The rectified pre-activation of the ligands, of the arrays as the region finds them. -/
abbrev HL (c : Dev nD) : S100000x128.Idx → EReal :=
  arrHL (V c main_v43) (V c main_v44) (V c main_arg0) (V c main_arg8)

/-- Its product with the second round's target-side neighbour map. -/
abbrev QL (c : Dev nD) : S100000x128.Idx → EReal :=
  arrQL (V c main_v43) (V c main_v44) (V c main_arg0) (V c main_arg8) (V c main_arg9)

/-- Where entry (p, q) of a block of point t of this output sits in its array. -/
theorem emb5 (t : Fin cfg1.N) (p : Fin 5000) (q : Fin 128) :
    ((cfg1.win 5).blk t).view.emb (ix2 p q) = (ix2 (rowAt t p) q : S100000x128.Idx) := by
  obtain ⟨-, -, -, -, -, ⟨e0, e1⟩, -⟩ := idx t
  funext a; apply Fin.ext
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- Where entry (p, q) of a block of point t of this output sits in its array. -/
theorem emb6 (t : Fin cfg1.N) (p : Fin 5000) (q : Fin 128) :
    ((cfg1.win 6).blk t).view.emb (ix2 p q) = (ix2 (rowAt t p) q : S100000x128.Idx) := by
  obtain ⟨-, -, -, -, -, -, e0, e1⟩ := idx t
  funext a; apply Fin.ext
  match a with
  | ⟨0, _⟩ => show win1_6.index t (0 : Fin 2) * 5000 + 1 * p.val = 5000 * t.val + p.val; rw [e0]; omega
  | ⟨1, _⟩ => show win1_6.index t (1 : Fin 2) * 128 + 1 * q.val = q.val; rw [e1]; omega

/-- What point t writes back is rows 5000 t .. of the array function. -/
theorem flushed5 (c : Dev nD) (t : Fin cfg1.N) :
    (dat1 V c).flushed 5 t = ((cfg1.win 5).blk t).view.read (Elt Ideal) (HL V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x4) hz, View.ld_unit_zero (S := S4x128) hz, View.ld_unit_zero (S := S1x128) hz]
  funext j
  obtain ⟨p, q, rfl⟩ : ∃ (p : Fin 5000) (q : Fin 128), j = ix2 p q := ⟨⟨(j 0).val, idx2_lt0 j⟩, ⟨(j 1).val, idx2_lt1 j⟩, eq_ix2 j⟩
  rw [View.read_apply, emb5]
  show k1_pay1 (F := Ideal) (iblk1 V c 0 t) (iblk1 V c 2 t) (iblk1 V c 3 t) (iblk1 V c 1 t) (ix2 p q) = _
  rw [blk3, blk1]
  exact hl_point _ _ _ _ _ _ p q (rowAt t p) (fun k => blk0 V c t p k) (fun k => blk2 V c t p k)

/-- What point t writes back is rows 5000 t .. of the array function. -/
theorem flushed6 (c : Dev nD) (t : Fin cfg1.N) :
    (dat1 V c).flushed 6 t = ((cfg1.win 6).blk t).view.read (Elt Ideal) (QL V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x4) hz, View.ld_unit_zero (S := S4x128) hz, View.ld_unit_zero (S := S128x128) hz, View.ld_unit_zero (S := S1x128) hz]
  funext j
  obtain ⟨p, q, rfl⟩ : ∃ (p : Fin 5000) (q : Fin 128), j = ix2 p q := ⟨⟨(j 0).val, idx2_lt0 j⟩, ⟨(j 1).val, idx2_lt1 j⟩, eq_ix2 j⟩
  rw [View.read_apply, emb6]
  show k1_pay2 (F := Ideal) (iblk1 V c 0 t) (iblk1 V c 2 t) (iblk1 V c 3 t) (iblk1 V c 4 t) (iblk1 V c 1 t) (ix2 p q) = _
  rw [blk3, blk4, blk1]
  exact ql_point _ _ _ _ _ _ _ p q (rowAt t p) (fun k => blk0 V c t p k) (fun k => blk2 V c t p k)

/-! ## The blocks cover the arrays -/

/-- The point whose block holds row r. -/
abbrev ptOf (r : Nat) (hr : r < 100000) : Fin cfg1.N := ⟨r / 5000, by have hN : cfg1.N = 20 := N_1; omega⟩

theorem cover5 (i : S100000x128.Idx) : ∃ t : Fin cfg1.N, (cfg1.win 5).flush t = true ∧ i ∈ ((cfg1.win 5).blk t).view.set := by
  have h0 : (i 0).val < 100000 := (i 0).isLt
  have h1 : (i 1).val < 128 := (i 1).isLt
  refine ⟨ptOf (i 0).val h0, flush1_5 _, ?_⟩
  obtain ⟨-, -, -, -, -, ⟨e0, e1⟩, -⟩ := idx (ptOf (i 0).val h0)
  show i ∈ ((View.whole main_v45_0).slice (win1_5.rect (ptOf (i 0).val h0))).set
  rw [View.set_slice_whole, Rect.mem_set_unit]
  intro a
  match a with
  | ⟨0, _⟩ =>
    show win1_5.index (ptOf (i 0).val h0) (0 : Fin 2) * 5000 ≤ (i 0).val ∧ (i 0).val < win1_5.index (ptOf (i 0).val h0) (0 : Fin 2) * 5000 + 5000
    rw [e0]; show (i 0).val / 5000 * 5000 ≤ (i 0).val ∧ (i 0).val < (i 0).val / 5000 * 5000 + 5000; omega
  | ⟨1, _⟩ =>
    show win1_5.index (ptOf (i 0).val h0) (1 : Fin 2) * 128 ≤ (i 1).val ∧ (i 1).val < win1_5.index (ptOf (i 0).val h0) (1 : Fin 2) * 128 + 128
    rw [e1]; omega

theorem cover6 (i : S100000x128.Idx) : ∃ t : Fin cfg1.N, (cfg1.win 6).flush t = true ∧ i ∈ ((cfg1.win 6).blk t).view.set := by
  have h0 : (i 0).val < 100000 := (i 0).isLt
  have h1 : (i 1).val < 128 := (i 1).isLt
  refine ⟨ptOf (i 0).val h0, flush1_6 _, ?_⟩
  obtain ⟨-, -, -, -, -, -, e0, e1⟩ := idx (ptOf (i 0).val h0)
  show i ∈ ((View.whole main_v45_1).slice (win1_6.rect (ptOf (i 0).val h0))).set
  rw [View.set_slice_whole, Rect.mem_set_unit]
  intro a
  match a with
  | ⟨0, _⟩ =>
    show win1_6.index (ptOf (i 0).val h0) (0 : Fin 2) * 5000 ≤ (i 0).val ∧ (i 0).val < win1_6.index (ptOf (i 0).val h0) (0 : Fin 2) * 5000 + 5000
    rw [e0]; show (i 0).val / 5000 * 5000 ≤ (i 0).val ∧ (i 0).val < (i 0).val / 5000 * 5000 + 5000; omega
  | ⟨1, _⟩ =>
    show win1_6.index (ptOf (i 0).val h0) (1 : Fin 2) * 128 ≤ (i 1).val ∧ (i 1).val < win1_6.index (ptOf (i 0).val h0) (1 : Fin 2) * 128 + 128
    rw [e1]; omega

/-! ## The arrays after the region -/

theorem final5 (c : Dev nD) : (dat1 V c).arrAt 5 cfg1.N = HL V c :=
  (dat1 V c).arrAt_eq_of_cover 5 (HL V c) (fun t _ => flushed5 V c t) cover5

theorem final6 (c : Dev nD) : (dat1 V c).arrAt 6 cfg1.N = QL V c :=
  (dat1 V c).arrAt_eq_of_cover 6 (QL V c) (fun t _ => flushed6 V c t) cover6

end Cert.KernelIdeal.KerReg1

end
-- ==== Proof.KerReg2.lean ====
/-
  Region 2's output array.

  The grid has four points; point t works on rows 1000 t .. 1000 t + 999 of the two row-tiled inputs (the mapped aggregate
  and the targets' first-round features) and of the output column, and on the whole of the bias row, the weight matrix and
  the 128 score weights. What point t writes back is rows 1000 t .. of one whole-array function, the four blocks cover the
  4000 rows, and the output ends holding that function.
-/
import proofs.«151303_j73272142069881_2_alg».proof.Proof.Gen.KernelIdeal.Frame
import proofs.«151303_j73272142069881_2_alg».proof.Proof.KerFns
import Idealize.ShloMosaic.Lib.Pipeline.Value

set_option maxRecDepth 16384

noncomputable section

namespace Cert.KernelIdeal.KerReg2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KerFns

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows are at block row t, the untiled ones at block (0, 0). -/
theorem idx : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

theorem tlt (t : Fin cfg2.N) : t.val < 4 := by
  have h : t.val < cfg2.N := t.isLt
  have hN : cfg2.N = 4 := N_2
  omega

/-- The row of the arrays that row p of point t's blocks is. -/
abbrev rowAt (t : Fin cfg2.N) (p : Fin 1000) : Fin 4000 := ⟨1000 * t.val + p.val, by have := tlt t; have := p.isLt; omega⟩

/-! ## The blocks as rows of the arrays -/

theorem blk0 (c : Dev nD) (t : Fin cfg2.N) (p : Fin 1000) (k : Fin 128) :
    (iblk2 V c 0 t : Vec Ideal S1000x128 .f32) (ix2 p k) = (V c main_v63 : S4000x128.Idx → EReal) (ix2 (rowAt t p) k) := by
  obtain ⟨⟨e0, e1⟩, -⟩ := idx t
  unfold iblk2
  rw [View.read_apply]
  show (V c main_v63 : S4000x128.Idx → EReal) _ = _
  congr 1
  funext a; apply Fin.ext
  match a with
  | ⟨0, _⟩ => show win2_0.index t (0 : Fin 2) * 1000 + 1 * p.val = 1000 * t.val + p.val; rw [e0]; omega
  | ⟨1, _⟩ => show win2_0.index t (1 : Fin 2) * 128 + 1 * k.val = k.val; rw [e1]; omega

theorem blk1 (c : Dev nD) (t : Fin cfg2.N) : (iblk2 V c 1 t : Vec Ideal S1x128 .f32) = (V c main_v82 : S1x128.Idx → EReal) := by
  obtain ⟨-, ⟨e0, e1⟩, -⟩ := idx t
  unfold iblk2
  funext j
  rw [View.read_apply]
  show (V c main_v82 : S1x128.Idx → EReal) _ = _
  congr 1
  funext a; apply Fin.ext
  match a with
  | ⟨0, _⟩ => show win2_1.index t (0 : Fin 2) * 1 + 1 * (j 0).val = (j 0).val; rw [e0]; omega
  | ⟨1, _⟩ => show win2_1.index t (1 : Fin 2) * 128 + 1 * (j 1).val = (j 1).val; rw [e1]; omega

theorem blk2 (c : Dev nD) (t : Fin cfg2.N) (p : Fin 1000) (k : Fin 128) :
    (iblk2 V c 2 t : Vec Ideal S1000x128 .f32) (ix2 p k) = (V c main_v25_0 : S4000x128.Idx → EReal) (ix2 (rowAt t p) k) := by
  obtain ⟨-, -, ⟨e0, e1⟩, -⟩ := idx t
  unfold iblk2
  rw [View.read_apply]
  show (V c main_v25_0 : S4000x128.Idx → EReal) _ = _
  congr 1
  funext a; apply Fin.ext
  match a with
  | ⟨0, _⟩ => show win2_2.index t (0 : Fin 2) * 1000 + 1 * p.val = 1000 * t.val + p.val; rw [e0]; omega
  | ⟨1, _⟩ => show win2_2.index t (1 : Fin 2) * 128 + 1 * k.val = k.val; rw [e1]; omega

theorem blk3 (c : Dev nD) (t : Fin cfg2.N) : (iblk2 V c 3 t : Vec Ideal S128x128 .f32) = (V c main_arg11 : S128x128.Idx → EReal) := by
  obtain ⟨-, -, -, ⟨e0, e1⟩, -⟩ := idx t
  unfold iblk2
  funext j
  rw [View.read_apply]
  show (V c main_arg11 : S128x128.Idx → EReal) _ = _
  congr 1
  funext a; apply Fin.ext
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

theorem blk4 (c : Dev nD) (t : Fin cfg2.N) : (iblk2 V c 4 t : Vec Ideal S128x1 .f32) = (V c main_v23 : S128x1.Idx → EReal) := by
  obtain ⟨-, -, -, -, ⟨e0, e1⟩, -⟩ := idx t
  unfold iblk2
  funext j
  rw [View.read_apply]
  show (V c main_v23 : S128x1.Idx → EReal) _ = _
  congr 1
  funext a; apply Fin.ext
  match a with
  | ⟨0, _⟩ => show win2_4.index t (0 : Fin 2) * 128 + 1 * (j 0).val = (j 0).val; rw [e0]; omega
  | ⟨1, _⟩ => show win2_4.index t (1 : Fin 2) * 1 + 1 * (j 1).val = (j 1).val; rw [e1]; omega

/-! ## The results -/

/-- The target nodes' half of the edge score, of the arrays as the region finds them. -/
abbrev PT2 (c : Dev nD) : S4000x1.Idx → EReal :=
  arrPT2 (V c main_v63) (V c main_v82) (V c main_v25_0) (V c main_arg11) (V c main_v23)

/-- Where entry (p, q) of a block of point t of this output sits in its array. -/
theorem emb5 (t : Fin cfg2.N) (p : Fin 1000) (q : Fin 1) :
    ((cfg2.win 5).blk t).view.emb (ix2 p q) = (ix2 (rowAt t p) q : S4000x1.Idx) := by
  obtain ⟨-, -, -, -, -, e0, e1⟩ := idx t
  funext a; apply Fin.ext
  match a with
  | ⟨0, _⟩ => show win2_5.index t (0 : Fin 2) * 1000 + 1 * p.val = 1000 * t.val + p.val; rw [e0]; omega
  | ⟨1, _⟩ => show win2_5.index t (1 : Fin 2) * 1 + 1 * q.val = q.val; rw [e1]; omega

/-- What point t writes back is rows 1000 t .. of the array function. -/
theorem flushed5 (c : Dev nD) (t : Fin cfg2.N) :
    (dat2 V c).flushed 5 t = ((cfg2.win 5).blk t).view.read (Elt Ideal) (PT2 V c) := by
  show (cfg2.win 5).cut (grid2.coords t) ((dat2 V c).after 5 t) = _
  rw [after2_5]
  unfold out2_5
  rw [View.canon_unit_zero hz]
  simp only [View.ld_unit_zero (S := S1000x128) hz, View.ld_unit_zero (S := S128x128) hz, View.ld_unit_zero (S := S128x1) hz, View.ld_unit_zero (S := S1x128) hz]
  funext j
  obtain ⟨p, q, rfl⟩ : ∃ (p : Fin 1000) (q : Fin 1), j = ix2 p q := ⟨⟨(j 0).val, idx2_lt0 j⟩, ⟨(j 1).val, idx2_lt1 j⟩, eq_ix2 j⟩
  obtain rfl : q = 0 := Subsingleton.elim _ _
  rw [View.read_apply, emb5]
  show k2_pay1 (F := Ideal) (iblk2 V c 0 t) (iblk2 V c 2 t) (iblk2 V c 3 t) (iblk2 V c 4 t) (iblk2 V c 1 t) (ix2 p (0 : Fin 1)) = _
  rw [blk3, blk4, blk1]
  exact pt2_point _ _ _ _ _ _ _ p (rowAt t p) (fun k => blk0 V c t p k) (fun k => blk2 V c t p k)

/-! ## The blocks cover the arrays -/

/-- The point whose block holds row r. -/
abbrev ptOf (r : Nat) (hr : r < 4000) : Fin cfg2.N := ⟨r / 1000, by have hN : cfg2.N = 4 := N_2; omega⟩

theorem cover5 (i : S4000x1.Idx) : ∃ t : Fin cfg2.N, (cfg2.win 5).flush t = true ∧ i ∈ ((cfg2.win 5).blk t).view.set := by
  have h0 : (i 0).val < 4000 := (i 0).isLt
  have h1 : (i 1).val < 1 := (i 1).isLt
  refine ⟨ptOf (i 0).val h0, flush2_5 _, ?_⟩
  obtain ⟨-, -, -, -, -, e0, e1⟩ := idx (ptOf (i 0).val h0)
  show i ∈ ((View.whole main_v83).slice (win2_5.rect (ptOf (i 0).val h0))).set
  rw [View.set_slice_whole, Rect.mem_set_unit]
  intro a
  match a with
  | ⟨0, _⟩ =>
    show win2_5.index (ptOf (i 0).val h0) (0 : Fin 2) * 1000 ≤ (i 0).val ∧ (i 0).val < win2_5.index (ptOf (i 0).val h0) (0 : Fin 2) * 1000 + 1000
    rw [e0]; show (i 0).val / 1000 * 1000 ≤ (i 0).val ∧ (i 0).val < (i 0).val / 1000 * 1000 + 1000; omega
  | ⟨1, _⟩ =>
    show win2_5.index (ptOf (i 0).val h0) (1 : Fin 2) * 1 ≤ (i 1).val ∧ (i 1).val < win2_5.index (ptOf (i 0).val h0) (1 : Fin 2) * 1 + 1
    rw [e1]; omega

/-! ## The arrays after the region -/

theorem final5 (c : Dev nD) : (dat2 V c).arrAt 5 cfg2.N = PT2 V c :=
  (dat2 V c).arrAt_eq_of_cover 5 (PT2 V c) (fun t _ => flushed5 V c t) cover5

end Cert.KernelIdeal.KerReg2

end
-- ==== Proof.KerReg3.lean ====
/-
  Region 3's output array.

  The grid has twenty points; point t works on rows 5000 t .. 5000 t + 4999 of the two row-tiled inputs (the mapped
  aggregate and the ligands' first-round features) and of the output column, and on the whole of the bias row, the weight
  matrix and the 128 score weights. What point t writes back is rows 5000 t .. of one whole-array function, the twenty
  blocks cover the 100000 rows, and the output ends holding that function.
-/
import proofs.«151303_j73272142069881_2_alg».proof.Proof.Gen.KernelIdeal.Frame
import proofs.«151303_j73272142069881_2_alg».proof.Proof.KerFns
import Idealize.ShloMosaic.Lib.Pipeline.Value

set_option maxRecDepth 16384

noncomputable section

namespace Cert.KernelIdeal.KerReg3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KerFns

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows are at block row t, the untiled ones at block (0, 0). -/
theorem idx : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

theorem tlt (t : Fin cfg3.N) : t.val < 20 := by
  have h : t.val < cfg3.N := t.isLt
  have hN : cfg3.N = 20 := N_3
  omega

/-- The row of the arrays that row p of point t's blocks is. -/
abbrev rowAt (t : Fin cfg3.N) (p : Fin 5000) : Fin 100000 := ⟨5000 * t.val + p.val, by have := tlt t; have := p.isLt; omega⟩

/-! ## The blocks as rows of the arrays -/

theorem blk0 (c : Dev nD) (t : Fin cfg3.N) (p : Fin 5000) (k : Fin 128) :
    (iblk3 V c 0 t : Vec Ideal S5000x128 .f32) (ix2 p k) = (V c main_v81 : S100000x128.Idx → EReal) (ix2 (rowAt t p) k) := by
  obtain ⟨⟨e0, e1⟩, -⟩ := idx t
  unfold iblk3
  rw [View.read_apply]
  show (V c main_v81 : S100000x128.Idx → EReal) _ = _
  congr 1
  funext a; apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

theorem blk1 (c : Dev nD) (t : Fin cfg3.N) : (iblk3 V c 1 t : Vec Ideal S1x128 .f32) = (V c main_v84 : S1x128.Idx → EReal) := by
  obtain ⟨-, ⟨e0, e1⟩, -⟩ := idx t
  unfold iblk3
  funext j
  rw [View.read_apply]
  show (V c main_v84 : S1x128.Idx → EReal) _ = _
  congr 1
  funext a; apply Fin.ext
  match a with
  | ⟨0, _⟩ => show win3_1.index t (0 : Fin 2) * 1 + 1 * (j 0).val = (j 0).val; rw [e0]; omega
  | ⟨1, _⟩ => show win3_1.index t (1 : Fin 2) * 128 + 1 * (j 1).val = (j 1).val; rw [e1]; omega

theorem blk2 (c : Dev nD) (t : Fin cfg3.N) (p : Fin 5000) (k : Fin 128) :
    (iblk3 V c 2 t : Vec Ideal S5000x128 .f32) (ix2 p k) = (V c main_v45_0 : S100000x128.Idx → EReal) (ix2 (rowAt t p) k) := by
  obtain ⟨-, -, ⟨e0, e1⟩, -⟩ := idx t
  unfold iblk3
  rw [View.read_apply]
  show (V c main_v45_0 : S100000x128.Idx → EReal) _ = _
  congr 1
  funext a; apply Fin.ext
  match a with
  | ⟨0, _⟩ => show win3_2.index t (0 : Fin 2) * 5000 + 1 * p.val = 5000 * t.val + p.val; rw [e0]; omega
  | ⟨1, _⟩ => show win3_2.index t (1 : Fin 2) * 128 + 1 * k.val = k.val; rw [e1]; omega

theorem blk3 (c : Dev nD) (t : Fin cfg3.N) : (iblk3 V c 3 t : Vec Ideal S128x128 .f32) = (V c main_arg14 : S128x128.Idx → EReal) := by
  obtain ⟨-, -, -, ⟨e0, e1⟩, -⟩ := idx t
  unfold iblk3
  funext j
  rw [View.read_apply]
  show (V c main_arg14 : S128x128.Idx → EReal) _ = _
  congr 1
  funext a; apply Fin.ext
  match a with
  | ⟨0, _⟩ => show win3_3.index t (0 : Fin 2) * 128 + 1 * (j 0).val = (j 0).val; rw [e0]; omega
  | ⟨1, _⟩ => show win3_3.index t (1 : Fin 2) * 128 + 1 * (j 1).val = (j 1).val; rw [e1]; omega

theorem blk4 (c : Dev nD) (t : Fin cfg3.N) : (iblk3 V c 4 t : Vec Ideal S128x1 .f32) = (V c main_v22 : S128x1.Idx → EReal) := by
  obtain ⟨-, -, -, -, ⟨e0, e1⟩, -⟩ := idx t
  unfold iblk3
  funext j
  rw [View.read_apply]
  show (V c main_v22 : S128x1.Idx → EReal) _ = _
  congr 1
  funext a; apply Fin.ext
  match a with
  | ⟨0, _⟩ => show win3_4.index t (0 : Fin 2) * 128 + 1 * (j 0).val = (j 0).val; rw [e0]; omega
  | ⟨1, _⟩ => show win3_4.index t (1 : Fin 2) * 1 + 1 * (j 1).val = (j 1).val; rw [e1]; omega

/-! ## The results -/

/-- The ligand nodes' half of the edge score, of the arrays as the region finds them. -/
abbrev PL2 (c : Dev nD) : S100000x1.Idx → EReal :=
  arrPL2 (V c main_v81) (V c main_v84) (V c main_v45_0) (V c main_arg14) (V c main_v22)

/-- Where entry (p, q) of a block of point t of this output sits in its array. -/
theorem emb5 (t : Fin cfg3.N) (p : Fin 5000) (q : Fin 1) :
    ((cfg3.win 5).blk t).view.emb (ix2 p q) = (ix2 (rowAt t p) q : S100000x1.Idx) := by
  obtain ⟨-, -, -, -, -, e0, e1⟩ := idx t
  funext a; apply Fin.ext
  match a with
  | ⟨0, _⟩ => show win3_5.index t (0 : Fin 2) * 5000 + 1 * p.val = 5000 * t.val + p.val; rw [e0]; omega
  | ⟨1, _⟩ => show win3_5.index t (1 : Fin 2) * 1 + 1 * q.val = q.val; rw [e1]; omega

/-- What point t writes back is rows 5000 t .. of the array function. -/
theorem flushed5 (c : Dev nD) (t : Fin cfg3.N) :
    (dat3 V c).flushed 5 t = ((cfg3.win 5).blk t).view.read (Elt Ideal) (PL2 V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S128x1) hz, View.ld_unit_zero (S := S1x128) hz]
  funext j
  obtain ⟨p, q, rfl⟩ : ∃ (p : Fin 5000) (q : Fin 1), j = ix2 p q := ⟨⟨(j 0).val, idx2_lt0 j⟩, ⟨(j 1).val, idx2_lt1 j⟩, eq_ix2 j⟩
  obtain rfl : q = 0 := Subsingleton.elim _ _
  rw [View.read_apply, emb5]
  show k3_pay1 (F := Ideal) (iblk3 V c 0 t) (iblk3 V c 2 t) (iblk3 V c 3 t) (iblk3 V c 4 t) (iblk3 V c 1 t) (ix2 p (0 : Fin 1)) = _
  rw [blk3, blk4, blk1]
  exact pl2_point _ _ _ _ _ _ _ p (rowAt t p) (fun k => blk0 V c t p k) (fun k => blk2 V c t p k)

/-! ## The blocks cover the arrays -/

/-- The point whose block holds row r. -/
abbrev ptOf (r : Nat) (hr : r < 100000) : Fin cfg3.N := ⟨r / 5000, by have hN : cfg3.N = 20 := N_3; omega⟩

theorem cover5 (i : S100000x1.Idx) : ∃ t : Fin cfg3.N, (cfg3.win 5).flush t = true ∧ i ∈ ((cfg3.win 5).blk t).view.set := by
  have h0 : (i 0).val < 100000 := (i 0).isLt
  have h1 : (i 1).val < 1 := (i 1).isLt
  refine ⟨ptOf (i 0).val h0, flush3_5 _, ?_⟩
  obtain ⟨-, -, -, -, -, e0, e1⟩ := idx (ptOf (i 0).val h0)
  show i ∈ ((View.whole main_v85).slice (win3_5.rect (ptOf (i 0).val h0))).set
  rw [View.set_slice_whole, Rect.mem_set_unit]
  intro a
  match a with
  | ⟨0, _⟩ =>
    show win3_5.index (ptOf (i 0).val h0) (0 : Fin 2) * 5000 ≤ (i 0).val ∧ (i 0).val < win3_5.index (ptOf (i 0).val h0) (0 : Fin 2) * 5000 + 5000
    rw [e0]; show (i 0).val / 5000 * 5000 ≤ (i 0).val ∧ (i 0).val < (i 0).val / 5000 * 5000 + 5000; omega
  | ⟨1, _⟩ =>
    show win3_5.index (ptOf (i 0).val h0) (1 : Fin 2) * 1 ≤ (i 1).val ∧ (i 1).val < win3_5.index (ptOf (i 0).val h0) (1 : Fin 2) * 1 + 1
    rw [e1]; omega

/-! ## The arrays after the region -/

theorem final5 (c : Dev nD) : (dat3 V c).arrAt 5 cfg3.N = PL2 V c :=
  (dat3 V c).arrAt_eq_of_cover 5 (PL2 V c) (fun t _ => flushed5 V c t) cover5

end Cert.KernelIdeal.KerReg3

end
-- ==== Proof.KerFold.lean ====
/-
  The buffers that cross segments unchanged, and each region's outputs at its exit.

  The contents at the nine segment boundaries are a fold: a stretch of host operations changes only the buffers its
  operations write, a region only its output arrays. So a buffer that a later segment reads holds, when it is read, what
  the segment that produced it left there. The lemmas below walk each such buffer back, one boundary at a time, to the
  boundary where it was produced (for an argument array: to the launch memory), and state the seven arrays the four regions
  write as the whole-array functions of the contents at the region's entry.
-/
import proofs.«151303_j73272142069881_2_alg».proof.Proof.Gen.KernelIdeal.Frame
import proofs.«151303_j73272142069881_2_alg».proof.Proof.KerReg0
import proofs.«151303_j73272142069881_2_alg».proof.Proof.KerReg1
import proofs.«151303_j73272142069881_2_alg».proof.Proof.KerReg2
import proofs.«151303_j73272142069881_2_alg».proof.Proof.KerReg3

set_option maxRecDepth 16384

noncomputable section

namespace Cert.KernelIdeal.KerFold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- A stretch of host operations leaves a buffer none of its operations writes as it was. -/
macro "carry_host " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## One boundary at a time -/
theorem s2_main_v1 (c : Dev nD) : W2 m ρ c (Proc.devRef .tc main_v1) = W1 m ρ c (Proc.devRef .tc main_v1) := W2_of_ne m ρ c main_v1 (by decide)
theorem s3_main_v1 (c : Dev nD) : W3 m ρ c (Proc.devRef .tc main_v1) = W2 m ρ c (Proc.devRef .tc main_v1) := by carry_host hostOps1
theorem s4_main_v1 (c : Dev nD) : W4 m ρ c (Proc.devRef .tc main_v1) = W3 m ρ c (Proc.devRef .tc main_v1) := W4_of_ne m ρ c main_v1 (by decide)
theorem s5_main_v1 (c : Dev nD) : W5 m ρ c (Proc.devRef .tc main_v1) = W4 m ρ c (Proc.devRef .tc main_v1) := by carry_host hostOps2
theorem s6_main_v1 (c : Dev nD) : W6 m ρ c (Proc.devRef .tc main_v1) = W5 m ρ c (Proc.devRef .tc main_v1) := W6_of_ne m ρ c main_v1 (by decide)
theorem s7_main_v1 (c : Dev nD) : W7 m ρ c (Proc.devRef .tc main_v1) = W6 m ρ c (Proc.devRef .tc main_v1) := by carry_host hostOps3
theorem s8_main_v1 (c : Dev nD) : W8 m ρ c (Proc.devRef .tc main_v1) = W7 m ρ c (Proc.devRef .tc main_v1) := W8_of_ne m ρ c main_v1 (by decide)
theorem s2_main_v3 (c : Dev nD) : W2 m ρ c (Proc.devRef .tc main_v3) = W1 m ρ c (Proc.devRef .tc main_v3) := W2_of_ne m ρ c main_v3 (by decide)
theorem s3_main_v3 (c : Dev nD) : W3 m ρ c (Proc.devRef .tc main_v3) = W2 m ρ c (Proc.devRef .tc main_v3) := by carry_host hostOps1
theorem s4_main_v3 (c : Dev nD) : W4 m ρ c (Proc.devRef .tc main_v3) = W3 m ρ c (Proc.devRef .tc main_v3) := W4_of_ne m ρ c main_v3 (by decide)
theorem s5_main_v3 (c : Dev nD) : W5 m ρ c (Proc.devRef .tc main_v3) = W4 m ρ c (Proc.devRef .tc main_v3) := by carry_host hostOps2
theorem s6_main_v3 (c : Dev nD) : W6 m ρ c (Proc.devRef .tc main_v3) = W5 m ρ c (Proc.devRef .tc main_v3) := W6_of_ne m ρ c main_v3 (by decide)
theorem s7_main_v3 (c : Dev nD) : W7 m ρ c (Proc.devRef .tc main_v3) = W6 m ρ c (Proc.devRef .tc main_v3) := by carry_host hostOps3
theorem s8_main_v3 (c : Dev nD) : W8 m ρ c (Proc.devRef .tc main_v3) = W7 m ρ c (Proc.devRef .tc main_v3) := W8_of_ne m ρ c main_v3 (by decide)
theorem s2_main_v22 (c : Dev nD) : W2 m ρ c (Proc.devRef .tc main_v22) = W1 m ρ c (Proc.devRef .tc main_v22) := W2_of_ne m ρ c main_v22 (by decide)
theorem s3_main_v22 (c : Dev nD) : W3 m ρ c (Proc.devRef .tc main_v22) = W2 m ρ c (Proc.devRef .tc main_v22) := by carry_host hostOps1
theorem s4_main_v22 (c : Dev nD) : W4 m ρ c (Proc.devRef .tc main_v22) = W3 m ρ c (Proc.devRef .tc main_v22) := W4_of_ne m ρ c main_v22 (by decide)
theorem s5_main_v22 (c : Dev nD) : W5 m ρ c (Proc.devRef .tc main_v22) = W4 m ρ c (Proc.devRef .tc main_v22) := by carry_host hostOps2
theorem s6_main_v22 (c : Dev nD) : W6 m ρ c (Proc.devRef .tc main_v22) = W5 m ρ c (Proc.devRef .tc main_v22) := W6_of_ne m ρ c main_v22 (by decide)
theorem s7_main_v22 (c : Dev nD) : W7 m ρ c (Proc.devRef .tc main_v22) = W6 m ρ c (Proc.devRef .tc main_v22) := by carry_host hostOps3
theorem s2_main_v23 (c : Dev nD) : W2 m ρ c (Proc.devRef .tc main_v23) = W1 m ρ c (Proc.devRef .tc main_v23) := W2_of_ne m ρ c main_v23 (by decide)
theorem s3_main_v23 (c : Dev nD) : W3 m ρ c (Proc.devRef .tc main_v23) = W2 m ρ c (Proc.devRef .tc main_v23) := by carry_host hostOps1
theorem s4_main_v23 (c : Dev nD) : W4 m ρ c (Proc.devRef .tc main_v23) = W3 m ρ c (Proc.devRef .tc main_v23) := W4_of_ne m ρ c main_v23 (by decide)
theorem s5_main_v23 (c : Dev nD) : W5 m ρ c (Proc.devRef .tc main_v23) = W4 m ρ c (Proc.devRef .tc main_v23) := by carry_host hostOps2
theorem s3_main_v25_0 (c : Dev nD) : W3 m ρ c (Proc.devRef .tc main_v25_0) = W2 m ρ c (Proc.devRef .tc main_v25_0) := by carry_host hostOps1
theorem s4_main_v25_0 (c : Dev nD) : W4 m ρ c (Proc.devRef .tc main_v25_0) = W3 m ρ c (Proc.devRef .tc main_v25_0) := W4_of_ne m ρ c main_v25_0 (by decide)
theorem s5_main_v25_0 (c : Dev nD) : W5 m ρ c (Proc.devRef .tc main_v25_0) = W4 m ρ c (Proc.devRef .tc main_v25_0) := by carry_host hostOps2
theorem s3_main_v25_1 (c : Dev nD) : W3 m ρ c (Proc.devRef .tc main_v25_1) = W2 m ρ c (Proc.devRef .tc main_v25_1) := by carry_host hostOps1
theorem s4_main_v25_1 (c : Dev nD) : W4 m ρ c (Proc.devRef .tc main_v25_1) = W3 m ρ c (Proc.devRef .tc main_v25_1) := W4_of_ne m ρ c main_v25_1 (by decide)
theorem s5_main_v45_0 (c : Dev nD) : W5 m ρ c (Proc.devRef .tc main_v45_0) = W4 m ρ c (Proc.devRef .tc main_v45_0) := by carry_host hostOps2
theorem s6_main_v45_0 (c : Dev nD) : W6 m ρ c (Proc.devRef .tc main_v45_0) = W5 m ρ c (Proc.devRef .tc main_v45_0) := W6_of_ne m ρ c main_v45_0 (by decide)
theorem s7_main_v45_0 (c : Dev nD) : W7 m ρ c (Proc.devRef .tc main_v45_0) = W6 m ρ c (Proc.devRef .tc main_v45_0) := by carry_host hostOps3
theorem s6_main_v81 (c : Dev nD) : W6 m ρ c (Proc.devRef .tc main_v81) = W5 m ρ c (Proc.devRef .tc main_v81) := W6_of_ne m ρ c main_v81 (by decide)
theorem s7_main_v81 (c : Dev nD) : W7 m ρ c (Proc.devRef .tc main_v81) = W6 m ρ c (Proc.devRef .tc main_v81) := by carry_host hostOps3
theorem s7_main_v83 (c : Dev nD) : W7 m ρ c (Proc.devRef .tc main_v83) = W6 m ρ c (Proc.devRef .tc main_v83) := by carry_host hostOps3
theorem s8_main_v83 (c : Dev nD) : W8 m ρ c (Proc.devRef .tc main_v83) = W7 m ρ c (Proc.devRef .tc main_v83) := W8_of_ne m ρ c main_v83 (by decide)
theorem s1_main_arg1 (c : Dev nD) : W1 m ρ c (Proc.devRef .tc main_arg1) = W0 m ρ c (Proc.devRef .tc main_arg1) := by carry_host hostOps0
theorem s1_main_arg3 (c : Dev nD) : W1 m ρ c (Proc.devRef .tc main_arg3) = W0 m ρ c (Proc.devRef .tc main_arg3) := by carry_host hostOps0
theorem s1_main_arg5 (c : Dev nD) : W1 m ρ c (Proc.devRef .tc main_arg5) = W0 m ρ c (Proc.devRef .tc main_arg5) := by carry_host hostOps0
theorem s1_main_arg12 (c : Dev nD) : W1 m ρ c (Proc.devRef .tc main_arg12) = W0 m ρ c (Proc.devRef .tc main_arg12) := by carry_host hostOps0
theorem s1_main_arg6 (c : Dev nD) : W1 m ρ c (Proc.devRef .tc main_arg6) = W0 m ρ c (Proc.devRef .tc main_arg6) := by carry_host hostOps0
theorem s1_main_arg7 (c : Dev nD) : W1 m ρ c (Proc.devRef .tc main_arg7) = W0 m ρ c (Proc.devRef .tc main_arg7) := by carry_host hostOps0
theorem s2_main_arg7 (c : Dev nD) : W2 m ρ c (Proc.devRef .tc main_arg7) = W1 m ρ c (Proc.devRef .tc main_arg7) := W2_of_ne m ρ c main_arg7 (by decide)
theorem s1_main_arg0 (c : Dev nD) : W1 m ρ c (Proc.devRef .tc main_arg0) = W0 m ρ c (Proc.devRef .tc main_arg0) := by carry_host hostOps0
theorem s2_main_arg0 (c : Dev nD) : W2 m ρ c (Proc.devRef .tc main_arg0) = W1 m ρ c (Proc.devRef .tc main_arg0) := W2_of_ne m ρ c main_arg0 (by decide)
theorem s3_main_arg0 (c : Dev nD) : W3 m ρ c (Proc.devRef .tc main_arg0) = W2 m ρ c (Proc.devRef .tc main_arg0) := by carry_host hostOps1
theorem s1_main_arg8 (c : Dev nD) : W1 m ρ c (Proc.devRef .tc main_arg8) = W0 m ρ c (Proc.devRef .tc main_arg8) := by carry_host hostOps0
theorem s2_main_arg8 (c : Dev nD) : W2 m ρ c (Proc.devRef .tc main_arg8) = W1 m ρ c (Proc.devRef .tc main_arg8) := W2_of_ne m ρ c main_arg8 (by decide)
theorem s3_main_arg8 (c : Dev nD) : W3 m ρ c (Proc.devRef .tc main_arg8) = W2 m ρ c (Proc.devRef .tc main_arg8) := by carry_host hostOps1
theorem s1_main_arg9 (c : Dev nD) : W1 m ρ c (Proc.devRef .tc main_arg9) = W0 m ρ c (Proc.devRef .tc main_arg9) := by carry_host hostOps0
theorem s2_main_arg9 (c : Dev nD) : W2 m ρ c (Proc.devRef .tc main_arg9) = W1 m ρ c (Proc.devRef .tc main_arg9) := W2_of_ne m ρ c main_arg9 (by decide)
theorem s3_main_arg9 (c : Dev nD) : W3 m ρ c (Proc.devRef .tc main_arg9) = W2 m ρ c (Proc.devRef .tc main_arg9) := by carry_host hostOps1
theorem s1_main_arg10 (c : Dev nD) : W1 m ρ c (Proc.devRef .tc main_arg10) = W0 m ρ c (Proc.devRef .tc main_arg10) := by carry_host hostOps0
theorem s2_main_arg10 (c : Dev nD) : W2 m ρ c (Proc.devRef .tc main_arg10) = W1 m ρ c (Proc.devRef .tc main_arg10) := W2_of_ne m ρ c main_arg10 (by decide)
theorem s3_main_arg10 (c : Dev nD) : W3 m ρ c (Proc.devRef .tc main_arg10) = W2 m ρ c (Proc.devRef .tc main_arg10) := by carry_host hostOps1
theorem s4_main_arg10 (c : Dev nD) : W4 m ρ c (Proc.devRef .tc main_arg10) = W3 m ρ c (Proc.devRef .tc main_arg10) := W4_of_ne m ρ c main_arg10 (by decide)
theorem s1_main_arg11 (c : Dev nD) : W1 m ρ c (Proc.devRef .tc main_arg11) = W0 m ρ c (Proc.devRef .tc main_arg11) := by carry_host hostOps0
theorem s2_main_arg11 (c : Dev nD) : W2 m ρ c (Proc.devRef .tc main_arg11) = W1 m ρ c (Proc.devRef .tc main_arg11) := W2_of_ne m ρ c main_arg11 (by decide)
theorem s3_main_arg11 (c : Dev nD) : W3 m ρ c (Proc.devRef .tc main_arg11) = W2 m ρ c (Proc.devRef .tc main_arg11) := by carry_host hostOps1
theorem s4_main_arg11 (c : Dev nD) : W4 m ρ c (Proc.devRef .tc main_arg11) = W3 m ρ c (Proc.devRef .tc main_arg11) := W4_of_ne m ρ c main_arg11 (by decide)
theorem s5_main_arg11 (c : Dev nD) : W5 m ρ c (Proc.devRef .tc main_arg11) = W4 m ρ c (Proc.devRef .tc main_arg11) := by carry_host hostOps2
theorem s1_main_arg13 (c : Dev nD) : W1 m ρ c (Proc.devRef .tc main_arg13) = W0 m ρ c (Proc.devRef .tc main_arg13) := by carry_host hostOps0
theorem s2_main_arg13 (c : Dev nD) : W2 m ρ c (Proc.devRef .tc main_arg13) = W1 m ρ c (Proc.devRef .tc main_arg13) := W2_of_ne m ρ c main_arg13 (by decide)
theorem s3_main_arg13 (c : Dev nD) : W3 m ρ c (Proc.devRef .tc main_arg13) = W2 m ρ c (Proc.devRef .tc main_arg13) := by carry_host hostOps1
theorem s4_main_arg13 (c : Dev nD) : W4 m ρ c (Proc.devRef .tc main_arg13) = W3 m ρ c (Proc.devRef .tc main_arg13) := W4_of_ne m ρ c main_arg13 (by decide)
theorem s5_main_arg13 (c : Dev nD) : W5 m ρ c (Proc.devRef .tc main_arg13) = W4 m ρ c (Proc.devRef .tc main_arg13) := by carry_host hostOps2
theorem s6_main_arg13 (c : Dev nD) : W6 m ρ c (Proc.devRef .tc main_arg13) = W5 m ρ c (Proc.devRef .tc main_arg13) := W6_of_ne m ρ c main_arg13 (by decide)
theorem s1_main_arg14 (c : Dev nD) : W1 m ρ c (Proc.devRef .tc main_arg14) = W0 m ρ c (Proc.devRef .tc main_arg14) := by carry_host hostOps0
theorem s2_main_arg14 (c : Dev nD) : W2 m ρ c (Proc.devRef .tc main_arg14) = W1 m ρ c (Proc.devRef .tc main_arg14) := W2_of_ne m ρ c main_arg14 (by decide)
theorem s3_main_arg14 (c : Dev nD) : W3 m ρ c (Proc.devRef .tc main_arg14) = W2 m ρ c (Proc.devRef .tc main_arg14) := by carry_host hostOps1
theorem s4_main_arg14 (c : Dev nD) : W4 m ρ c (Proc.devRef .tc main_arg14) = W3 m ρ c (Proc.devRef .tc main_arg14) := W4_of_ne m ρ c main_arg14 (by decide)
theorem s5_main_arg14 (c : Dev nD) : W5 m ρ c (Proc.devRef .tc main_arg14) = W4 m ρ c (Proc.devRef .tc main_arg14) := by carry_host hostOps2
theorem s6_main_arg14 (c : Dev nD) : W6 m ρ c (Proc.devRef .tc main_arg14) = W5 m ρ c (Proc.devRef .tc main_arg14) := W6_of_ne m ρ c main_arg14 (by decide)
theorem s7_main_arg14 (c : Dev nD) : W7 m ρ c (Proc.devRef .tc main_arg14) = W6 m ρ c (Proc.devRef .tc main_arg14) := by carry_host hostOps3
theorem s1_main_arg16 (c : Dev nD) : W1 m ρ c (Proc.devRef .tc main_arg16) = W0 m ρ c (Proc.devRef .tc main_arg16) := by carry_host hostOps0
theorem s2_main_arg16 (c : Dev nD) : W2 m ρ c (Proc.devRef .tc main_arg16) = W1 m ρ c (Proc.devRef .tc main_arg16) := W2_of_ne m ρ c main_arg16 (by decide)
theorem s3_main_arg16 (c : Dev nD) : W3 m ρ c (Proc.devRef .tc main_arg16) = W2 m ρ c (Proc.devRef .tc main_arg16) := by carry_host hostOps1
theorem s4_main_arg16 (c : Dev nD) : W4 m ρ c (Proc.devRef .tc main_arg16) = W3 m ρ c (Proc.devRef .tc main_arg16) := W4_of_ne m ρ c main_arg16 (by decide)
theorem s5_main_arg16 (c : Dev nD) : W5 m ρ c (Proc.devRef .tc main_arg16) = W4 m ρ c (Proc.devRef .tc main_arg16) := by carry_host hostOps2
theorem s6_main_arg16 (c : Dev nD) : W6 m ρ c (Proc.devRef .tc main_arg16) = W5 m ρ c (Proc.devRef .tc main_arg16) := W6_of_ne m ρ c main_arg16 (by decide)
theorem s7_main_arg16 (c : Dev nD) : W7 m ρ c (Proc.devRef .tc main_arg16) = W6 m ρ c (Proc.devRef .tc main_arg16) := by carry_host hostOps3
theorem s8_main_arg16 (c : Dev nD) : W8 m ρ c (Proc.devRef .tc main_arg16) = W7 m ρ c (Proc.devRef .tc main_arg16) := W8_of_ne m ρ c main_arg16 (by decide)

/-! ## Back to where each buffer was produced -/
theorem at2_main_v1 (c : Dev nD) : W2 m ρ c (Proc.devRef .tc main_v1) = W1 m ρ c (Proc.devRef .tc main_v1) :=
  s2_main_v1 m ρ c
theorem at4_main_v1 (c : Dev nD) : W4 m ρ c (Proc.devRef .tc main_v1) = W1 m ρ c (Proc.devRef .tc main_v1) :=
  ((s4_main_v1 m ρ c).trans ((s3_main_v1 m ρ c).trans (s2_main_v1 m ρ c)))
theorem at8_main_v1 (c : Dev nD) : W8 m ρ c (Proc.devRef .tc main_v1) = W1 m ρ c (Proc.devRef .tc main_v1) :=
  ((s8_main_v1 m ρ c).trans ((s7_main_v1 m ρ c).trans ((s6_main_v1 m ρ c).trans ((s5_main_v1 m ρ c).trans ((s4_main_v1 m ρ c).trans ((s3_main_v1 m ρ c).trans (s2_main_v1 m ρ c)))))))
theorem at2_main_v3 (c : Dev nD) : W2 m ρ c (Proc.devRef .tc main_v3) = W1 m ρ c (Proc.devRef .tc main_v3) :=
  s2_main_v3 m ρ c
theorem at4_main_v3 (c : Dev nD) : W4 m ρ c (Proc.devRef .tc main_v3) = W1 m ρ c (Proc.devRef .tc main_v3) :=
  ((s4_main_v3 m ρ c).trans ((s3_main_v3 m ρ c).trans (s2_main_v3 m ρ c)))
theorem at8_main_v3 (c : Dev nD) : W8 m ρ c (Proc.devRef .tc main_v3) = W1 m ρ c (Proc.devRef .tc main_v3) :=
  ((s8_main_v3 m ρ c).trans ((s7_main_v3 m ρ c).trans ((s6_main_v3 m ρ c).trans ((s5_main_v3 m ρ c).trans ((s4_main_v3 m ρ c).trans ((s3_main_v3 m ρ c).trans (s2_main_v3 m ρ c)))))))
theorem at7_main_v22 (c : Dev nD) : W7 m ρ c (Proc.devRef .tc main_v22) = W1 m ρ c (Proc.devRef .tc main_v22) :=
  ((s7_main_v22 m ρ c).trans ((s6_main_v22 m ρ c).trans ((s5_main_v22 m ρ c).trans ((s4_main_v22 m ρ c).trans ((s3_main_v22 m ρ c).trans (s2_main_v22 m ρ c))))))
theorem at5_main_v23 (c : Dev nD) : W5 m ρ c (Proc.devRef .tc main_v23) = W1 m ρ c (Proc.devRef .tc main_v23) :=
  ((s5_main_v23 m ρ c).trans ((s4_main_v23 m ρ c).trans ((s3_main_v23 m ρ c).trans (s2_main_v23 m ρ c))))
theorem at5_main_v25_0 (c : Dev nD) : W5 m ρ c (Proc.devRef .tc main_v25_0) = W2 m ρ c (Proc.devRef .tc main_v25_0) :=
  ((s5_main_v25_0 m ρ c).trans ((s4_main_v25_0 m ρ c).trans (s3_main_v25_0 m ρ c)))
theorem at4_main_v25_1 (c : Dev nD) : W4 m ρ c (Proc.devRef .tc main_v25_1) = W2 m ρ c (Proc.devRef .tc main_v25_1) :=
  ((s4_main_v25_1 m ρ c).trans (s3_main_v25_1 m ρ c))
theorem at7_main_v45_0 (c : Dev nD) : W7 m ρ c (Proc.devRef .tc main_v45_0) = W4 m ρ c (Proc.devRef .tc main_v45_0) :=
  ((s7_main_v45_0 m ρ c).trans ((s6_main_v45_0 m ρ c).trans (s5_main_v45_0 m ρ c)))
theorem at7_main_v81 (c : Dev nD) : W7 m ρ c (Proc.devRef .tc main_v81) = W5 m ρ c (Proc.devRef .tc main_v81) :=
  ((s7_main_v81 m ρ c).trans (s6_main_v81 m ρ c))
theorem at8_main_v83 (c : Dev nD) : W8 m ρ c (Proc.devRef .tc main_v83) = W6 m ρ c (Proc.devRef .tc main_v83) :=
  ((s8_main_v83 m ρ c).trans (s7_main_v83 m ρ c))
theorem at1_main_arg1 (c : Dev nD) : W1 m ρ c (Proc.devRef .tc main_arg1) = m ((c : Thread nD τ).loc main_arg1) :=
  s1_main_arg1 m ρ c
theorem at1_main_arg3 (c : Dev nD) : W1 m ρ c (Proc.devRef .tc main_arg3) = m ((c : Thread nD τ).loc main_arg3) :=
  s1_main_arg3 m ρ c
theorem at1_main_arg5 (c : Dev nD) : W1 m ρ c (Proc.devRef .tc main_arg5) = m ((c : Thread nD τ).loc main_arg5) :=
  s1_main_arg5 m ρ c
theorem at1_main_arg12 (c : Dev nD) : W1 m ρ c (Proc.devRef .tc main_arg12) = m ((c : Thread nD τ).loc main_arg12) :=
  s1_main_arg12 m ρ c
theorem at1_main_arg6 (c : Dev nD) : W1 m ρ c (Proc.devRef .tc main_arg6) = m ((c : Thread nD τ).loc main_arg6) :=
  s1_main_arg6 m ρ c
theorem at2_main_arg7 (c : Dev nD) : W2 m ρ c (Proc.devRef .tc main_arg7) = m ((c : Thread nD τ).loc main_arg7) :=
  ((s2_main_arg7 m ρ c).trans (s1_main_arg7 m ρ c))
theorem at3_main_arg0 (c : Dev nD) : W3 m ρ c (Proc.devRef .tc main_arg0) = m ((c : Thread nD τ).loc main_arg0) :=
  ((s3_main_arg0 m ρ c).trans ((s2_main_arg0 m ρ c).trans (s1_main_arg0 m ρ c)))
theorem at3_main_arg8 (c : Dev nD) : W3 m ρ c (Proc.devRef .tc main_arg8) = m ((c : Thread nD τ).loc main_arg8) :=
  ((s3_main_arg8 m ρ c).trans ((s2_main_arg8 m ρ c).trans (s1_main_arg8 m ρ c)))
theorem at3_main_arg9 (c : Dev nD) : W3 m ρ c (Proc.devRef .tc main_arg9) = m ((c : Thread nD τ).loc main_arg9) :=
  ((s3_main_arg9 m ρ c).trans ((s2_main_arg9 m ρ c).trans (s1_main_arg9 m ρ c)))
theorem at4_main_arg10 (c : Dev nD) : W4 m ρ c (Proc.devRef .tc main_arg10) = m ((c : Thread nD τ).loc main_arg10) :=
  ((s4_main_arg10 m ρ c).trans ((s3_main_arg10 m ρ c).trans ((s2_main_arg10 m ρ c).trans (s1_main_arg10 m ρ c))))
theorem at5_main_arg11 (c : Dev nD) : W5 m ρ c (Proc.devRef .tc main_arg11) = m ((c : Thread nD τ).loc main_arg11) :=
  ((s5_main_arg11 m ρ c).trans ((s4_main_arg11 m ρ c).trans ((s3_main_arg11 m ρ c).trans ((s2_main_arg11 m ρ c).trans (s1_main_arg11 m ρ c)))))
theorem at6_main_arg13 (c : Dev nD) : W6 m ρ c (Proc.devRef .tc main_arg13) = m ((c : Thread nD τ).loc main_arg13) :=
  ((s6_main_arg13 m ρ c).trans ((s5_main_arg13 m ρ c).trans ((s4_main_arg13 m ρ c).trans ((s3_main_arg13 m ρ c).trans ((s2_main_arg13 m ρ c).trans (s1_main_arg13 m ρ c))))))
theorem at7_main_arg14 (c : Dev nD) : W7 m ρ c (Proc.devRef .tc main_arg14) = m ((c : Thread nD τ).loc main_arg14) :=
  ((s7_main_arg14 m ρ c).trans ((s6_main_arg14 m ρ c).trans ((s5_main_arg14 m ρ c).trans ((s4_main_arg14 m ρ c).trans ((s3_main_arg14 m ρ c).trans ((s2_main_arg14 m ρ c).trans (s1_main_arg14 m ρ c)))))))
theorem at8_main_arg16 (c : Dev nD) : W8 m ρ c (Proc.devRef .tc main_arg16) = m ((c : Thread nD τ).loc main_arg16) :=
  ((s8_main_arg16 m ρ c).trans ((s7_main_arg16 m ρ c).trans ((s6_main_arg16 m ρ c).trans ((s5_main_arg16 m ρ c).trans ((s4_main_arg16 m ρ c).trans ((s3_main_arg16 m ρ c).trans ((s2_main_arg16 m ρ c).trans (s1_main_arg16 m ρ c))))))))

/-! ## The regions' outputs at their exits -/

theorem out_ht (c : Dev nD) : W2 m ρ c (Proc.devRef .tc main_v25_0) = KerReg0.HT (V1 m ρ) c :=
  (W2_arr m ρ c 7).trans (KerReg0.final7 (V1 m ρ) c)
theorem out_qt (c : Dev nD) : W2 m ρ c (Proc.devRef .tc main_v25_1) = KerReg0.QT (V1 m ρ) c :=
  (W2_arr m ρ c 8).trans (KerReg0.final8 (V1 m ρ) c)
theorem out_pt (c : Dev nD) : W2 m ρ c (Proc.devRef .tc main_v25_2) = KerReg0.PT (V1 m ρ) c :=
  (W2_arr m ρ c 9).trans (KerReg0.final9 (V1 m ρ) c)
theorem out_hl (c : Dev nD) : W4 m ρ c (Proc.devRef .tc main_v45_0) = KerReg1.HL (V3 m ρ) c :=
  (W4_arr m ρ c 5).trans (KerReg1.final5 (V3 m ρ) c)
theorem out_ql (c : Dev nD) : W4 m ρ c (Proc.devRef .tc main_v45_1) = KerReg1.QL (V3 m ρ) c :=
  (W4_arr m ρ c 6).trans (KerReg1.final6 (V3 m ρ) c)
theorem out_pt2 (c : Dev nD) : W6 m ρ c (Proc.devRef .tc main_v83) = KerReg2.PT2 (V5 m ρ) c :=
  (W6_arr m ρ c 5).trans (KerReg2.final5 (V5 m ρ) c)
theorem out_pl2 (c : Dev nD) : W8 m ρ c (Proc.devRef .tc main_v85) = KerReg3.PL2 (V7 m ρ) c :=
  (W8_arr m ρ c 5).trans (KerReg3.final5 (V7 m ρ) c)

end Cert.KernelIdeal.KerFold

end
-- ==== Proof.KerFnsAt.lean ====
/-
  The regions' array functions at an entry.

  Entry (P, q) of each whole-array function, written out: the inner products, the bias and the rectifier in the entries of
  row P of the row-wise inputs and of the untiled inputs.
-/
import proofs.«151303_j73272142069881_2_alg».proof.Proof.KerFns

noncomputable section

namespace Cert.KernelIdeal.KerFns

open Cert.KernelIdeal Idealize.ShloMosaic Idealize.ShloMosaic.ValueIdx

theorem arrHT_apply (m : S4000x4.Idx → EReal) (x : S4000x1280.Idx → EReal) (A : S4x128.Idx → EReal) (b : S1x128.Idx → EReal)
    (B : S1280x128.Idx → EReal) (P : Fin 4000) (q : Fin 128) :
    arrHT m x A b B (ix2 P q)
      = max (((∑ k : Fin 4, m (ix2 P k) * A (ix2 k q)) + ∑ k : Fin 1280, x (ix2 P k) * B (ix2 k q)) + b (ix2 (0 : Fin 1) q)) 0 := rfl

theorem arrQT_apply (m : S4000x4.Idx → EReal) (x : S4000x1280.Idx → EReal) (A : S4x128.Idx → EReal) (b : S1x128.Idx → EReal)
    (B : S1280x128.Idx → EReal) (R : S128x128.Idx → EReal) (P : Fin 4000) (q : Fin 128) :
    arrQT m x A b B R (ix2 P q) = ∑ k : Fin 128, arrHT m x A b B (ix2 P k) * R (ix2 k q) := rfl

theorem arrPT_apply (x : S4000x1280.Idx → EReal) (C : S1280x128.Idx → EReal) (P : Fin 4000) (q : Fin 128) :
    arrPT x C (ix2 P q) = ∑ k : Fin 1280, x (ix2 P k) * C (ix2 k q) := rfl

theorem arrHL_apply (a : S100000x128.Idx → EReal) (b : S1x128.Idx → EReal) (x : S100000x4.Idx → EReal) (D : S4x128.Idx → EReal)
    (P : Fin 100000) (q : Fin 128) :
    arrHL a b x D (ix2 P q) = max ((a (ix2 P q) + ∑ k : Fin 4, x (ix2 P k) * D (ix2 k q)) + b (ix2 (0 : Fin 1) q)) 0 := rfl

theorem arrQL_apply (a : S100000x128.Idx → EReal) (b : S1x128.Idx → EReal) (x : S100000x4.Idx → EReal) (D : S4x128.Idx → EReal)
    (Pm : S128x128.Idx → EReal) (P : Fin 100000) (q : Fin 128) :
    arrQL a b x D Pm (ix2 P q) = ∑ k : Fin 128, arrHL a b x D (ix2 P k) * Pm (ix2 k q) := rfl

theorem arrPT2_apply (a : S4000x128.Idx → EReal) (b : S1x128.Idx → EReal) (h : S4000x128.Idx → EReal) (Q : S128x128.Idx → EReal)
    (w : S128x1.Idx → EReal) (P : Fin 4000) :
    arrPT2 a b h Q w (ix2 P (0 : Fin 1))
      = ∑ k : Fin 128, max ((a (ix2 P k) + ∑ j : Fin 128, h (ix2 P j) * Q (ix2 j k)) + b (ix2 (0 : Fin 1) k)) 0
          * w (ix2 k (0 : Fin 1)) := rfl

theorem arrPL2_apply (a : S100000x128.Idx → EReal) (b : S1x128.Idx → EReal) (h : S100000x128.Idx → EReal) (Q : S128x128.Idx → EReal)
    (w : S128x1.Idx → EReal) (P : Fin 100000) :
    arrPL2 a b h Q w (ix2 P (0 : Fin 1))
      = ∑ k : Fin 128, max ((a (ix2 P k) + ∑ j : Fin 128, h (ix2 P j) * Q (ix2 j k)) + b (ix2 (0 : Fin 1) k)) 0
          * w (ix2 k (0 : Fin 1)) := rfl

end Cert.KernelIdeal.KerFns

end
-- ==== Proof.NetSpec.lean ====
/-
  The network both programs compute, as plain functions on the extended reals.

  A bipartite graph joins 100000 ligand nodes (4 features each) and 4000 target nodes (1280 features each) by 150000
  edges; edge e joins ligand src e to target dst e, both read from one integer array. Two rounds of mean aggregation
  follow, each with a linear map on the aggregated neighbours, a bias, a linear map on the node's own features and a
  rectifier, and then every edge is scored by a linear map of its two end nodes' final features.

  A gather of rows reads row (idx e) after a negative index has had the row count added and the result has been
  clamped into range; a segment sum into row n adds the rows of the edges whose raw index, read signed, is n. The mean
  over a segment is the segment sum divided by the larger of the segment's size and one.

  Two arrangements are written down. In the first (namespace Ref) every aggregation is of the neighbours' features and
  the linear map follows it, and the edge score is one inner product of length 256 with the two end nodes' features
  laid side by side. In the second (namespace Ker) the linear map is applied to every node first and the products are
  aggregated, and the edge score is the sum of two per-node scores of length 128. That the two agree on real inputs is
  proved elsewhere; this file only states them.
-/
import Idealize.ShloMosaic.PureOps.Ideal
import Idealize.ShloMosaic.Lib.ValueIdx

noncomputable section

namespace Cert.Net

open Idealize.ShloMosaic Idealize.ShloMosaic.ValueIdx

/-- The numbers of ligand nodes, target nodes and edges. -/
abbrev NL : Nat := 100000
abbrev NT : Nat := 4000
abbrev NE : Nat := 150000

/-- A negative row number has the row count added (jax's indexing of an array by an integer array). -/
def nrm (N v : BitVec 32) : BitVec 32 := Scalar.select (IntOp.cmpi .slt v 0#32) (IntOp.addi v N) v

/-- The graph: for each edge the ligand row and the target row a gather reads, and for each node the set of edges a
    segment sum adds into it. -/
structure Graph where
  rowL : Fin NE → Fin NL
  rowT : Fin NE → Fin NT
  segL : Fin NL → Finset (Fin NE)
  segT : Fin NT → Finset (Fin NE)

/-- The graph an integer array of shape [2, 150000] describes: row 0 holds the ligand ends, row 1 the target ends. -/
def graphOf (a2 : IVec ⟨2, ![2, 150000]⟩ 32) : Graph where
  rowL e := ⟨min (nrm 100000#32 (a2 (ix2 (0 : Fin 2) e))).toInt.toNat (NL - 1),
    Nat.lt_of_le_of_lt (Nat.min_le_right _ _) (by decide : NL - 1 < NL)⟩
  rowT e := ⟨min (nrm 4000#32 (a2 (ix2 (1 : Fin 2) e))).toInt.toNat (NT - 1),
    Nat.lt_of_le_of_lt (Nat.min_le_right _ _) (by decide : NT - 1 < NT)⟩
  segL n := Finset.univ.filter fun e : Fin NE => (a2 (ix2 (0 : Fin 2) e)).toInt = (n.val : Int)
  segT n := Finset.univ.filter fun e : Fin NE => (a2 (ix2 (1 : Fin 2) e)).toInt = (n.val : Int)

/-- The mean of f over the edge set S: the sum divided by the larger of the count and one. -/
def mean (S : Finset (Fin NE)) (f : Fin NE → EReal) : EReal :=
  Ideal.div (∑ e ∈ S, f e) (max (∑ _e ∈ S, (1 : EReal)) 1)

/-- The node features and the weights. Names follow the layers: A, bA, B are the first round's target side
    (neighbour map, bias, own map); C, bC, D the first round's ligand side; P, bP, Q the second round's target side;
    R, bR, S the second round's ligand side; wp, bp the edge score. -/
structure Params where
  xl : Fin NL → Fin 4 → EReal
  xt : Fin NT → Fin 1280 → EReal
  A : Fin 4 → Fin 128 → EReal
  bA : Fin 128 → EReal
  B : Fin 1280 → Fin 128 → EReal
  C : Fin 1280 → Fin 128 → EReal
  bC : Fin 128 → EReal
  D : Fin 4 → Fin 128 → EReal
  P : Fin 128 → Fin 128 → EReal
  bP : Fin 128 → EReal
  Q : Fin 128 → Fin 128 → EReal
  R : Fin 128 → Fin 128 → EReal
  bR : Fin 128 → EReal
  S : Fin 128 → Fin 128 → EReal
  wp : Fin 256 → EReal
  bp : EReal

/-- Every feature and weight is a real number. -/
structure Params.Real (p : Params) : Prop where
  xl : ∀ n k, ∃ r : ℝ, p.xl n k = (r : EReal)
  xt : ∀ n k, ∃ r : ℝ, p.xt n k = (r : EReal)
  A : ∀ k j, ∃ r : ℝ, p.A k j = (r : EReal)
  bA : ∀ j, ∃ r : ℝ, p.bA j = (r : EReal)
  B : ∀ k j, ∃ r : ℝ, p.B k j = (r : EReal)
  C : ∀ k j, ∃ r : ℝ, p.C k j = (r : EReal)
  bC : ∀ j, ∃ r : ℝ, p.bC j = (r : EReal)
  D : ∀ k j, ∃ r : ℝ, p.D k j = (r : EReal)
  P : ∀ k j, ∃ r : ℝ, p.P k j = (r : EReal)
  bP : ∀ j, ∃ r : ℝ, p.bP j = (r : EReal)
  Q : ∀ k j, ∃ r : ℝ, p.Q k j = (r : EReal)
  R : ∀ k j, ∃ r : ℝ, p.R k j = (r : EReal)
  bR : ∀ j, ∃ r : ℝ, p.bR j = (r : EReal)
  S : ∀ k j, ∃ r : ℝ, p.S k j = (r : EReal)
  wp : ∀ k, ∃ r : ℝ, p.wp k = (r : EReal)
  bp : ∃ r : ℝ, p.bp = (r : EReal)

/-- The features and weights read off the sixteen float argument arrays (argument 2 is the integer edge array). -/
def paramsOf (a0 : (⟨2, ![100000, 4]⟩ : Shape).Idx → EReal) (a1 : (⟨2, ![4000, 1280]⟩ : Shape).Idx → EReal)
    (a3 : (⟨2, ![4, 128]⟩ : Shape).Idx → EReal) (a4 : (⟨1, ![128]⟩ : Shape).Idx → EReal)
    (a5 : (⟨2, ![1280, 128]⟩ : Shape).Idx → EReal) (a6 : (⟨2, ![1280, 128]⟩ : Shape).Idx → EReal)
    (a7 : (⟨1, ![128]⟩ : Shape).Idx → EReal) (a8 : (⟨2, ![4, 128]⟩ : Shape).Idx → EReal)
    (a9 : (⟨2, ![128, 128]⟩ : Shape).Idx → EReal) (a10 : (⟨1, ![128]⟩ : Shape).Idx → EReal)
    (a11 : (⟨2, ![128, 128]⟩ : Shape).Idx → EReal) (a12 : (⟨2, ![128, 128]⟩ : Shape).Idx → EReal)
    (a13 : (⟨1, ![128]⟩ : Shape).Idx → EReal) (a14 : (⟨2, ![128, 128]⟩ : Shape).Idx → EReal)
    (a15 : (⟨2, ![256, 1]⟩ : Shape).Idx → EReal) (a16 : (⟨1, ![1]⟩ : Shape).Idx → EReal) : Params where
  xl n k := a0 (ix2 n k)
  xt n k := a1 (ix2 n k)
  A k j := a3 (ix2 k j)
  bA j := a4 (ix1 j)
  B k j := a5 (ix2 k j)
  C k j := a6 (ix2 k j)
  bC j := a7 (ix1 j)
  D k j := a8 (ix2 k j)
  P k j := a9 (ix2 k j)
  bP j := a10 (ix1 j)
  Q k j := a11 (ix2 k j)
  R k j := a12 (ix2 k j)
  bR j := a13 (ix1 j)
  S k j := a14 (ix2 k j)
  wp k := a15 (ix2 k (0 : Fin 1))
  bp := a16 (ix1 (0 : Fin 1))

variable (g : Graph) (p : Params)

/-! ## Aggregate, then map -/

namespace Ref

/-- First round, target side: the mean of the neighbouring ligands' features. -/
def mt (n : Fin NT) (k : Fin 4) : EReal := mean (g.segT n) fun e => p.xl (g.rowL e) k
def ht (n : Fin NT) (j : Fin 128) : EReal :=
  max (((∑ k : Fin 4, mt g p n k * p.A k j) + p.bA j) + ∑ k : Fin 1280, p.xt n k * p.B k j) 0
/-- First round, ligand side: the mean of the neighbouring targets' features. -/
def ml (n : Fin NL) (k : Fin 1280) : EReal := mean (g.segL n) fun e => p.xt (g.rowT e) k
def hl (n : Fin NL) (j : Fin 128) : EReal :=
  max (((∑ k : Fin 1280, ml g p n k * p.C k j) + p.bC j) + ∑ k : Fin 4, p.xl n k * p.D k j) 0
/-- Second round. -/
def mt2 (n : Fin NT) (k : Fin 128) : EReal := mean (g.segT n) fun e => hl g p (g.rowL e) k
def ht2 (n : Fin NT) (j : Fin 128) : EReal :=
  max (((∑ k : Fin 128, mt2 g p n k * p.P k j) + p.bP j) + ∑ k : Fin 128, ht g p n k * p.Q k j) 0
def ml2 (n : Fin NL) (k : Fin 128) : EReal := mean (g.segL n) fun e => ht g p (g.rowT e) k
def hl2 (n : Fin NL) (j : Fin 128) : EReal :=
  max (((∑ k : Fin 128, ml2 g p n k * p.R k j) + p.bR j) + ∑ k : Fin 128, hl g p n k * p.S k j) 0
/-- The two end nodes' final features side by side: the ligand's in places 0..127, the target's in 128..255. -/
def cat (e : Fin NE) (k : Fin 256) : EReal :=
  if h : k.val < 128 then hl2 g p (g.rowL e) ⟨k.val, h⟩ else ht2 g p (g.rowT e) ⟨k.val - 128, by omega⟩
/-- The score of edge e. -/
def out (e : Fin NE) : EReal := (∑ k : Fin 256, cat g p e k * p.wp k) + p.bp

end Ref

/-! ## Map, then aggregate -/

namespace Ker

def mt (n : Fin NT) (k : Fin 4) : EReal := mean (g.segT n) fun e => p.xl (g.rowL e) k
def ht (n : Fin NT) (j : Fin 128) : EReal :=
  max (((∑ k : Fin 4, mt g p n k * p.A k j) + ∑ k : Fin 1280, p.xt n k * p.B k j) + p.bA j) 0
/-- The targets' first-round features mapped for the second round's ligand side. -/
def qt (n : Fin NT) (j : Fin 128) : EReal := ∑ k : Fin 128, ht g p n k * p.R k j
/-- The targets' raw features mapped for the first round's ligand side. -/
def pt (n : Fin NT) (j : Fin 128) : EReal := ∑ k : Fin 1280, p.xt n k * p.C k j
def mlp (n : Fin NL) (j : Fin 128) : EReal := mean (g.segL n) fun e => pt p (g.rowT e) j
def hl (n : Fin NL) (j : Fin 128) : EReal :=
  max ((mlp g p n j + ∑ k : Fin 4, p.xl n k * p.D k j) + p.bC j) 0
def ql (n : Fin NL) (j : Fin 128) : EReal := ∑ k : Fin 128, hl g p n k * p.P k j
def mqt2 (n : Fin NT) (j : Fin 128) : EReal := mean (g.segT n) fun e => ql g p (g.rowL e) j
def mql2 (n : Fin NL) (j : Fin 128) : EReal := mean (g.segL n) fun e => qt g p (g.rowT e) j
/-- The target's half of the edge score: its final features against places 128..255 of the score weights. -/
def pt2 (n : Fin NT) : EReal :=
  ∑ k : Fin 128, max ((mqt2 g p n k + ∑ i : Fin 128, ht g p n i * p.Q i k) + p.bP k) 0 * p.wp ⟨128 + k.val, by omega⟩
/-- The ligand's half: its final features against places 0..127. -/
def pl2 (n : Fin NL) : EReal :=
  ∑ k : Fin 128, max ((mql2 g p n k + ∑ i : Fin 128, hl g p n i * p.S i k) + p.bR k) 0 * p.wp ⟨k.val, by omega⟩
/-- The score of edge e. -/
def out (e : Fin NE) : EReal := (pl2 g p (g.rowL e) + pt2 g p (g.rowT e)) + p.bp

end Ker

end Cert.Net

end
-- ==== Proof.LibSegmentSum.lean ====
/-
  A segment sum read at an index.

  jax's segment_sum of rows (a scatter-add of an array of E rows of width C into an array of N rows, row e going to the
  row that the e-th entry of an integer index column names) is, on the extended reals, the exact sum: entry (n, c) of
  the result is entry (n, c) of the array scattered into, plus the sum over the rows e whose index, read as a signed
  integer, is n, of entry (e, c) of the updates. A row whose index is negative or at least N contributes nothing.
  The lemmas below read the scatter's dimension numbers (window axis 1 of the updates onto axis 1 of the operand,
  axis 0 of the operand inserted and addressed by the one component of the index vector) down to that statement.
-/
import Idealize.ShloMosaic.PureOps.Ideal
import Idealize.ShloMosaic.Lib.ValueIdx

noncomputable section

namespace Cert.Lib.SegmentSum

open Idealize.ShloMosaic Idealize.ShloMosaic.ValueIdx

/-- The dimension numbers of a row scatter: operand [N, C], scatter indices [E, 1], updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update (e, c') starts at the e-th index read signed. -/
theorem start_row (e : Fin E) (c' : Fin C) (idx : IVec ⟨2, ![E, 1]⟩ w) :
    (rowDims N E C wf).start (ix2 e c') idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

/-- On the column axis the window starts at zero. -/
theorem start_col (e : Fin E) (c' : Fin C) (idx : IVec ⟨2, ![E, 1]⟩ w) :
    (rowDims N E C wf).start (ix2 e c') idx 1 = 0 := by
  unfold ScatterDims.start
  rw [dif_neg (show ¬ (1 : Fin 2) ∈ (rowDims N E C wf).scatterDimsToOperandDims by
    show (1 : Fin 2) ∉ ([0] : List (Fin 2)); decide)]

/-- The row axis is inserted: no window coordinate there. -/
theorem window_row (e : Fin E) (c' : Fin C) : (rowDims N E C wf).window (ix2 e c') 0 = 0 := by
  unfold ScatterDims.window
  rw [dif_neg (show ¬ (0 : Fin 2) ∈ (rowDims N E C wf).sKept by
    show (0 : Fin 2) ∉ (List.finRange 2).filter (fun a => a ∉ ([0] : List (Fin 2))); decide)]

/-- The column axis carries the update's column. -/
theorem window_col (e : Fin E) (c' : Fin C) : (rowDims N E C wf).window (ix2 e c') 1 = c'.val := by
  unfold ScatterDims.window
  rw [dif_pos (show (1 : Fin 2) ∈ (rowDims N E C wf).sKept by
    show (1 : Fin 2) ∈ (List.finRange 2).filter (fun a => a ∉ ([0] : List (Fin 2))); decide)]
  rfl

/-- WHERE AN UPDATE LANDS: update (e, c') lands on entry (n, c) exactly when the e-th index, read signed, is n
    and c' is c. -/
theorem resultIdx?_eq_some_iff (e : Fin E) (c' : Fin C) (idx : IVec ⟨2, ![E, 1]⟩ w) (n : Fin N) (c : Fin C) :
    (rowDims N E C wf).resultIdx? (ix2 e c') idx = some (ix2 n c)
      ↔ (idx (ix2 e (0 : Fin 1))).toInt = (n.val : Int) ∧ c' = c := by
  unfold ScatterDims.resultIdx?
  have hc := c'.isLt
  have hnlt := n.isLt
  constructor
  · intro h
    split at h
    · rename_i hall
      have h' := Option.some.inj h
      have h0 : ((rowDims N E C wf).start (ix2 e c') idx 0 + ((rowDims N E C wf).window (ix2 e c') 0 : Int)).toNat = n.val :=
        congrArg (fun f => (f 0).val) h'
      have h1 : ((rowDims N E C wf).start (ix2 e c') idx 1 + ((rowDims N E C wf).window (ix2 e c') 1 : Int)).toNat = c.val :=
        congrArg (fun f => (f 1).val) h'
      have hr : 0 ≤ (rowDims N E C wf).start (ix2 e c') idx 0 + ((rowDims N E C wf).window (ix2 e c') 0 : Int) := (hall 0).1
      rw [start_row, window_row] at h0 hr
      rw [start_col, window_col] at h1
      exact ⟨by omega, Fin.ext (by omega)⟩
    · exact absurd h (by simp)
  · rintro ⟨hn, rfl⟩
    have h0 : 0 ≤ (rowDims N E C wf).start (ix2 e c') idx 0 + ((rowDims N E C wf).window (ix2 e c') 0 : Int) ∧
        (rowDims N E C wf).start (ix2 e c') idx 0 + ((rowDims N E C wf).window (ix2 e c') 0 : Int) < (N : Int) := by
      rw [start_row, window_row, hn]; constructor <;> omega
    have h1 : 0 ≤ (rowDims N E C wf).start (ix2 e c') idx 1 + ((rowDims N E C wf).window (ix2 e c') 1 : Int) ∧
        (rowDims N E C wf).start (ix2 e c') idx 1 + ((rowDims N E C wf).window (ix2 e c') 1 : Int) < (C : Int) := by
      rw [start_col, window_col]; constructor <;> omega
    have hall : ∀ a, 0 ≤ (rowDims N E C wf).start (ix2 e c') idx a + (rowDims N E C wf).window (ix2 e c') a ∧
        (rowDims N E C wf).start (ix2 e c') idx a + (rowDims N E C wf).window (ix2 e c') a < (⟨2, ![N, C]⟩ : Shape).size a :=
      fun a => match a with
        | ⟨0, _⟩ => h0
        | ⟨1, _⟩ => h1
    rw [dif_pos hall]
    congr 1
    funext a; refine Fin.ext ?_
    match a with
    | ⟨0, _⟩ =>
      show ((rowDims N E C wf).start (ix2 e c') idx 0 + ((rowDims N E C wf).window (ix2 e c') 0 : Int)).toNat = n.val
      rw [start_row, window_row, hn]; omega
    | ⟨1, _⟩ =>
      show ((rowDims N E C wf).start (ix2 e c') idx 1 + ((rowDims N E C wf).window (ix2 e c') 1 : Int)).toNat = c'.val
      rw [start_col, window_col]; omega

/-- THE SEGMENT SUM READ AT (n, c): the entry scattered into, plus the updates' column c summed over the rows whose
    index is n. -/
theorem scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_bij' (fun j _ => (⟨(j 0).val, idx2_lt0 j⟩ : Fin E)) (fun e _ => ix2 e c) ?_ ?_ ?_ ?_ ?_
  · intro j hj
    obtain ⟨e, c', rfl⟩ : ∃ (e : Fin E) (c' : Fin C), j = ix2 e c' := ⟨⟨(j 0).val, idx2_lt0 j⟩, ⟨(j 1).val, idx2_lt1 j⟩, eq_ix2 j⟩
    exact Finset.mem_filter.mpr ⟨Finset.mem_univ _, ((resultIdx?_eq_some_iff wf e c' idx n c).mp (Finset.mem_filter.mp hj).2).1⟩
  · intro e he
    exact Finset.mem_filter.mpr ⟨Finset.mem_univ _,
      (resultIdx?_eq_some_iff wf e c idx n c).mpr ⟨(Finset.mem_filter.mp he).2, rfl⟩⟩
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl
  · intro e _
    rfl
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl

/-! ## The rank-1 form: a segment sum of numbers

The scatter-add of a vector of E numbers into a vector of N numbers, entry e going to the place the e-th index names
(jax's segment_sum of a vector: node degrees, group sizes). The updates have no window axis. -/

/-- The dimension numbers of a scatter of numbers: operand [N], scatter indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec

variable {N E w : Nat} (wf1 : ScatterDims.WF ⟨1, ![N]⟩ ⟨2, ![E, 1]⟩ ⟨1, ![E]⟩ [] [0] [0] 1)

/-- The window of update e starts at the e-th index read signed. -/
theorem vstart (e : Fin E) (idx : IVec ⟨2, ![E, 1]⟩ w) :
    (vecDims N E wf1).start (ix1 e) idx 0 = (idx (ix2 e (0 : Fin 1))).toInt := by
  unfold ScatterDims.start
  rw [dif_pos (show (0 : Fin 1) ∈ (vecDims N E wf1).scatterDimsToOperandDims from List.mem_singleton.mpr rfl)]
  congr 2
  funext b; refine Fin.ext ?_
  match b with
  | ⟨0, _⟩ => rfl
  | ⟨1, _⟩ => rfl

/-- The one operand axis is inserted: no window coordinate. -/
theorem vwindow (e : Fin E) : (vecDims N E wf1).window (ix1 e) 0 = 0 := by
  unfold ScatterDims.window
  rw [dif_neg (show ¬ (0 : Fin 1) ∈ (vecDims N E wf1).sKept by
    show (0 : Fin 1) ∉ (List.finRange 1).filter (fun a => a ∉ ([0] : List (Fin 1))); decide)]

/-- Update e lands on entry n exactly when the e-th index, read signed, is n. -/
theorem vresultIdx?_eq_some_iff (e : Fin E) (idx : IVec ⟨2, ![E, 1]⟩ w) (n : Fin N) :
    (vecDims N E wf1).resultIdx? (ix1 e) idx = some (ix1 n) ↔ (idx (ix2 e (0 : Fin 1))).toInt = (n.val : Int) := by
  unfold ScatterDims.resultIdx?
  have hnlt := n.isLt
  constructor
  · intro h
    split at h
    · rename_i hall
      have h' := Option.some.inj h
      have h0 : ((vecDims N E wf1).start (ix1 e) idx 0 + ((vecDims N E wf1).window (ix1 e) 0 : Int)).toNat = n.val :=
        congrArg (fun f => (f 0).val) h'
      have hr : 0 ≤ (vecDims N E wf1).start (ix1 e) idx 0 + ((vecDims N E wf1).window (ix1 e) 0 : Int) := (hall 0).1
      rw [vstart, vwindow] at h0 hr
      omega
    · exact absurd h (by simp)
  · intro hn
    have h0 : 0 ≤ (vecDims N E wf1).start (ix1 e) idx 0 + ((vecDims N E wf1).window (ix1 e) 0 : Int) ∧
        (vecDims N E wf1).start (ix1 e) idx 0 + ((vecDims N E wf1).window (ix1 e) 0 : Int) < (N : Int) := by
      rw [vstart, vwindow, hn]; constructor <;> omega
    have hall : ∀ a, 0 ≤ (vecDims N E wf1).start (ix1 e) idx a + (vecDims N E wf1).window (ix1 e) a ∧
        (vecDims N E wf1).start (ix1 e) idx a + (vecDims N E wf1).window (ix1 e) a < (⟨1, ![N]⟩ : Shape).size a :=
      fun a => match a with
        | ⟨0, _⟩ => h0
    rw [dif_pos hall]
    congr 1
    funext a; refine Fin.ext ?_
    match a with
    | ⟨0, _⟩ =>
      show ((vecDims N E wf1).start (ix1 e) idx 0 + ((vecDims N E wf1).window (ix1 e) 0 : Int)).toNat = n.val
      rw [vstart, vwindow, hn]; omega

/-- THE SEGMENT SUM OF NUMBERS READ AT n: the entry scattered into, plus the updates summed over the places whose
    index is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf1) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_bij' (fun j _ => (⟨(j 0).val, (j 0).isLt⟩ : Fin E)) (fun e _ => ix1 e) ?_ ?_ ?_ ?_ ?_
  · intro j hj
    obtain ⟨e, rfl⟩ : ∃ e : Fin E, j = ix1 e := ⟨⟨(j 0).val, (j 0).isLt⟩, eq_ix1 j⟩
    exact Finset.mem_filter.mpr ⟨Finset.mem_univ _, (vresultIdx?_eq_some_iff wf1 e idx n).mp (Finset.mem_filter.mp hj).2⟩
  · intro e he
    exact Finset.mem_filter.mpr ⟨Finset.mem_univ _, (vresultIdx?_eq_some_iff wf1 e idx n).mpr (Finset.mem_filter.mp he).2⟩
  · intro j _
    obtain ⟨e, rfl⟩ : ∃ e : Fin E, j = ix1 e := ⟨⟨(j 0).val, (j 0).isLt⟩, eq_ix1 j⟩
    rfl
  · intro e _
    rfl
  · intro j _
    obtain ⟨e, rfl⟩ : ∃ e : Fin E, j = ix1 e := ⟨⟨(j 0).val, (j 0).isLt⟩, eq_ix1 j⟩
    rfl

end Vec

end Cert.Lib.SegmentSum

end
-- ==== Proof.LibGatherRows.lean ====
/-
  A gather of rows read at an index.

  Indexing an array of N rows of width C with an integer column of E row numbers (jax's x[idx], a stablehlo.gather
  along axis 0 with whole-row slices) gives an array of E rows: row e is row idx[e] of x, the row number read as a
  signed integer and clamped into [0, N - 1], as StableHLO clamps every start index so that the slice fits. The lemma
  reads the gather's dimension numbers (offset axis 1, axis 0 collapsed and addressed by the one component of the
  index vector, slices of one row) down to that statement.
-/
import Idealize.ShloMosaic.PureOps.ShapeOps
import Idealize.ShloMosaic.Lib.ValueIdx

noncomputable section

namespace Cert.Lib.GatherRows

open Idealize.ShloMosaic Idealize.ShloMosaic.ValueIdx

/-- The dimension numbers of a gather of rows: operand [N, C], start indices [E, 1], result [E, C]. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {α : Type} {N E C w : Nat}
  (wf : GatherDims.WF ⟨2, ![N, C]⟩ ⟨2, ![E, 1]⟩ ⟨2, ![E, C]⟩ [1] [0] [] [0] [] 1 ![1, C])

/-- THE GATHER READ AT (e, c): the operand at the row the e-th index names (read signed, clamped into [0, N - 1])
    and at column c. -/
theorem gather_rows_apply (hN : 0 < N) (x : (⟨2, ![N, C]⟩ : Shape).Idx → α) (idx : IVec ⟨2, ![E, 1]⟩ w)
    (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap by
        show (1 : Fin 2) ∉ ([0] : List (Fin 2)); decide)]
    have ho : (rowsDims N E C wf).offCoord (ix2 e c) 1 = c.val := by
      unfold GatherDims.offCoord
      rw [dif_pos (show (1 : Fin 2) ∈ (rowsDims N E C wf).sKept by
        show (1 : Fin 2) ∈ (List.finRange 2).filter (fun a => a ∉ (([0] : List (Fin 2)) ++ [])); decide)]
      rfl
    rw [hs, ho]; omega

end Cert.Lib.GatherRows

end
-- ==== Proof.LibSegMean.lean ====
/-
  A segment mean read at an entry, and a gather of single numbers read at an entry.

  The mean over the edges of a node is written by array programs as two segment sums and a quotient: the rows named by
  one integer column are gathered, the gathered rows are added into a zero array at the rows a second integer column
  names, a column of ones is added into a zero column the same way, and the first result is divided, entry by entry, by
  the larger of the second and one (so a node with no edge gets zero, not a division by zero). On the extended reals
  every one of these steps is exact, so entry (n, c) of the result is

      (Σ_{e : s(e) = n} x[g(e), c]) / max (Σ_{e : s(e) = n} 1) 1,

  where s(e) is the e-th scatter index read as a signed integer and g(e) the e-th gather index read signed and clamped
  into the operand's rows. The numerator and the divisor are read separately below, so that they can be joined to
  whatever broadcast a particular program uses to spread the divisor along the columns; a joined form takes the
  divisor's entry as a hypothesis.

  The last lemma reads a gather whose start indices are pairs (row, column) into an array with one column, every
  result being one number: the column component is clamped to the only column there is, so the result at e is the
  operand at the clamped row and column zero.
-/
import proofs.«151303_j73272142069881_2_alg».proof.Proof.LibSegmentSum
import proofs.«151303_j73272142069881_2_alg».proof.Proof.LibGatherRows

noncomputable section

namespace Cert.Lib.SegMean

open Idealize.ShloMosaic Idealize.ShloMosaic.ValueIdx Cert.Lib.SegmentSum Cert.Lib.GatherRows

section Mean

variable {M N E C : Nat} {φ : FTy}

/-- The edges a segment sum adds into row n: those whose scatter index, read signed, is n. -/
abbrev seg (sidx : IVec ⟨2, ![E, 1]⟩ 32) (n : Fin N) : Finset (Fin E) :=
  Finset.univ.filter fun e : Fin E => (sidx (ix2 e (0 : Fin 1))).toInt = (n.val : Int)

/-- A SEGMENT SUM INTO ZEROS READ AT (n, c): the updates' column c summed over the edges of row n. -/
theorem seg_sum_apply (wfS : ScatterDims.WF ⟨2, ![N, C]⟩ ⟨2, ![E, 1]⟩ ⟨2, ![E, C]⟩ [1] [0] [0] 1)
    (DS : ScatterDims ⟨2, ![N, C]⟩ ⟨2, ![E, 1]⟩ ⟨2, ![E, C]⟩) (hDS : DS = rowDims N E C wfS)
    (z : FVec Ideal ⟨2, ![N, C]⟩ φ) (hz : ∀ i, z i = 0) (sidx : IVec ⟨2, ![E, 1]⟩ 32)
    (upd : FVec Ideal ⟨2, ![E, C]⟩ φ) (n : Fin N) (c : Fin C) :
    Host.scatterAdd DS z sidx upd (ix2 n c) = ∑ e ∈ seg sidx n, upd (ix2 e c) := by
  subst hDS
  show Ideal.hostScatterAdd (rowDims N E C wfS) z sidx upd (ix2 n c) = _
  rw [scatterAdd_apply, hz, zero_add]

/-- THE NUMERATOR: the segment sum into zeros of gathered rows, read at (n, c), is the sum over the edges of row n
    of the operand at the row the edge's gather index names (read signed, clamped into the operand's rows) and
    column c. -/
theorem seg_sum_gather_apply
    (wfG : GatherDims.WF ⟨2, ![M, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (DG : GatherDims ⟨2, ![M, C]⟩ ⟨2, ![E, 1]⟩ ⟨2, ![E, C]⟩) (hDG : DG = rowsDims M E C wfG)
    (DS : ScatterDims ⟨2, ![N, C]⟩ ⟨2, ![E, 1]⟩ ⟨2, ![E, C]⟩) (hDS : DS = rowDims N E C wfS)
    (hM : 0 < M) (z : FVec Ideal ⟨2, ![N, C]⟩ φ) (hz : ∀ i, z i = 0)
    (x : FVec Ideal ⟨2, ![M, C]⟩ φ) (gidx sidx : IVec ⟨2, ![E, 1]⟩ 32) (n : Fin N) (c : Fin C) :
    Host.scatterAdd DS z sidx (Host.gather DG x gidx) (ix2 n c)
      = ∑ e ∈ seg sidx n, x (ix2 ⟨min (gidx (ix2 e (0 : Fin 1))).toInt.toNat (M - 1), by omega⟩ c) := by
  rw [seg_sum_apply wfS DS hDS z hz]
  subst hDG
  exact Finset.sum_congr rfl fun e _ => gather_rows_apply wfG hM x gidx e c

/-- THE DIVISOR: the segment sum into a zero column of a column of ones, compared with one, read at (n, 0), is the
    larger of the number of edges of row n and one. -/
theorem seg_count_apply (wfS1 : ScatterDims.WF ⟨2, ![N, 1]⟩ ⟨2, ![E, 1]⟩ ⟨2, ![E, 1]⟩ [1] [0] [0] 1)
    (DS1 : ScatterDims ⟨2, ![N, 1]⟩ ⟨2, ![E, 1]⟩ ⟨2, ![E, 1]⟩) (hDS1 : DS1 = rowDims N E 1 wfS1)
    (z1 : FVec Ideal ⟨2, ![N, 1]⟩ φ) (hz1 : ∀ i, z1 i = 0) (o : FVec Ideal ⟨2, ![E, 1]⟩ φ) (ho : ∀ i, o i = 1)
    (o1 : FVec Ideal ⟨2, ![N, 1]⟩ φ) (ho1 : ∀ i, o1 i = 1) (sidx : IVec ⟨2, ![E, 1]⟩ 32) (n : Fin N) :
    maximumf (Host.scatterAdd DS1 z1 sidx o) o1 (ix2 n (0 : Fin 1)) = max (∑ _e ∈ seg sidx n, (1 : EReal)) 1 := by
  show max (Host.scatterAdd DS1 z1 sidx o (ix2 n (0 : Fin 1))) (o1 (ix2 n (0 : Fin 1))) = _
  rw [seg_sum_apply wfS1 DS1 hDS1 z1 hz1, ho1]
  congr 1
  exact Finset.sum_congr rfl fun e _ => ho _

/-- THE SEGMENT MEAN READ AT (n, c). The divisor array is any array whose entry (n, c) is the divisor column's entry
    (n, 0) (a broadcast along the columns; the hypothesis is that program's own fact about its broadcast). -/
theorem seg_mean_apply
    (wfG : GatherDims.WF ⟨2, ![M, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (wfS1 : ScatterDims.WF ⟨2, ![N, 1]⟩ ⟨2, ![E, 1]⟩ ⟨2, ![E, 1]⟩ [1] [0] [0] 1)
    (DG : GatherDims ⟨2, ![M, C]⟩ ⟨2, ![E, 1]⟩ ⟨2, ![E, C]⟩) (hDG : DG = rowsDims M E C wfG)
    (DS : ScatterDims ⟨2, ![N, C]⟩ ⟨2, ![E, 1]⟩ ⟨2, ![E, C]⟩) (hDS : DS = rowDims N E C wfS)
    (DS1 : ScatterDims ⟨2, ![N, 1]⟩ ⟨2, ![E, 1]⟩ ⟨2, ![E, 1]⟩) (hDS1 : DS1 = rowDims N E 1 wfS1)
    (hM : 0 < M) (z : FVec Ideal ⟨2, ![N, C]⟩ φ) (hz : ∀ i, z i = 0)
    (z1 : FVec Ideal ⟨2, ![N, 1]⟩ φ) (hz1 : ∀ i, z1 i = 0) (o : FVec Ideal ⟨2, ![E, 1]⟩ φ) (ho : ∀ i, o i = 1)
    (o1 : FVec Ideal ⟨2, ![N, 1]⟩ φ) (ho1 : ∀ i, o1 i = 1)
    (x : FVec Ideal ⟨2, ![M, C]⟩ φ) (gidx sidx sidx1 : IVec ⟨2, ![E, 1]⟩ 32) (hs : sidx1 = sidx)
    (den : FVec Ideal ⟨2, ![N, C]⟩ φ) (n : Fin N) (c : Fin C)
    (hden : den (ix2 n c) = maximumf (Host.scatterAdd DS1 z1 sidx1 o) o1 (ix2 n (0 : Fin 1))) :
    Host.divf (Host.scatterAdd DS z sidx (Host.gather DG x gidx)) den (ix2 n c)
      = Ideal.div (∑ e ∈ seg sidx n, x (ix2 ⟨min (gidx (ix2 e (0 : Fin 1))).toInt.toNat (M - 1), by omega⟩ c))
          (max (∑ _e ∈ seg sidx n, (1 : EReal)) 1) := by
  subst hs
  show Ideal.div (Host.scatterAdd DS z sidx1 (Host.gather DG x gidx) (ix2 n c)) (den (ix2 n c)) = _
  rw [hden, seg_count_apply wfS1 DS1 hDS1 z1 hz1 o ho o1 ho1, seg_sum_gather_apply wfG wfS DG hDG DS hDS hM z hz]

end Mean

/-! ## A gather of single numbers by (row, column) pairs from an array with one column -/

section Pair

variable {α : Type} {N E w : Nat}

/-- The dimension numbers: operand [N, 1], start indices [E, 2] (a row and a column each), result [E]; both operand
    axes are collapsed, slices hold one number. -/
abbrev pairDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

variable (wf : GatherDims.WF ⟨2, ![N, 1]⟩ ⟨2, ![E, 2]⟩ ⟨1, ![E]⟩ [] [0, 1] [] [0, 1] [] 1 ![1, 1])

/-- THE GATHER READ AT e: the operand at the row the pair's first component names (read signed, clamped into
    [0, N - 1]) and at column zero, whatever the pair's second component is. -/
theorem gather_pair_apply (hN : 0 < N) (x : (⟨2, ![N, 1]⟩ : Shape).Idx → α) (idx : IVec ⟨2, ![E, 2]⟩ w) (e : Fin E) :
    Host.gather (pairDims N E wf) x idx (ix1 e)
      = x (ix2 ⟨min (idx (ix2 e (0 : Fin 2))).toInt.toNat (N - 1), by omega⟩ (0 : Fin 1)) := by
  unfold Host.gather
  congr 1
  funext a
  refine Fin.ext ?_
  match a with
  | ⟨0, _⟩ =>
    show (pairDims N E wf).start (ix1 e) idx 0 + (pairDims N E wf).batchCoord (ix1 e) 0
      + (pairDims N E wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ (pairDims N E wf).startIndexMap by
      show (0 : Fin 2) ∈ ([0, 1] : List (Fin 2)); decide)]
    have hsi : (pairDims N E wf).siIdx (ix1 e) ⟨List.idxOf (0 : Fin 2) (pairDims N E wf).startIndexMap,
        List.idxOf_lt_length_iff.2 (show (0 : Fin 2) ∈ ([0, 1] : List (Fin 2)) by decide)⟩ = ix2 e (0 : Fin 2) := by
      funext b; refine Fin.ext ?_
      match b with
      | ⟨0, _⟩ => rfl
      | ⟨1, _⟩ => rfl
    rw [hsi]
    rfl
  | ⟨1, _⟩ =>
    show (pairDims N E wf).start (ix1 e) idx 1 + (pairDims N E wf).batchCoord (ix1 e) 1
      + (pairDims N E wf).offCoord (ix1 e) 1 = 0
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    have hle : (pairDims N E wf).start (ix1 e) idx 1 ≤ 1 - 1 := (pairDims N E wf).start_le (ix1 e) idx 1
    omega

end Pair

end Cert.Lib.SegMean

end
-- ==== Proof.KerHostLib.lean ====
/-
  The host operations' common pieces, read at an entry.

  The program describes its graph by two vectors of 150000 integers, the ligand end and the target end of every edge.
  A gather reads the row whose number is the edge's entry after a negative entry has had the row count added and the
  result has been clamped into range; a segment sum adds into row n the edges whose raw entry, read signed, is n. The
  mean over a segment is written as two segment sums into zeros (of the gathered rows, and of ones), the second
  compared with one and spread along the columns, and an entrywise quotient. This file reads each of these pieces at
  an entry and joins them: the quotient at (n, c) is the mean over the edges of n of the operand's entries at the
  edges' rows and column c.
-/
import proofs.«151303_j73272142069881_2_alg».proof.Proof.Gen.KernelIdeal.Launch
import proofs.«151303_j73272142069881_2_alg».proof.Proof.NetSpec
import proofs.«151303_j73272142069881_2_alg».proof.Proof.LibSegMean
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KerHost

open Cert.KernelIdeal Cert.KernelIdeal.Gen
open Idealize.ShloMosaic Idealize.ShloMosaic.TcCoe Idealize.ShloMosaic.StableHlo Idealize.SL.Sem
open Idealize.ShloMosaic.ValueIdx
open Cert.Lib.SegMean Cert.Lib.SegmentSum Cert.Lib.GatherRows

/-! ## The graph through two index vectors -/

/-- The edges whose entry in v, read signed, is n. -/
def segOf (v : IVec S150000 32) (n : Nat) : Finset (Fin 150000) :=
  Finset.univ.filter fun e : Fin 150000 => (v (ix1 e)).toInt = (n : Int)

/-- The row of an array of M rows that edge e's entry in v names: a negative entry has the row count added, and the
    result is clamped into range. -/
def rowOf (M : Nat) (hM : 0 < M) (NB : BitVec 32) (v : IVec S150000 32) (e : Fin 150000) : Fin M :=
  ⟨min (Net.nrm NB (v (ix1 e))).toInt.toNat (M - 1), by omega⟩

/-- The ligand row of an edge, from the vector of ligand ends. -/
abbrev rowL (s : IVec S150000 32) (e : Fin 150000) : Fin 100000 := rowOf 100000 (by decide) 100000#32 s e
/-- The target row of an edge, from the vector of target ends. -/
abbrev rowT (d : IVec S150000 32) (e : Fin 150000) : Fin 4000 := rowOf 4000 (by decide) 4000#32 d e

/-- When the two vectors are the two rows of one integer array, these are the graph that array describes. -/
theorem segOf_src {a2 : IVec S2x150000 32} {s : IVec S150000 32} (hs : ∀ e, s (ix1 e) = a2 (ix2 (0 : Fin 2) e))
    (n : Fin 100000) : segOf s n.val = (Net.graphOf a2).segL n :=
  Finset.filter_congr fun e _ => by rw [hs]
theorem segOf_dst {a2 : IVec S2x150000 32} {d : IVec S150000 32} (hd : ∀ e, d (ix1 e) = a2 (ix2 (1 : Fin 2) e))
    (n : Fin 4000) : segOf d n.val = (Net.graphOf a2).segT n :=
  Finset.filter_congr fun e _ => by rw [hd]
theorem rowL_src {a2 : IVec S2x150000 32} {s : IVec S150000 32} (hs : ∀ e, s (ix1 e) = a2 (ix2 (0 : Fin 2) e))
    (e : Fin 150000) : rowL s e = (Net.graphOf a2).rowL e :=
  Fin.ext (by show min _ _ = min _ _; rw [hs])
theorem rowT_dst {a2 : IVec S2x150000 32} {d : IVec S150000 32} (hd : ∀ e, d (ix1 e) = a2 (ix2 (1 : Fin 2) e))
    (e : Fin 150000) : rowT d e = (Net.graphOf a2).rowT e :=
  Fin.ext (by show min _ _ = min _ _; rw [hd])

/-! ## The index columns -/

/-- Row r of the integer array as a vector: the slice of that row, reshaped. -/
def idxRow0 (a2 : IVec S2x150000 32) : IVec S150000 32 :=
  shapeCast S150000 (extractStridedSlice S1x150000 ![0, 0] a2 slices_S2x150000_S1x150000_0_0) shapeCasts_S1x150000_S150000
def idxRow1 (a2 : IVec S2x150000 32) : IVec S150000 32 :=
  shapeCast S150000 (extractStridedSlice S1x150000 ![1, 0] a2 slices_S2x150000_S1x150000_1_0) shapeCasts_S1x150000_S150000

theorem idxRow0_apply (a2 : IVec S2x150000 32) (e : Fin 150000) : idxRow0 a2 (ix1 e) = a2 (ix2 (0 : Fin 2) e) := by
  unfold idxRow0
  rw [shapeCast_apply _ shapeCasts_S1x150000_S150000 (ix1 e) (ix2 (0 : Fin 1) e)
    (by rewrite [Shape.rowMajor_val_two, Shape.rowMajor_val_one]; show 0 * 150000 + e.val = e.val; omega)]
  exact extractStridedSlice_apply ![0, 0] _ slices_S2x150000_S1x150000_0_0 (ix2 (0 : Fin 1) e) (ix2 (0 : Fin 2) e)
    (fun a => match a with
      | ⟨0, _⟩ => by show (0 : Nat) = 0 + 0; omega
      | ⟨1, _⟩ => by show e.val = 0 + e.val; omega)

theorem idxRow1_apply (a2 : IVec S2x150000 32) (e : Fin 150000) : idxRow1 a2 (ix1 e) = a2 (ix2 (1 : Fin 2) e) := by
  unfold idxRow1
  rw [shapeCast_apply _ shapeCasts_S1x150000_S150000 (ix1 e) (ix2 (0 : Fin 1) e)
    (by rewrite [Shape.rowMajor_val_two, Shape.rowMajor_val_one]; show 0 * 150000 + e.val = e.val; omega)]
  exact extractStridedSlice_apply ![1, 0] _ slices_S2x150000_S1x150000_1_0 (ix2 (0 : Fin 1) e) (ix2 (1 : Fin 2) e)
    (fun a => match a with
      | ⟨0, _⟩ => by show (1 : Nat) = 1 + 0; omega
      | ⟨1, _⟩ => by show e.val = 0 + e.val; omega)

/-- A vector of entries as a column. -/
def rawCol (v : IVec S150000 32) : IVec S150000x1 32 := broadcastInDim S150000x1 ![0] bcast_S150000_S150000x1_0 v

/-- The column of row numbers a gather takes: where an entry is negative, the entry plus the row count. -/
def nrmCol (NB : BitVec 32) (v : IVec S150000 32) : IVec S150000x1 32 :=
  broadcastInDim S150000x1 ![0] bcast_S150000_S150000x1_0
    (select (cmpi .slt v (broadcastInDim S150000 ![] bcast_S_S150000 (constantI S_ 32 0#32)))
      (addi v (broadcastInDim S150000 ![] bcast_S_S150000 (constantI S_ 32 NB))) v)

theorem col_apply {α : Type} (v : S150000.Idx → α) (e : Fin 150000) :
    broadcastInDim S150000x1 ![0] bcast_S150000_S150000x1_0 v (ix2 e (0 : Fin 1)) = v (ix1 e) :=
  broadcastInDim_apply _ bcast_S150000_S150000x1_0 v (ix2 e (0 : Fin 1)) (ix1 e) (fun a => match a with
    | ⟨0, _⟩ => by show e.val = if (150000 : Nat) = 1 then 0 else e.val; rw [if_neg (by decide)])

theorem rawCol_apply (v : IVec S150000 32) (e : Fin 150000) : rawCol v (ix2 e (0 : Fin 1)) = v (ix1 e) := col_apply v e

theorem nrmCol_apply (NB : BitVec 32) (v : IVec S150000 32) (e : Fin 150000) :
    nrmCol NB v (ix2 e (0 : Fin 1)) = Net.nrm NB (v (ix1 e)) := by
  unfold nrmCol
  rw [col_apply]
  rfl

/-! ## Constants -/

theorem one_bits : Ideal.ofBits .f32 0x3F800000#32 = 1 := by
  simp [Ideal.ofBits, Ideal.ieee]
  rw [← EReal.coe_mul, ← EReal.coe_one]
  congr 1
  norm_num

theorem zeros_apply {t : Shape} (hb : S_.BroadcastsInDim t (![] : Fin 0 → Fin t.rank)) (i : t.Idx) :
    (broadcastInDim t ![] hb (constant (F := Ideal) S_ .f32 0x00000000#32) : FVec Ideal t .f32) i = 0 :=
  Ideal.ofBits_zero_f32

theorem ones_apply {t : Shape} (hb : S_.BroadcastsInDim t (![] : Fin 0 → Fin t.rank)) (i : t.Idx) :
    (broadcastInDim t ![] hb (constant (F := Ideal) S_ .f32 0x3F800000#32) : FVec Ideal t .f32) i = 1 :=
  one_bits

/-- A column spread along C columns reads its own entry of the row. -/
theorem bcast_col_apply {α : Type} {N C : Nat}
    (hb : (⟨2, ![N, 1]⟩ : Shape).BroadcastsInDim ⟨2, ![N, C]⟩ (![0, 1] : Fin 2 → Fin 2))
    (y : (⟨2, ![N, 1]⟩ : Shape).Idx → α) (n : Fin N) (c : Fin C) :
    broadcastInDim ⟨2, ![N, C]⟩ ![0, 1] hb y (ix2 n c) = y (ix2 n (0 : Fin 1)) :=
  broadcastInDim_apply _ hb y (ix2 n c) (ix2 n (0 : Fin 1)) (fun a => match a with
    | ⟨0, _⟩ => by
        show n.val = if N = 1 then 0 else n.val
        have := n.isLt
        split <;> omega
    | ⟨1, _⟩ => by show (0 : Nat) = if (1 : Nat) = 1 then 0 else c.val; rw [if_pos rfl])

/-! ## The mean -/

/-- THE SEGMENT MEAN AS THE PROGRAM SPELLS IT, READ AT (n, c): the mean over the edges whose entry in d is n of the
    operand at the row the edge's entry in s names and column c. -/
theorem mean_read {M N C : Nat} (NB : BitVec 32) (hM : 0 < M)
    (wfG : GatherDims.WF ⟨2, ![M, C]⟩ ⟨2, ![150000, 1]⟩ ⟨2, ![150000, C]⟩ [1] [0] [] [0] [] 1 ![1, C])
    (wfS : ScatterDims.WF ⟨2, ![N, C]⟩ ⟨2, ![150000, 1]⟩ ⟨2, ![150000, C]⟩ [1] [0] [0] 1)
    (wfS1 : ScatterDims.WF ⟨2, ![N, 1]⟩ ⟨2, ![150000, 1]⟩ ⟨2, ![150000, 1]⟩ [1] [0] [0] 1)
    (DG : GatherDims ⟨2, ![M, C]⟩ ⟨2, ![150000, 1]⟩ ⟨2, ![150000, C]⟩) (hDG : DG = rowsDims M 150000 C wfG)
    (DS : ScatterDims ⟨2, ![N, C]⟩ ⟨2, ![150000, 1]⟩ ⟨2, ![150000, C]⟩) (hDS : DS = rowDims N 150000 C wfS)
    (DS1 : ScatterDims ⟨2, ![N, 1]⟩ ⟨2, ![150000, 1]⟩ ⟨2, ![150000, 1]⟩) (hDS1 : DS1 = rowDims N 150000 1 wfS1)
    (hbz : S_.BroadcastsInDim ⟨2, ![N, C]⟩ (![] : Fin 0 → Fin 2))
    (hbz1 : S_.BroadcastsInDim ⟨2, ![N, 1]⟩ (![] : Fin 0 → Fin 2))
    (hbo : S_.BroadcastsInDim ⟨2, ![150000, 1]⟩ (![] : Fin 0 → Fin 2))
    (hbd : (⟨2, ![N, 1]⟩ : Shape).BroadcastsInDim ⟨2, ![N, C]⟩ (![0, 1] : Fin 2 → Fin 2))
    (x : FVec Ideal ⟨2, ![M, C]⟩ .f32) (s d : IVec S150000 32) (n : Fin N) (c : Fin C) :
    Host.divf (F := Ideal) (φ := .f32)
        (Host.scatterAdd DS (broadcastInDim ⟨2, ![N, C]⟩ ![] hbz (constant (F := Ideal) S_ .f32 0x00000000#32)) (rawCol d)
          (Host.gather DG x (nrmCol NB s)))
        (broadcastInDim ⟨2, ![N, C]⟩ ![0, 1] hbd
          (maximumf (F := Ideal) (φ := .f32)
            (Host.scatterAdd DS1 (broadcastInDim ⟨2, ![N, 1]⟩ ![] hbz1 (constant (F := Ideal) S_ .f32 0x00000000#32)) (rawCol d)
              (broadcastInDim ⟨2, ![150000, 1]⟩ ![] hbo (constant (F := Ideal) S_ .f32 0x3F800000#32)))
            (broadcastInDim ⟨2, ![N, 1]⟩ ![] hbz1 (constant (F := Ideal) S_ .f32 0x3F800000#32)))) (ix2 n c)
      = Net.mean (segOf d n.val) (fun e => x (ix2 (rowOf M hM NB s e) c)) := by
  have hz := zeros_apply (t := ⟨2, ![N, C]⟩) hbz
  have hz1 := zeros_apply (t := ⟨2, ![N, 1]⟩) hbz1
  have ho := ones_apply (t := ⟨2, ![150000, 1]⟩) hbo
  have ho1 := ones_apply (t := ⟨2, ![N, 1]⟩) hbz1
  have hden := bcast_col_apply hbd
    (maximumf (F := Ideal) (φ := .f32)
      (Host.scatterAdd DS1 (broadcastInDim ⟨2, ![N, 1]⟩ ![] hbz1 (constant (F := Ideal) S_ .f32 0x00000000#32)) (rawCol d)
        (broadcastInDim ⟨2, ![150000, 1]⟩ ![] hbo (constant (F := Ideal) S_ .f32 0x3F800000#32)))
      (broadcastInDim ⟨2, ![N, 1]⟩ ![] hbz1 (constant (F := Ideal) S_ .f32 0x3F800000#32))) n c
  have key := seg_mean_apply (φ := .f32) (M := M) (N := N) (E := 150000) (C := C) wfG wfS wfS1 DG hDG DS hDS DS1 hDS1 hM
    _ hz _ hz1 _ ho _ ho1 x (nrmCol NB s) (rawCol d) (rawCol d) rfl _ n c hden
  refine key.trans ?_
  have hseg : seg (N := N) (rawCol d) n = segOf d n.val := Finset.filter_congr fun e _ => by rw [rawCol_apply]
  unfold Net.mean
  rw [hseg]
  refine congrArg (fun t => Ideal.div t (max (∑ _e ∈ segOf d n.val, (1 : EReal)) 1)) ?_
  refine Finset.sum_congr rfl fun e _ => ?_
  exact congrArg (fun r => x (ix2 r c)) (Fin.ext (by show min _ _ = min _ _; rw [nrmCol_apply]))

/-! ## A vector of 128 numbers as one row -/

/-- A vector reshaped into one row reads its own entry. -/
theorem row_apply {α : Type} (x : S128.Idx → α) (q : Fin 128) :
    shapeCast S1x128 x shapeCasts_S128_S1x128 (ix2 (0 : Fin 1) q) = x (ix1 q) :=
  shapeCast_apply x shapeCasts_S128_S1x128 (ix2 (0 : Fin 1) q) (ix1 q)
    (by rewrite [Shape.rowMajor_val_one, Shape.rowMajor_val_two]; show q.val = 0 * 128 + q.val; omega)

end Cert.KernelIdeal.KerHost

end
-- ==== Proof.KerHost0.lean ====
/-
  The first stretch of host operations, read at an entry.

  Before the first region the program cuts the integer array into its two rows (the ligand end and the target end of
  every edge), takes for every target the mean of its neighbouring ligands' features, cuts the score weights into
  their lower and upper 128 places, and lays the first bias out as one row. Each result is first written as the
  composition of the operations that produce it, over whatever the buffers held before the stretch, and then read at an
  entry.
-/
import proofs.«151303_j73272142069881_2_alg».proof.Proof.KerHostLib

noncomputable section

namespace Cert.KernelIdeal.KerHost

open Cert.KernelIdeal Cert.KernelIdeal.Gen
open Idealize.ShloMosaic Idealize.ShloMosaic.TcCoe Idealize.ShloMosaic.StableHlo Idealize.SL.Sem
open Idealize.ShloMosaic.ValueIdx
open Cert.Lib.SegMean Cert.Lib.SegmentSum Cert.Lib.GatherRows

variable (W : Valuation τ sig (Elt Ideal))

/-! ## The results as compositions -/

theorem after0_v1 :
    (after (hostOps0 (F := Ideal)) W (Proc.devRef .tc main_v1) : S150000.Idx → BitVec 32)
      = idxRow0 (W (Proc.devRef .tc main_arg2)) := by
  show after hostOps0 W (Proc.devRef .tc main_v1) = _
  after_results
  rfl

theorem after0_v3 :
    (after (hostOps0 (F := Ideal)) W (Proc.devRef .tc main_v3) : S150000.Idx → BitVec 32)
      = idxRow1 (W (Proc.devRef .tc main_arg2)) := by
  show after hostOps0 W (Proc.devRef .tc main_v3) = _
  after_results
  rfl

theorem after0_v21 :
    (after (hostOps0 (F := Ideal)) W (Proc.devRef .tc main_v21) : S4000x4.Idx → EReal)
      = Host.divf (F := Ideal) (φ := .f32)
          (Host.scatterAdd scatter_S4000x4_S150000x1_S150000x4_1_0_0_1
            (broadcastInDim S4000x4 ![] bcast_S_S4000x4 (constant (F := Ideal) S_ .f32 0x00000000#32))
            (rawCol (idxRow1 (W (Proc.devRef .tc main_arg2))))
            (Host.gather gather_S100000x4_S150000x1_S150000x4_1_0_n_n_0_1_14
              (W (Proc.devRef .tc main_arg0) : S100000x4.Idx → EReal)
              (nrmCol 100000#32 (idxRow0 (W (Proc.devRef .tc main_arg2))))))
          (broadcastInDim S4000x4 ![0, 1] bcast_S4000x1_S4000x4_0_1
            (maximumf (F := Ideal) (φ := .f32)
              (Host.scatterAdd scatter_S4000x1_S150000x1_S150000x1_1_0_0_1
                (broadcastInDim S4000x1 ![] bcast_S_S4000x1 (constant (F := Ideal) S_ .f32 0x00000000#32))
                (rawCol (idxRow1 (W (Proc.devRef .tc main_arg2))))
                (broadcastInDim S150000x1 ![] bcast_S_S150000x1 (constant (F := Ideal) S_ .f32 0x3F800000#32)))
              (broadcastInDim S4000x1 ![] bcast_S_S4000x1 (constant (F := Ideal) S_ .f32 0x3F800000#32)))) := by
  show after hostOps0 W (Proc.devRef .tc main_v21) = _
  after_results_simp
  rfl

theorem after0_v22 :
    (after (hostOps0 (F := Ideal)) W (Proc.devRef .tc main_v22) : S128x1.Idx → EReal)
      = extractStridedSlice S128x1 ![0, 0] (W (Proc.devRef .tc main_arg15) : S256x1.Idx → EReal)
          slices_S256x1_S128x1_0_0 := by
  show after hostOps0 W (Proc.devRef .tc main_v22) = _
  after_results

theorem after0_v23 :
    (after (hostOps0 (F := Ideal)) W (Proc.devRef .tc main_v23) : S128x1.Idx → EReal)
      = extractStridedSlice S128x1 ![128, 0] (W (Proc.devRef .tc main_arg15) : S256x1.Idx → EReal)
          slices_S256x1_S128x1_128_0 := by
  show after hostOps0 W (Proc.devRef .tc main_v23) = _
  after_results

theorem after0_v24 :
    (after (hostOps0 (F := Ideal)) W (Proc.devRef .tc main_v24) : S1x128.Idx → EReal)
      = shapeCast S1x128 (W (Proc.devRef .tc main_arg4) : S128.Idx → EReal) shapeCasts_S128_S1x128 := by
  show after hostOps0 W (Proc.devRef .tc main_v24) = _
  after_results
  rfl

/-! ## The results at an entry -/

/-- The ligand ends are row 0 of the integer array. -/
theorem h0_v1 (e : Fin 150000) :
    (after (hostOps0 (F := Ideal)) W (Proc.devRef .tc main_v1) : S150000.Idx → BitVec 32) (ix1 e)
      = (W (Proc.devRef .tc main_arg2) : S2x150000.Idx → BitVec 32) (ix2 (0 : Fin 2) e) := by
  rw [after0_v1]
  exact idxRow0_apply _ e

/-- The target ends are row 1. -/
theorem h0_v3 (e : Fin 150000) :
    (after (hostOps0 (F := Ideal)) W (Proc.devRef .tc main_v3) : S150000.Idx → BitVec 32) (ix1 e)
      = (W (Proc.devRef .tc main_arg2) : S2x150000.Idx → BitVec 32) (ix2 (1 : Fin 2) e) := by
  rw [after0_v3]
  exact idxRow1_apply _ e

/-- For every target, the mean of its neighbouring ligands' features. -/
theorem h0_v21 (n : Fin 4000) (k : Fin 4) :
    (after (hostOps0 (F := Ideal)) W (Proc.devRef .tc main_v21) : S4000x4.Idx → EReal) (ix2 n k)
      = Net.mean ((Net.graphOf (W (Proc.devRef .tc main_arg2) : S2x150000.Idx → BitVec 32)).segT n)
          (fun e => (W (Proc.devRef .tc main_arg0) : S100000x4.Idx → EReal)
            (ix2 ((Net.graphOf (W (Proc.devRef .tc main_arg2) : S2x150000.Idx → BitVec 32)).rowL e) k)) := by
  rw [after0_v21]
  refine (mean_read 100000#32 (by decide)
    gather_S100000x4_S150000x1_S150000x4_1_0_n_n_0_1_14.wf scatter_S4000x4_S150000x1_S150000x4_1_0_0_1.wf
    scatter_S4000x1_S150000x1_S150000x1_1_0_0_1.wf
    gather_S100000x4_S150000x1_S150000x4_1_0_n_n_0_1_14 rfl scatter_S4000x4_S150000x1_S150000x4_1_0_0_1 rfl
    scatter_S4000x1_S150000x1_S150000x1_1_0_0_1 rfl
    bcast_S_S4000x4 bcast_S_S4000x1 bcast_S_S150000x1 bcast_S4000x1_S4000x4_0_1
    (W (Proc.devRef .tc main_arg0)) (idxRow0 (W (Proc.devRef .tc main_arg2))) (idxRow1 (W (Proc.devRef .tc main_arg2)))
    n k).trans ?_
  rw [segOf_dst (idxRow1_apply _) n]
  refine congrArg (Net.mean _) (funext fun e => ?_)
  exact congrArg (fun r => (W (Proc.devRef .tc main_arg0) : S100000x4.Idx → EReal) (ix2 r k))
    (rowL_src (idxRow0_apply _) e)

/-- The lower 128 score weights. -/
theorem h0_v22 (k : Fin 128) :
    (after (hostOps0 (F := Ideal)) W (Proc.devRef .tc main_v22) : S128x1.Idx → EReal) (ix2 k (0 : Fin 1))
      = (W (Proc.devRef .tc main_arg15) : S256x1.Idx → EReal) (ix2 (⟨k.val, by omega⟩ : Fin 256) (0 : Fin 1)) := by
  rw [after0_v22]
  exact extractStridedSlice_apply ![0, 0] _ slices_S256x1_S128x1_0_0 (ix2 k (0 : Fin 1))
    (ix2 (⟨k.val, by omega⟩ : Fin 256) (0 : Fin 1)) (fun a => match a with
      | ⟨0, _⟩ => by show k.val = 0 + k.val; omega
      | ⟨1, _⟩ => by show (0 : Nat) = 0 + 0; omega)

/-- The upper 128 score weights. -/
theorem h0_v23 (k : Fin 128) :
    (after (hostOps0 (F := Ideal)) W (Proc.devRef .tc main_v23) : S128x1.Idx → EReal) (ix2 k (0 : Fin 1))
      = (W (Proc.devRef .tc main_arg15) : S256x1.Idx → EReal) (ix2 (⟨128 + k.val, by omega⟩ : Fin 256) (0 : Fin 1)) := by
  rw [after0_v23]
  exact extractStridedSlice_apply ![128, 0] _ slices_S256x1_S128x1_128_0 (ix2 k (0 : Fin 1))
    (ix2 (⟨128 + k.val, by omega⟩ : Fin 256) (0 : Fin 1)) (fun a => match a with
      | ⟨0, _⟩ => by show 128 + k.val = 128 + k.val; rfl
      | ⟨1, _⟩ => by show (0 : Nat) = 0 + 0; omega)

/-- The first bias as one row. -/
theorem h0_v24 (q : Fin 128) :
    (after (hostOps0 (F := Ideal)) W (Proc.devRef .tc main_v24) : S1x128.Idx → EReal) (ix2 (0 : Fin 1) q)
      = (W (Proc.devRef .tc main_arg4) : S128.Idx → EReal) (ix1 q) := by
  rw [after0_v24]
  exact row_apply _ q

end Cert.KernelIdeal.KerHost

end
-- ==== Proof.KerHost12.lean ====
/-
  The second, third and fourth stretches of host operations, read at an entry.

  Between the regions the program takes segment means of the regions' results: for every ligand the mean over its edges
  of a target array's rows, for every target the mean over its edges of a ligand array's rows. It also lays three more
  biases out as rows. Each result is written as the composition of its operations over whatever the buffers held before
  the stretch, the edge vectors included, and then read at an entry.
-/
import proofs.«151303_j73272142069881_2_alg».proof.Proof.KerHostLib

noncomputable section

namespace Cert.KernelIdeal.KerHost

open Cert.KernelIdeal Cert.KernelIdeal.Gen
open Idealize.ShloMosaic Idealize.ShloMosaic.TcCoe Idealize.ShloMosaic.StableHlo Idealize.SL.Sem
open Idealize.ShloMosaic.ValueIdx
open Cert.Lib.SegMean Cert.Lib.SegmentSum Cert.Lib.GatherRows

variable (W : Valuation τ sig (Elt Ideal))

/-! ## The second stretch -/

theorem after1_v43 :
    (after (hostOps1 (F := Ideal)) W (Proc.devRef .tc main_v43) : S100000x128.Idx → EReal)
      = Host.divf (F := Ideal) (φ := .f32)
          (Host.scatterAdd scatter_S100000x128_S150000x1_S150000x128_1_0_0_1
            (broadcastInDim S100000x128 ![] bcast_S_S100000x128 (constant (F := Ideal) S_ .f32 0x00000000#32))
            (rawCol (W (Proc.devRef .tc main_v1)))
            (Host.gather gather_S4000x128_S150000x1_S150000x128_1_0_n_n_0_1_1128
              (W (Proc.devRef .tc main_v25_2) : S4000x128.Idx → EReal)
              (nrmCol 4000#32 (W (Proc.devRef .tc main_v3)))))
          (broadcastInDim S100000x128 ![0, 1] bcast_S100000x1_S100000x128_0_1
            (maximumf (F := Ideal) (φ := .f32)
              (Host.scatterAdd scatter_S100000x1_S150000x1_S150000x1_1_0_0_1
                (broadcastInDim S100000x1 ![] bcast_S_S100000x1 (constant (F := Ideal) S_ .f32 0x00000000#32))
                (rawCol (W (Proc.devRef .tc main_v1)))
                (broadcastInDim S150000x1 ![] bcast_S_S150000x1 (constant (F := Ideal) S_ .f32 0x3F800000#32)))
              (broadcastInDim S100000x1 ![] bcast_S_S100000x1 (constant (F := Ideal) S_ .f32 0x3F800000#32)))) := by
  show after hostOps1 W (Proc.devRef .tc main_v43) = _
  after_results_simp
  rfl

/-- For every ligand, the mean over its edges of the target array's rows. -/
theorem h1_v43 (n : Fin 100000) (j : Fin 128) :
    (after (hostOps1 (F := Ideal)) W (Proc.devRef .tc main_v43) : S100000x128.Idx → EReal) (ix2 n j)
      = Net.mean (segOf (W (Proc.devRef .tc main_v1) : S150000.Idx → BitVec 32) n.val)
          (fun e => (W (Proc.devRef .tc main_v25_2) : S4000x128.Idx → EReal)
            (ix2 (rowT (W (Proc.devRef .tc main_v3) : S150000.Idx → BitVec 32) e) j)) := by
  rw [after1_v43]
  exact mean_read 4000#32 (by decide)
    gather_S4000x128_S150000x1_S150000x128_1_0_n_n_0_1_1128.wf scatter_S100000x128_S150000x1_S150000x128_1_0_0_1.wf
    scatter_S100000x1_S150000x1_S150000x1_1_0_0_1.wf
    gather_S4000x128_S150000x1_S150000x128_1_0_n_n_0_1_1128 rfl scatter_S100000x128_S150000x1_S150000x128_1_0_0_1 rfl
    scatter_S100000x1_S150000x1_S150000x1_1_0_0_1 rfl
    bcast_S_S100000x128 bcast_S_S100000x1 bcast_S_S150000x1 bcast_S100000x1_S100000x128_0_1
    (W (Proc.devRef .tc main_v25_2)) (W (Proc.devRef .tc main_v3)) (W (Proc.devRef .tc main_v1))
    n j

theorem after1_v44 :
    (after (hostOps1 (F := Ideal)) W (Proc.devRef .tc main_v44) : S1x128.Idx → EReal)
      = shapeCast S1x128 (W (Proc.devRef .tc main_arg7) : S128.Idx → EReal) shapeCasts_S128_S1x128 := by
  show after hostOps1 W (Proc.devRef .tc main_v44) = _
  after_results
  rfl

/-- The second bias as one row. -/
theorem h1_v44 (q : Fin 128) :
    (after (hostOps1 (F := Ideal)) W (Proc.devRef .tc main_v44) : S1x128.Idx → EReal) (ix2 (0 : Fin 1) q)
      = (W (Proc.devRef .tc main_arg7) : S128.Idx → EReal) (ix1 q) := by
  rw [after1_v44]
  exact row_apply _ q

/-! ## The third stretch -/

theorem after2_v63 :
    (after (hostOps2 (F := Ideal)) W (Proc.devRef .tc main_v63) : S4000x128.Idx → EReal)
      = Host.divf (F := Ideal) (φ := .f32)
          (Host.scatterAdd scatter_S4000x128_S150000x1_S150000x128_1_0_0_1
            (broadcastInDim S4000x128 ![] bcast_S_S4000x128 (constant (F := Ideal) S_ .f32 0x00000000#32))
            (rawCol (W (Proc.devRef .tc main_v3)))
            (Host.gather gather_S100000x128_S150000x1_S150000x128_1_0_n_n_0_1_1128
              (W (Proc.devRef .tc main_v45_1) : S100000x128.Idx → EReal)
              (nrmCol 100000#32 (W (Proc.devRef .tc main_v1)))))
          (broadcastInDim S4000x128 ![0, 1] bcast_S4000x1_S4000x128_0_1
            (maximumf (F := Ideal) (φ := .f32)
              (Host.scatterAdd scatter_S4000x1_S150000x1_S150000x1_1_0_0_1
                (broadcastInDim S4000x1 ![] bcast_S_S4000x1 (constant (F := Ideal) S_ .f32 0x00000000#32))
                (rawCol (W (Proc.devRef .tc main_v3)))
                (broadcastInDim S150000x1 ![] bcast_S_S150000x1 (constant (F := Ideal) S_ .f32 0x3F800000#32)))
              (broadcastInDim S4000x1 ![] bcast_S_S4000x1 (constant (F := Ideal) S_ .f32 0x3F800000#32)))) := by
  show after hostOps2 W (Proc.devRef .tc main_v63) = _
  after_results_simp
  rfl

/-- For every target, the mean over its edges of the ligand array's rows. -/
theorem h2_v63 (n : Fin 4000) (j : Fin 128) :
    (after (hostOps2 (F := Ideal)) W (Proc.devRef .tc main_v63) : S4000x128.Idx → EReal) (ix2 n j)
      = Net.mean (segOf (W (Proc.devRef .tc main_v3) : S150000.Idx → BitVec 32) n.val)
          (fun e => (W (Proc.devRef .tc main_v45_1) : S100000x128.Idx → EReal)
            (ix2 (rowL (W (Proc.devRef .tc main_v1) : S150000.Idx → BitVec 32) e) j)) := by
  rw [after2_v63]
  exact mean_read 100000#32 (by decide)
    gather_S100000x128_S150000x1_S150000x128_1_0_n_n_0_1_1128.wf scatter_S4000x128_S150000x1_S150000x128_1_0_0_1.wf
    scatter_S4000x1_S150000x1_S150000x1_1_0_0_1.wf
    gather_S100000x128_S150000x1_S150000x128_1_0_n_n_0_1_1128 rfl scatter_S4000x128_S150000x1_S150000x128_1_0_0_1 rfl
    scatter_S4000x1_S150000x1_S150000x1_1_0_0_1 rfl
    bcast_S_S4000x128 bcast_S_S4000x1 bcast_S_S150000x1 bcast_S4000x1_S4000x128_0_1
    (W (Proc.devRef .tc main_v45_1)) (W (Proc.devRef .tc main_v1)) (W (Proc.devRef .tc main_v3))
    n j

theorem after2_v81 :
    (after (hostOps2 (F := Ideal)) W (Proc.devRef .tc main_v81) : S100000x128.Idx → EReal)
      = Host.divf (F := Ideal) (φ := .f32)
          (Host.scatterAdd scatter_S100000x128_S150000x1_S150000x128_1_0_0_1
            (broadcastInDim S100000x128 ![] bcast_S_S100000x128 (constant (F := Ideal) S_ .f32 0x00000000#32))
            (rawCol (W (Proc.devRef .tc main_v1)))
            (Host.gather gather_S4000x128_S150000x1_S150000x128_1_0_n_n_0_1_1128
              (W (Proc.devRef .tc main_v25_1) : S4000x128.Idx → EReal)
              (nrmCol 4000#32 (W (Proc.devRef .tc main_v3)))))
          (broadcastInDim S100000x128 ![0, 1] bcast_S100000x1_S100000x128_0_1
            (maximumf (F := Ideal) (φ := .f32)
              (Host.scatterAdd scatter_S100000x1_S150000x1_S150000x1_1_0_0_1
                (broadcastInDim S100000x1 ![] bcast_S_S100000x1 (constant (F := Ideal) S_ .f32 0x00000000#32))
                (rawCol (W (Proc.devRef .tc main_v1)))
                (broadcastInDim S150000x1 ![] bcast_S_S150000x1 (constant (F := Ideal) S_ .f32 0x3F800000#32)))
              (broadcastInDim S100000x1 ![] bcast_S_S100000x1 (constant (F := Ideal) S_ .f32 0x3F800000#32)))) := by
  show after hostOps2 W (Proc.devRef .tc main_v81) = _
  after_results_simp
  rfl

/-- For every ligand, the mean over its edges of the target array's rows. -/
theorem h2_v81 (n : Fin 100000) (j : Fin 128) :
    (after (hostOps2 (F := Ideal)) W (Proc.devRef .tc main_v81) : S100000x128.Idx → EReal) (ix2 n j)
      = Net.mean (segOf (W (Proc.devRef .tc main_v1) : S150000.Idx → BitVec 32) n.val)
          (fun e => (W (Proc.devRef .tc main_v25_1) : S4000x128.Idx → EReal)
            (ix2 (rowT (W (Proc.devRef .tc main_v3) : S150000.Idx → BitVec 32) e) j)) := by
  rw [after2_v81]
  exact mean_read 4000#32 (by decide)
    gather_S4000x128_S150000x1_S150000x128_1_0_n_n_0_1_1128.wf scatter_S100000x128_S150000x1_S150000x128_1_0_0_1.wf
    scatter_S100000x1_S150000x1_S150000x1_1_0_0_1.wf
    gather_S4000x128_S150000x1_S150000x128_1_0_n_n_0_1_1128 rfl scatter_S100000x128_S150000x1_S150000x128_1_0_0_1 rfl
    scatter_S100000x1_S150000x1_S150000x1_1_0_0_1 rfl
    bcast_S_S100000x128 bcast_S_S100000x1 bcast_S_S150000x1 bcast_S100000x1_S100000x128_0_1
    (W (Proc.devRef .tc main_v25_1)) (W (Proc.devRef .tc main_v3)) (W (Proc.devRef .tc main_v1))
    n j

theorem after2_v82 :
    (after (hostOps2 (F := Ideal)) W (Proc.devRef .tc main_v82) : S1x128.Idx → EReal)
      = shapeCast S1x128 (W (Proc.devRef .tc main_arg10) : S128.Idx → EReal) shapeCasts_S128_S1x128 := by
  show after hostOps2 W (Proc.devRef .tc main_v82) = _
  after_results
  rfl

/-- The third bias as one row. -/
theorem h2_v82 (q : Fin 128) :
    (after (hostOps2 (F := Ideal)) W (Proc.devRef .tc main_v82) : S1x128.Idx → EReal) (ix2 (0 : Fin 1) q)
      = (W (Proc.devRef .tc main_arg10) : S128.Idx → EReal) (ix1 q) := by
  rw [after2_v82]
  exact row_apply _ q

/-! ## The fourth stretch -/

theorem after3_v84 :
    (after (hostOps3 (F := Ideal)) W (Proc.devRef .tc main_v84) : S1x128.Idx → EReal)
      = shapeCast S1x128 (W (Proc.devRef .tc main_arg13) : S128.Idx → EReal) shapeCasts_S128_S1x128 := by
  show after hostOps3 W (Proc.devRef .tc main_v84) = _
  after_results
  rfl

/-- The fourth bias as one row. -/
theorem h3_v84 (q : Fin 128) :
    (after (hostOps3 (F := Ideal)) W (Proc.devRef .tc main_v84) : S1x128.Idx → EReal) (ix2 (0 : Fin 1) q)
      = (W (Proc.devRef .tc main_arg13) : S128.Idx → EReal) (ix1 q) := by
  rw [after3_v84]
  exact row_apply _ q

end Cert.KernelIdeal.KerHost

end
-- ==== Proof.KerHost4.lean ====
/-
  The last stretch of host operations, read at an entry.

  After the last region every edge is scored: the ligand's score and the target's score are read from two columns at the
  edge's two rows, added, and the score bias is added. Each of the two reads is a gather by pairs (row, column) into an
  array with one column, the column component being a zero; the bias is a vector of one number, reshaped to a scalar
  and spread over the edges.
-/
import proofs.«151303_j73272142069881_2_alg».proof.Proof.KerHostLib

noncomputable section

namespace Cert.KernelIdeal.KerHost

open Cert.KernelIdeal Cert.KernelIdeal.Gen
open Idealize.ShloMosaic Idealize.ShloMosaic.TcCoe Idealize.ShloMosaic.StableHlo Idealize.SL.Sem
open Idealize.ShloMosaic.ValueIdx
open Cert.Lib.SegMean Cert.Lib.SegmentSum Cert.Lib.GatherRows

/-! ## The pieces -/

/-- A column of row numbers with a column of zeros beside it: the (row, column) pairs of a gather of single numbers. -/
def pairCol (c : IVec S150000x1 32) : IVec S150000x2 32 :=
  concatenate S150000x2 1
    [⟨S150000x1, c⟩,
     ⟨S150000x1, broadcastInDim S150000x1 ![0] bcast_S150000_S150000x1_0
        (id (broadcastInDim S150000 ![] bcast_S_S150000 (constantI S_ 32 0#32)))⟩]
    concatenates_S150000x1_S150000x1_S150000x2_d1

/-- The pair's first component is the row number. -/
theorem pairCol_apply (c : IVec S150000x1 32) (e : Fin 150000) :
    pairCol c (ix2 e (0 : Fin 2)) = c (ix2 e (0 : Fin 1)) :=
  concatenate_pair_apply_left 1 c _ concatenates_S150000x1_S150000x1_S150000x2_d1 (ix2 e (0 : Fin 2)) rfl
    (ix2 e (0 : Fin 1)) (fun b => match b with
      | ⟨0, _⟩ => rfl
      | ⟨1, _⟩ => rfl)

/-- THE GATHER BY PAIRS READ AT AN EDGE: the operand at the edge's row and column zero. -/
theorem pair_read {N : Nat} (hN : 0 < N) (NB : BitVec 32)
    (wf : GatherDims.WF ⟨2, ![N, 1]⟩ ⟨2, ![150000, 2]⟩ ⟨1, ![150000]⟩ [] [0, 1] [] [0, 1] [] 1 ![1, 1])
    (D : GatherDims ⟨2, ![N, 1]⟩ ⟨2, ![150000, 2]⟩ ⟨1, ![150000]⟩) (hD : D = pairDims N 150000 wf)
    (x : (⟨2, ![N, 1]⟩ : Shape).Idx → EReal) (v : IVec S150000 32) (e : Fin 150000) :
    Host.gather D x (pairCol (nrmCol NB v)) (ix1 e) = x (ix2 (rowOf N hN NB v e) (0 : Fin 1)) := by
  subst hD
  rw [gather_pair_apply wf hN]
  exact congrArg (fun r => x (ix2 r (0 : Fin 1)))
    (Fin.ext (by show min _ _ = min _ _; rw [pairCol_apply, nrmCol_apply]))

/-- A vector of one number reshaped to a scalar reads that number. -/
theorem scalar_cast_apply (w : S1.Idx → EReal) (j : S_.Idx) :
    shapeCast S_ w shapeCasts_S1_S_ j = w (ix1 (0 : Fin 1)) :=
  shapeCast_apply w shapeCasts_S1_S_ j (ix1 (0 : Fin 1)) (by
    rewrite [Shape.rowMajor_val_one]
    have h : (Shape.rowMajor S_ j).val < 1 := (Shape.rowMajor S_ j).isLt
    show 0 = _
    omega)

/-- Spread over the edges, it is that number at every edge. -/
theorem scalar_apply (w : S1.Idx → EReal) (e : Fin 150000) :
    broadcastInDim S150000 ![] bcast_S_S150000 (shapeCast S_ w shapeCasts_S1_S_) (ix1 e) = w (ix1 (0 : Fin 1)) :=
  scalar_cast_apply w _

variable (W : Valuation τ sig (Elt Ideal))

/-! ## The score -/

theorem after4_v111 :
    (after (hostOps4 (F := Ideal)) W (Proc.devRef .tc main_v111) : S150000.Idx → EReal)
      = addf (F := Ideal) (φ := .f32)
          (addf (F := Ideal) (φ := .f32)
            (Host.gather gather_S100000x1_S150000x2_S150000_n_01_n_n_01_1_11 (W (Proc.devRef .tc main_v85) : S100000x1.Idx → EReal)
              (pairCol (nrmCol 100000#32 (W (Proc.devRef .tc main_v1)))))
            (Host.gather gather_S4000x1_S150000x2_S150000_n_01_n_n_01_1_11 (W (Proc.devRef .tc main_v83) : S4000x1.Idx → EReal)
              (pairCol (nrmCol 4000#32 (W (Proc.devRef .tc main_v3))))))
          (broadcastInDim S150000 ![] bcast_S_S150000
            (shapeCast S_ (W (Proc.devRef .tc main_arg16) : S1.Idx → EReal) shapeCasts_S1_S_)) := by
  show after hostOps4 W (Proc.devRef .tc main_v111) = _
  after_results_simp
  rfl

/-- The score of an edge: its ligand's score plus its target's score, plus the bias. -/
theorem h4_v111 (e : Fin 150000) :
    (after (hostOps4 (F := Ideal)) W (Proc.devRef .tc main_v111) : S150000.Idx → EReal) (ix1 e)
      = @HAdd.hAdd EReal EReal EReal _
          (@HAdd.hAdd EReal EReal EReal _
            ((W (Proc.devRef .tc main_v85) : S100000x1.Idx → EReal)
              (ix2 (rowL (W (Proc.devRef .tc main_v1) : S150000.Idx → BitVec 32) e) (0 : Fin 1)))
            ((W (Proc.devRef .tc main_v83) : S4000x1.Idx → EReal)
              (ix2 (rowT (W (Proc.devRef .tc main_v3) : S150000.Idx → BitVec 32) e) (0 : Fin 1))))
          ((W (Proc.devRef .tc main_arg16) : S1.Idx → EReal) (ix1 (0 : Fin 1))) := by
  rw [after4_v111]
  show @HAdd.hAdd EReal EReal EReal _
      (@HAdd.hAdd EReal EReal EReal _
        (Host.gather gather_S100000x1_S150000x2_S150000_n_01_n_n_01_1_11 (W (Proc.devRef .tc main_v85) : S100000x1.Idx → EReal)
          (pairCol (nrmCol 100000#32 (W (Proc.devRef .tc main_v1)))) (ix1 e))
        (Host.gather gather_S4000x1_S150000x2_S150000_n_01_n_n_01_1_11 (W (Proc.devRef .tc main_v83) : S4000x1.Idx → EReal)
          (pairCol (nrmCol 4000#32 (W (Proc.devRef .tc main_v3)))) (ix1 e)))
      (broadcastInDim S150000 ![] bcast_S_S150000
          (shapeCast S_ (W (Proc.devRef .tc main_arg16) : S1.Idx → EReal) shapeCasts_S1_S_) (ix1 e)) = _
  rw [pair_read (N := 100000) (by decide) 100000#32 gather_S100000x1_S150000x2_S150000_n_01_n_n_01_1_11.wf gather_S100000x1_S150000x2_S150000_n_01_n_n_01_1_11 rfl,
    pair_read (N := 4000) (by decide) 4000#32 gather_S4000x1_S150000x2_S150000_n_01_n_n_01_1_11.wf gather_S4000x1_S150000x2_S150000_n_01_n_n_01_1_11 rfl, scalar_apply]

end Cert.KernelIdeal.KerHost

end
-- ==== Proof.KerValue.lean ====
/-
  The idealized kernel's result is the map-then-aggregate arrangement of the specification.

  Walking the fold of the buffer contents from the launch memory: the first stretch of host operations leaves the mean of
  the neighbouring ligands' features; region 0 turns it into the targets' first-round features h, their product with the
  second round's ligand-side map, and the targets' raw features mapped for the first round's ligand side; the second
  stretch aggregates the last of these over each ligand's edges; region 1 gives the ligands' first-round features and their
  mapped product; the third stretch aggregates the two mapped products over the targets' and the ligands' edges; regions 2
  and 3 give each node's half of the edge score; and the last stretch adds, for each edge, the two halves of its end
  nodes and the score bias. Each step below names one of these arrays by the specification's function of that name.
-/
import proofs.«151303_j73272142069881_2_alg».proof.Proof.KerFold
import proofs.«151303_j73272142069881_2_alg».proof.Proof.KerFnsAt
import proofs.«151303_j73272142069881_2_alg».proof.Proof.KerHost0
import proofs.«151303_j73272142069881_2_alg».proof.Proof.KerHost12
import proofs.«151303_j73272142069881_2_alg».proof.Proof.KerHost4
import proofs.«151303_j73272142069881_2_alg».proof.Proof.NetSpec

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KerFns Cert.KernelIdeal.KerFold Cert.KernelIdeal.KerHost Cert.Net

variable (m : (ℓ : Loc nD τ sig) → Buf (Elt Ideal) ℓ) (ρ : Dev nD → PrngReg)

/-- The graph and the parameters the launch memory describes. -/
abbrev gr (c : Dev nD) : Net.Graph := Net.graphOf (m ((c : Thread nD τ).loc main_arg2))
abbrev pr (c : Dev nD) : Net.Params :=
  Net.paramsOf (m ((c : Thread nD τ).loc main_arg0)) (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) (m ((c : Thread nD τ).loc main_arg15))
    (m ((c : Thread nD τ).loc main_arg16))

/-- The edge scores, as the result buffer's contents. -/
def result (c : Dev nD) : Buf (Elt Ideal) ((c.tc : Thread nD τ).loc main_v111) :=
  fun i => Net.Ker.out (gr m c) (pr m c) ⟨(i 0).val, (i 0).isLt⟩

/-! ## The edge ends, at every boundary that reads them -/

theorem src1 (c : Dev nD) (e : Fin 150000) :
    (W1 m ρ c (Proc.devRef .tc main_v1) : S150000.Idx → BitVec 32) (ix1 e) = ((m ((c : Thread nD τ).loc main_arg2)) : S2x150000.Idx → BitVec 32) (ix2 (0 : Fin 2) e) :=
  h0_v1 (W0 m ρ c) e
theorem dst1 (c : Dev nD) (e : Fin 150000) :
    (W1 m ρ c (Proc.devRef .tc main_v3) : S150000.Idx → BitVec 32) (ix1 e) = ((m ((c : Thread nD τ).loc main_arg2)) : S2x150000.Idx → BitVec 32) (ix2 (1 : Fin 2) e) :=
  h0_v3 (W0 m ρ c) e
theorem src2 (c : Dev nD) (e : Fin 150000) :
    (W2 m ρ c (Proc.devRef .tc main_v1) : S150000.Idx → BitVec 32) (ix1 e) = ((m ((c : Thread nD τ).loc main_arg2)) : S2x150000.Idx → BitVec 32) (ix2 (0 : Fin 2) e) := by
  rw [at2_main_v1]; exact src1 m ρ c e
theorem dst2 (c : Dev nD) (e : Fin 150000) :
    (W2 m ρ c (Proc.devRef .tc main_v3) : S150000.Idx → BitVec 32) (ix1 e) = ((m ((c : Thread nD τ).loc main_arg2)) : S2x150000.Idx → BitVec 32) (ix2 (1 : Fin 2) e) := by
  rw [at2_main_v3]; exact dst1 m ρ c e
theorem src4 (c : Dev nD) (e : Fin 150000) :
    (W4 m ρ c (Proc.devRef .tc main_v1) : S150000.Idx → BitVec 32) (ix1 e) = ((m ((c : Thread nD τ).loc main_arg2)) : S2x150000.Idx → BitVec 32) (ix2 (0 : Fin 2) e) := by
  rw [at4_main_v1]; exact src1 m ρ c e
theorem dst4 (c : Dev nD) (e : Fin 150000) :
    (W4 m ρ c (Proc.devRef .tc main_v3) : S150000.Idx → BitVec 32) (ix1 e) = ((m ((c : Thread nD τ).loc main_arg2)) : S2x150000.Idx → BitVec 32) (ix2 (1 : Fin 2) e) := by
  rw [at4_main_v3]; exact dst1 m ρ c e
theorem src8 (c : Dev nD) (e : Fin 150000) :
    (W8 m ρ c (Proc.devRef .tc main_v1) : S150000.Idx → BitVec 32) (ix1 e) = ((m ((c : Thread nD τ).loc main_arg2)) : S2x150000.Idx → BitVec 32) (ix2 (0 : Fin 2) e) := by
  rw [at8_main_v1]; exact src1 m ρ c e
theorem dst8 (c : Dev nD) (e : Fin 150000) :
    (W8 m ρ c (Proc.devRef .tc main_v3) : S150000.Idx → BitVec 32) (ix1 e) = ((m ((c : Thread nD τ).loc main_arg2)) : S2x150000.Idx → BitVec 32) (ix2 (1 : Fin 2) e) := by
  rw [at8_main_v3]; exact dst1 m ρ c e

/-! ## The first round, target side -/

theorem mt_at (c : Dev nD) (n : Fin 4000) (k : Fin 4) :
    (W1 m ρ c (Proc.devRef .tc main_v21) : S4000x4.Idx → EReal) (ix2 n k) = Net.Ker.mt (gr m c) (pr m c) n k :=
  h0_v21 (W0 m ρ c) n k

theorem bias1 (c : Dev nD) (q : Fin 128) :
    (W1 m ρ c (Proc.devRef .tc main_v24) : S1x128.Idx → EReal) (ix2 (0 : Fin 1) q) = ((m ((c : Thread nD τ).loc main_arg4)) : S128.Idx → EReal) (ix1 q) :=
  h0_v24 (W0 m ρ c) q

theorem HT_at (c : Dev nD) (n : Fin 4000) (j : Fin 128) :
    KerReg0.HT (V1 m ρ) c (ix2 n j) = Net.Ker.ht (gr m c) (pr m c) n j := by
  show arrHT (W1 m ρ c (Proc.devRef .tc main_v21)) (W1 m ρ c (Proc.devRef .tc main_arg1)) (W1 m ρ c (Proc.devRef .tc main_arg3)) (W1 m ρ c (Proc.devRef .tc main_v24))
    (W1 m ρ c (Proc.devRef .tc main_arg5)) (ix2 n j) = _
  rw [at1_main_arg1, at1_main_arg3, at1_main_arg5, arrHT_apply]
  simp only [mt_at m ρ c, bias1 m ρ c]
  rfl

theorem ht_at (c : Dev nD) (n : Fin 4000) (j : Fin 128) :
    (W2 m ρ c (Proc.devRef .tc main_v25_0) : S4000x128.Idx → EReal) (ix2 n j) = Net.Ker.ht (gr m c) (pr m c) n j := by
  rw [out_ht]; exact HT_at m ρ c n j

theorem qt_at (c : Dev nD) (n : Fin 4000) (j : Fin 128) :
    (W2 m ρ c (Proc.devRef .tc main_v25_1) : S4000x128.Idx → EReal) (ix2 n j) = Net.Ker.qt (gr m c) (pr m c) n j := by
  rw [out_qt]
  show arrQT (W1 m ρ c (Proc.devRef .tc main_v21)) (W1 m ρ c (Proc.devRef .tc main_arg1)) (W1 m ρ c (Proc.devRef .tc main_arg3)) (W1 m ρ c (Proc.devRef .tc main_v24))
    (W1 m ρ c (Proc.devRef .tc main_arg5)) (W1 m ρ c (Proc.devRef .tc main_arg12)) (ix2 n j) = _
  rw [arrQT_apply]
  simp only [show ∀ k, arrHT (W1 m ρ c (Proc.devRef .tc main_v21)) (W1 m ρ c (Proc.devRef .tc main_arg1)) (W1 m ρ c (Proc.devRef .tc main_arg3)) (W1 m ρ c (Proc.devRef .tc main_v24))
    (W1 m ρ c (Proc.devRef .tc main_arg5)) (ix2 n k) = Net.Ker.ht (gr m c) (pr m c) n k from fun k => HT_at m ρ c n k]
  rw [at1_main_arg12]
  rfl

theorem pt_at (c : Dev nD) (n : Fin 4000) (j : Fin 128) :
    (W2 m ρ c (Proc.devRef .tc main_v25_2) : S4000x128.Idx → EReal) (ix2 n j) = Net.Ker.pt (pr m c) n j := by
  rw [out_pt]
  show arrPT (W1 m ρ c (Proc.devRef .tc main_arg1)) (W1 m ρ c (Proc.devRef .tc main_arg6)) (ix2 n j) = _
  rw [at1_main_arg1, at1_main_arg6, arrPT_apply]
  rfl

/-! ## The first round, ligand side -/

theorem mlp_at (c : Dev nD) (n : Fin 100000) (j : Fin 128) :
    (W3 m ρ c (Proc.devRef .tc main_v43) : S100000x128.Idx → EReal) (ix2 n j) = Net.Ker.mlp (gr m c) (pr m c) n j := by
  refine (h1_v43 (W2 m ρ c) n j).trans ?_
  rw [segOf_src (src2 m ρ c) n]
  simp only [rowT_dst (dst2 m ρ c), pt_at m ρ c]
  rfl

theorem bias3 (c : Dev nD) (q : Fin 128) :
    (W3 m ρ c (Proc.devRef .tc main_v44) : S1x128.Idx → EReal) (ix2 (0 : Fin 1) q) = ((m ((c : Thread nD τ).loc main_arg7)) : S128.Idx → EReal) (ix1 q) := by
  refine (h1_v44 (W2 m ρ c) q).trans ?_
  rw [at2_main_arg7]

theorem HL_at (c : Dev nD) (n : Fin 100000) (j : Fin 128) :
    KerReg1.HL (V3 m ρ) c (ix2 n j) = Net.Ker.hl (gr m c) (pr m c) n j := by
  show arrHL (W3 m ρ c (Proc.devRef .tc main_v43)) (W3 m ρ c (Proc.devRef .tc main_v44)) (W3 m ρ c (Proc.devRef .tc main_arg0)) (W3 m ρ c (Proc.devRef .tc main_arg8)) (ix2 n j) = _
  rw [at3_main_arg0, at3_main_arg8, arrHL_apply]
  simp only [mlp_at m ρ c, bias3 m ρ c]
  rfl

theorem hl_at (c : Dev nD) (n : Fin 100000) (j : Fin 128) :
    (W4 m ρ c (Proc.devRef .tc main_v45_0) : S100000x128.Idx → EReal) (ix2 n j) = Net.Ker.hl (gr m c) (pr m c) n j := by
  rw [out_hl]; exact HL_at m ρ c n j

theorem ql_at (c : Dev nD) (n : Fin 100000) (j : Fin 128) :
    (W4 m ρ c (Proc.devRef .tc main_v45_1) : S100000x128.Idx → EReal) (ix2 n j) = Net.Ker.ql (gr m c) (pr m c) n j := by
  rw [out_ql]
  show arrQL (W3 m ρ c (Proc.devRef .tc main_v43)) (W3 m ρ c (Proc.devRef .tc main_v44)) (W3 m ρ c (Proc.devRef .tc main_arg0)) (W3 m ρ c (Proc.devRef .tc main_arg8))
    (W3 m ρ c (Proc.devRef .tc main_arg9)) (ix2 n j) = _
  rw [arrQL_apply]
  simp only [show ∀ k, arrHL (W3 m ρ c (Proc.devRef .tc main_v43)) (W3 m ρ c (Proc.devRef .tc main_v44)) (W3 m ρ c (Proc.devRef .tc main_arg0)) (W3 m ρ c (Proc.devRef .tc main_arg8)) (ix2 n k)
    = Net.Ker.hl (gr m c) (pr m c) n k from fun k => HL_at m ρ c n k]
  rw [at3_main_arg9]
  rfl

/-! ## The second round's aggregates -/

theorem mqt2_at (c : Dev nD) (n : Fin 4000) (j : Fin 128) :
    (W5 m ρ c (Proc.devRef .tc main_v63) : S4000x128.Idx → EReal) (ix2 n j) = Net.Ker.mqt2 (gr m c) (pr m c) n j := by
  refine (h2_v63 (W4 m ρ c) n j).trans ?_
  rw [segOf_dst (dst4 m ρ c) n]
  simp only [rowL_src (src4 m ρ c), ql_at m ρ c]
  rfl

theorem mql2_at (c : Dev nD) (n : Fin 100000) (j : Fin 128) :
    (W5 m ρ c (Proc.devRef .tc main_v81) : S100000x128.Idx → EReal) (ix2 n j) = Net.Ker.mql2 (gr m c) (pr m c) n j := by
  refine (h2_v81 (W4 m ρ c) n j).trans ?_
  rw [segOf_src (src4 m ρ c) n, at4_main_v25_1]
  simp only [rowT_dst (dst4 m ρ c), qt_at m ρ c]
  rfl

theorem bias5 (c : Dev nD) (q : Fin 128) :
    (W5 m ρ c (Proc.devRef .tc main_v82) : S1x128.Idx → EReal) (ix2 (0 : Fin 1) q) = ((m ((c : Thread nD τ).loc main_arg10)) : S128.Idx → EReal) (ix1 q) := by
  refine (h2_v82 (W4 m ρ c) q).trans ?_
  rw [at4_main_arg10]

theorem bias7 (c : Dev nD) (q : Fin 128) :
    (W7 m ρ c (Proc.devRef .tc main_v84) : S1x128.Idx → EReal) (ix2 (0 : Fin 1) q) = ((m ((c : Thread nD τ).loc main_arg13)) : S128.Idx → EReal) (ix1 q) := by
  refine (h3_v84 (W6 m ρ c) q).trans ?_
  rw [at6_main_arg13]

/-- The score weights' two halves. -/
theorem wpT (c : Dev nD) (k : Fin 128) :
    (W5 m ρ c (Proc.devRef .tc main_v23) : S128x1.Idx → EReal) (ix2 k (0 : Fin 1)) = ((m ((c : Thread nD τ).loc main_arg15)) : S256x1.Idx → EReal) (ix2 ⟨128 + k.val, by omega⟩ (0 : Fin 1)) := by
  rw [at5_main_v23]; exact h0_v23 (W0 m ρ c) k
theorem wpL (c : Dev nD) (k : Fin 128) :
    (W7 m ρ c (Proc.devRef .tc main_v22) : S128x1.Idx → EReal) (ix2 k (0 : Fin 1)) = ((m ((c : Thread nD τ).loc main_arg15)) : S256x1.Idx → EReal) (ix2 ⟨k.val, by omega⟩ (0 : Fin 1)) := by
  rw [at7_main_v22]; exact h0_v22 (W0 m ρ c) k

/-! ## Each node's half of the edge score -/

theorem pt2_at (c : Dev nD) (n : Fin 4000) :
    (W6 m ρ c (Proc.devRef .tc main_v83) : S4000x1.Idx → EReal) (ix2 n (0 : Fin 1)) = Net.Ker.pt2 (gr m c) (pr m c) n := by
  rw [out_pt2]
  show arrPT2 (W5 m ρ c (Proc.devRef .tc main_v63)) (W5 m ρ c (Proc.devRef .tc main_v82)) (W5 m ρ c (Proc.devRef .tc main_v25_0)) (W5 m ρ c (Proc.devRef .tc main_arg11))
    (W5 m ρ c (Proc.devRef .tc main_v23)) (ix2 n (0 : Fin 1)) = _
  rw [at5_main_v25_0, at5_main_arg11, arrPT2_apply]
  simp only [mqt2_at m ρ c, ht_at m ρ c, bias5 m ρ c, wpT m ρ c]
  rfl

theorem pl2_at (c : Dev nD) (n : Fin 100000) :
    (W8 m ρ c (Proc.devRef .tc main_v85) : S100000x1.Idx → EReal) (ix2 n (0 : Fin 1)) = Net.Ker.pl2 (gr m c) (pr m c) n := by
  rw [out_pl2]
  show arrPL2 (W7 m ρ c (Proc.devRef .tc main_v81)) (W7 m ρ c (Proc.devRef .tc main_v84)) (W7 m ρ c (Proc.devRef .tc main_v45_0)) (W7 m ρ c (Proc.devRef .tc main_arg14))
    (W7 m ρ c (Proc.devRef .tc main_v22)) (ix2 n (0 : Fin 1)) = _
  rw [at7_main_v81, at7_main_v45_0, at7_main_arg14, arrPL2_apply]
  simp only [mql2_at m ρ c, hl_at m ρ c, bias7 m ρ c, wpL m ρ c]
  rfl

/-! ## The edge scores -/

theorem out_at (c : Dev nD) (e : Fin 150000) :
    (W9 m ρ c (Proc.devRef .tc main_v111) : S150000.Idx → EReal) (ix1 e) = Net.Ker.out (gr m c) (pr m c) e := by
  refine (h4_v111 (W8 m ρ c) e).trans ?_
  rw [rowL_src (src8 m ρ c) e, rowT_dst (dst8 m ρ c) e, pl2_at, at8_main_v83, pt2_at, at8_main_arg16]
  rfl

/-- The result buffer's last contents are the specification's edge scores. -/
theorem value (c : Dev nD) : W9 m ρ c (Proc.devRef .tc main_v111) = result m c := by
  funext i
  obtain ⟨e, rfl⟩ : ∃ e : Fin 150000, i = ix1 e := ⟨⟨(i 0).val, (i 0).isLt⟩, eq_ix1 i⟩
  exact out_at m ρ c e

end Cert.KernelIdeal.KerValue

end
-- ==== Proof.RefIdx.lean ====
/-
  The integer arrays of the reference: which row each edge reads and which row it is added into.

  The edge array has two rows of 150000 entries: row 0 holds each edge's ligand end and row 1 its target end. The
  reference slices out a row, and for a gather first adds the row count to a negative entry; for a segment sum it
  uses the row as it is. Each use turns the row into a column of shape [150000, 1]. Read at (e, 0), the gather
  columns are the normalised entry of row 0 (against 100000) or of row 1 (against 4000), and the scatter columns are
  the raw entry of row 1 or of row 0. The program spells each column several times; the later spellings are the same
  terms as the first, so they are equal to it outright.
-/
import proofs.«151303_j73272142069881_2_alg».proof.Proof.Gen.ReferenceIdeal.Read
import proofs.«151303_j73272142069881_2_alg».proof.Proof.NetSpec

noncomputable section

namespace Cert.RefValue

open Cert.ReferenceIdeal Cert.ReferenceIdeal.Read Idealize.ShloMosaic Idealize.ShloMosaic.ValueIdx Cert.Net

variable (x2 : (⟨S2x150000, .i32⟩ : BufTy).Contents (Elt Ideal))

/-- Row 0 of the edge array, flattened, at e. -/
theorem v1_at (e : Fin 150000) : val_main_v1 (F := Ideal) x2 (ix1 e) = x2 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- Row 1 of the edge array, flattened, at e. -/
theorem v3_at (e : Fin 150000) : val_main_v3 (F := Ideal) x2 (ix1 e) = x2 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- The column index (e, 0) read back as the flat index e. -/
theorem col_idx (e : Fin 150000) : idx_main_v9 (ix2 e (0 : Fin 1)) = ix1 e := by
  funext a; match a with | ⟨0, _⟩ => rfl

/-- The ligand gather column at (e, 0): the normalised entry of row 0. -/
theorem v9_at (e : Fin 150000) :
    val_main_v9 (F := Ideal) x2 (ix2 e (0 : Fin 1)) = nrm 100000#32 (x2 (ix2 (0 : Fin 2) e)) := by
  rw [val_main_v9_apply, col_idx, val_main_v8_apply, val_main_v5_apply, val_main_v7_apply, val_main_v4_apply,
    val_main_v6_apply, val_main_c_apply, val_main_c_0_apply, v1_at]
  rfl

/-- The target gather column at (e, 0): the normalised entry of row 1. -/
theorem v33_at (e : Fin 150000) :
    val_main_v33 (F := Ideal) x2 (ix2 e (0 : Fin 1)) = nrm 4000#32 (x2 (ix2 (1 : Fin 2) e)) := by
  rw [val_main_v33_apply, show idx_main_v33 (ix2 e (0 : Fin 1)) = ix1 e from col_idx e, val_main_v32_apply,
    val_main_v29_apply, val_main_v31_apply, val_main_v28_apply, val_main_v30_apply, val_main_c_4_apply,
    val_main_c_5_apply, v3_at]
  rfl

/-- The target scatter column at (e, 0): the raw entry of row 1. -/
theorem v12_at (e : Fin 150000) : val_main_v12 (F := Ideal) x2 (ix2 e (0 : Fin 1)) = x2 (ix2 (1 : Fin 2) e) := by
  rw [val_main_v12_apply, show idx_main_v12 (ix2 e (0 : Fin 1)) = ix1 e from col_idx e, v3_at]

/-- The ligand scatter column at (e, 0): the raw entry of row 0. -/
theorem v36_at (e : Fin 150000) : val_main_v36 (F := Ideal) x2 (ix2 e (0 : Fin 1)) = x2 (ix2 (0 : Fin 2) e) := by
  rw [val_main_v36_apply, show idx_main_v36 (ix2 e (0 : Fin 1)) = ix1 e from col_idx e, v1_at]

/-! The later spellings of the four columns are the first ones. -/

theorem v59_eq : val_main_v59 (F := Ideal) x2 = val_main_v9 (F := Ideal) x2 := rfl
theorem v109_eq : val_main_v109 (F := Ideal) x2 = val_main_v9 (F := Ideal) x2 := rfl
theorem v84_eq : val_main_v84 (F := Ideal) x2 = val_main_v33 (F := Ideal) x2 := rfl
theorem v116_eq : val_main_v116 (F := Ideal) x2 = val_main_v33 (F := Ideal) x2 := rfl
theorem v16_eq : val_main_v16 (F := Ideal) x2 = val_main_v12 (F := Ideal) x2 := rfl
theorem v62_eq : val_main_v62 (F := Ideal) x2 = val_main_v12 (F := Ideal) x2 := rfl
theorem v66_eq : val_main_v66 (F := Ideal) x2 = val_main_v12 (F := Ideal) x2 := rfl
theorem v40_eq : val_main_v40 (F := Ideal) x2 = val_main_v36 (F := Ideal) x2 := rfl
theorem v87_eq : val_main_v87 (F := Ideal) x2 = val_main_v36 (F := Ideal) x2 := rfl
theorem v91_eq : val_main_v91 (F := Ideal) x2 = val_main_v36 (F := Ideal) x2 := rfl

/-! So the rows read and the segments added into are the graph's. -/

/-- The clamped ligand row of edge e is the graph's. -/
theorem rowL_eq (e : Fin 150000) :
    (⟨min (val_main_v9 (F := Ideal) x2 (ix2 e (0 : Fin 1))).toInt.toNat (100000 - 1),
      Nat.lt_of_le_of_lt (Nat.min_le_right _ _) (by decide)⟩ : Fin 100000) = (graphOf x2).rowL e := by
  refine Fin.ext ?_
  show min _ _ = min _ _
  rw [v9_at]

/-- The clamped target row of edge e is the graph's. -/
theorem rowT_eq (e : Fin 150000) :
    (⟨min (val_main_v33 (F := Ideal) x2 (ix2 e (0 : Fin 1))).toInt.toNat (4000 - 1),
      Nat.lt_of_le_of_lt (Nat.min_le_right _ _) (by decide)⟩ : Fin 4000) = (graphOf x2).rowT e := by
  refine Fin.ext ?_
  show min _ _ = min _ _
  rw [v33_at]

/-- The edges added into target row n are the graph's segment. -/
theorem segT_eq (n : Fin 4000) :
    (Finset.univ.filter fun e : Fin 150000 =>
      (val_main_v12 (F := Ideal) x2 (ix2 e (0 : Fin 1))).toInt = (n.val : Int)) = (graphOf x2).segT n :=
  Finset.filter_congr fun e _ => by rw [v12_at]

/-- The edges added into ligand row n are the graph's segment. -/
theorem segL_eq (n : Fin 100000) :
    (Finset.univ.filter fun e : Fin 150000 =>
      (val_main_v36 (F := Ideal) x2 (ix2 e (0 : Fin 1))).toInt = (n.val : Int)) = (graphOf x2).segL n :=
  Finset.filter_congr fun e _ => by rw [v36_at]

end Cert.RefValue

end
-- ==== Proof.RefLayers.lean ====
/-
  The layers of the reference, read at an entry.

  Each of the four aggregations of the reference is a segment mean of gathered rows, and each dense layer is a matrix
  product of the aggregated rows, a bias spread along the rows, a matrix product of the node's own rows, and a
  maximum against zero. Read at one entry, an aggregation is the mean over the graph's segment of the entries at the
  graph's rows, and a dense layer is the two inner products, the bias entry and the maximum: the quantities the
  specification names mt, ht, ml, hl (first round) and mt2, ht2, ml2, hl2 (second round).
-/
import proofs.«151303_j73272142069881_2_alg».proof.Proof.RefIdx
import proofs.«151303_j73272142069881_2_alg».proof.Proof.LibSegMean
import Idealize.ShloMosaic.Lib.IdealHost

noncomputable section

namespace Cert.RefValue

open Cert.ReferenceIdeal Cert.ReferenceIdeal.Read Idealize.ShloMosaic Idealize.ShloMosaic.ValueIdx Cert.Net
  Cert.Lib.SegMean

/-- The f32 word of zero is zero, as the programs' literals spell it. -/
theorem zero_lit : FloatOps.ofBits (F := Ideal) .f32 0x00000000#32 = 0 := Ideal.ofBits_zero_f32
/-- The f32 word 0x3F800000 is one. -/
theorem one_lit : FloatOps.ofBits (F := Ideal) .f32 0x3F800000#32 = 1 := Ideal.ofBits_one_f32

/-- A mean over a segment whose summands agree with the specification's is the specification's mean. -/
theorem mean_close (S : Finset (Fin NE)) (f g : Fin NE → EReal) (h : ∀ e, f e = g e) :
    Ideal.div (∑ e ∈ S, f e) (max (∑ _e ∈ S, (1 : EReal)) 1) = mean S g := by
  unfold mean
  congr 1
  exact Finset.sum_congr rfl fun e _ => h e

variable (x0 : (⟨S100000x4, .f32⟩ : BufTy).Contents (Elt Ideal)) (x1 : (⟨S4000x1280, .f32⟩ : BufTy).Contents (Elt Ideal))
  (x2 : (⟨S2x150000, .i32⟩ : BufTy).Contents (Elt Ideal)) (x3 : (⟨S4x128, .f32⟩ : BufTy).Contents (Elt Ideal))
  (x4 : (⟨S128, .f32⟩ : BufTy).Contents (Elt Ideal)) (x5 x6 : (⟨S1280x128, .f32⟩ : BufTy).Contents (Elt Ideal))
  (x7 : (⟨S128, .f32⟩ : BufTy).Contents (Elt Ideal)) (x8 : (⟨S4x128, .f32⟩ : BufTy).Contents (Elt Ideal))
  (x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S256x1, .f32⟩ : BufTy).Contents (Elt Ideal))
  (x16 : (⟨S1, .f32⟩ : BufTy).Contents (Elt Ideal))

local notation "G" => graphOf x2
local notation "P" => paramsOf x0 x1 x3 x4 x5 x6 x7 x8 x9 x10 x11 x12 x13 x14 x15 x16

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-! ## First round, target side -/

theorem v11_zero (i : S4000x4.Idx) : val_main_v11 (F := Ideal) i = 0 := by
  rw [val_main_v11_apply, val_main_cst_apply]; exact zero_lit
theorem v15_zero (i : S4000x1.Idx) : val_main_v15 (F := Ideal) i = 0 := by
  rw [val_main_v15_apply, val_main_cst_2_apply]; exact zero_lit
theorem v14_one (i : S150000x1.Idx) : val_main_v14 (F := Ideal) i = 1 := by
  rw [val_main_v14_apply, val_main_cst_1_apply]; exact one_lit
theorem v18_one (i : S4000x1.Idx) : val_main_v18 (F := Ideal) i = 1 := by
  rw [val_main_v18_apply, val_main_cst_3_apply]; exact one_lit

/-- The first aggregation at (n, k): the mean over target n's edges of the ligand features. -/
theorem mt_at (n : Fin 4000) (k : Fin 4) : val_main_v21 (F := Ideal) x0 x2 (ix2 n k) = Ref.mt G P n k := by
  have hden : val_main_v20 (F := Ideal) x2 (ix2 n k)
      = maximumf (F := Ideal) (φ := .f32) (Host.scatterAdd (F := Ideal) (φ := .f32)
          scatter_S4000x1_S150000x1_S150000x1_1_0_0_1 (val_main_v15 (F := Ideal))
          (val_main_v16 (F := Ideal) x2) (val_main_v14 (F := Ideal))) (val_main_v18 (F := Ideal)) (ix2 n (0 : Fin 1)) := by
    rw [val_main_v20_apply]
    show val_main_v19 (F := Ideal) x2 _ = val_main_v19 (F := Ideal) x2 _
    congr 1
    funext a; match a with | ⟨0, _⟩ => rfl | ⟨1, _⟩ => rfl
  refine (seg_mean_apply (φ := .f32) (M := 100000) (N := 4000) (E := 150000) (C := 4)
    gather_S100000x4_S150000x1_S150000x4_1_0_n_n_0_1_14.wf scatter_S4000x4_S150000x1_S150000x4_1_0_0_1.wf
    scatter_S4000x1_S150000x1_S150000x1_1_0_0_1.wf gather_S100000x4_S150000x1_S150000x4_1_0_n_n_0_1_14 rfl
    scatter_S4000x4_S150000x1_S150000x4_1_0_0_1 rfl scatter_S4000x1_S150000x1_S150000x1_1_0_0_1 rfl (by omega)
    (val_main_v11 (F := Ideal)) v11_zero (val_main_v15 (F := Ideal)) v15_zero (val_main_v14 (F := Ideal)) v14_one
    (val_main_v18 (F := Ideal)) v18_one x0 (val_main_v9 (F := Ideal) x2) (val_main_v12 (F := Ideal) x2)
    (val_main_v16 (F := Ideal) x2) (v16_eq x2) (val_main_v20 (F := Ideal) x2) n k hden).trans ?_
  rw [show seg (val_main_v12 (F := Ideal) x2) n = (graphOf x2).segT n from segT_eq x2 n]
  exact mean_close _ _ _ fun e => congrArg (fun r => x0 (ix2 r k)) (rowL_eq x2 e)

/-- The first target layer at (n, j). -/
theorem ht_at (n : Fin 4000) (j : Fin 128) :
    val_main_v52 (F := Ideal) x0 x1 x2 x3 x4 x5 (ix2 n j) = Ref.ht G P n j := by
  rw [val_main_v52_apply, val_main_v27_apply, val_main_v25_apply, val_main_v22_apply, val_main_v26_apply,
    val_main_v24_apply, val_main_v23_apply, val_main_call0_v0_apply, val_main_call0_cst_apply, zero_lit]
  have h1 : ∀ k : Fin 4, lidx_main_v22 (ix2 n j) k = ix2 n k := fun k => by idx2
  have h2 : ∀ k : Fin 4, ridx_main_v22 (ix2 n j) k = ix2 k j := fun k => by idx2
  have h3 : ∀ k : Fin 1280, lidx_main_v26 (ix2 n j) k = ix2 n k := fun k => by idx2
  have h4 : ∀ k : Fin 1280, ridx_main_v26 (ix2 n j) k = ix2 k j := fun k => by idx2
  have h5 : idx_main_v23 (idx_main_v24 (ix2 n j)) = ix1 j := by idx1
  refine congrArg₂ max (congrArg₂ (· + ·) (congrArg₂ (· + ·) ?_ ?_) ?_) rfl
  · exact Finset.sum_congr rfl fun k _ => by
      rw [h1 k, h2 k, mt_at x0 x1 x2 x3 x4 x5 x6 x7 x8 x9 x10 x11 x12 x13 x14 x15 x16]; rfl
  · rw [h5]; rfl
  · exact Finset.sum_congr rfl fun k _ => by rw [h3 k, h4 k]; rfl

/-! ## First round, ligand side -/

theorem v35_zero (i : S100000x1280.Idx) : val_main_v35 (F := Ideal) i = 0 := by
  rw [val_main_v35_apply, val_main_cst_6_apply]; exact zero_lit
theorem v39_zero (i : S100000x1.Idx) : val_main_v39 (F := Ideal) i = 0 := by
  rw [val_main_v39_apply, val_main_cst_8_apply]; exact zero_lit
theorem v38_one (i : S150000x1.Idx) : val_main_v38 (F := Ideal) i = 1 := by
  rw [val_main_v38_apply, val_main_cst_7_apply]; exact one_lit
theorem v42_one (i : S100000x1.Idx) : val_main_v42 (F := Ideal) i = 1 := by
  rw [val_main_v42_apply, val_main_cst_9_apply]; exact one_lit

/-- The second aggregation at (n, k): the mean over ligand n's edges of the target features. -/
theorem ml_at (n : Fin 100000) (k : Fin 1280) : val_main_v45 (F := Ideal) x1 x2 (ix2 n k) = Ref.ml G P n k := by
  have hden : val_main_v44 (F := Ideal) x2 (ix2 n k)
      = maximumf (F := Ideal) (φ := .f32) (Host.scatterAdd (F := Ideal) (φ := .f32)
          scatter_S100000x1_S150000x1_S150000x1_1_0_0_1 (val_main_v39 (F := Ideal))
          (val_main_v40 (F := Ideal) x2) (val_main_v38 (F := Ideal))) (val_main_v42 (F := Ideal)) (ix2 n (0 : Fin 1)) := by
    rw [val_main_v44_apply]
    show val_main_v43 (F := Ideal) x2 _ = val_main_v43 (F := Ideal) x2 _
    congr 1
    idx2
  refine (seg_mean_apply (φ := .f32) (M := 4000) (N := 100000) (E := 150000) (C := 1280)
    gather_S4000x1280_S150000x1_S150000x1280_1_0_n_n_0_1_11280.wf scatter_S100000x1280_S150000x1_S150000x1280_1_0_0_1.wf
    scatter_S100000x1_S150000x1_S150000x1_1_0_0_1.wf gather_S4000x1280_S150000x1_S150000x1280_1_0_n_n_0_1_11280 rfl
    scatter_S100000x1280_S150000x1_S150000x1280_1_0_0_1 rfl scatter_S100000x1_S150000x1_S150000x1_1_0_0_1 rfl (by omega)
    (val_main_v35 (F := Ideal)) v35_zero (val_main_v39 (F := Ideal)) v39_zero (val_main_v38 (F := Ideal)) v38_one
    (val_main_v42 (F := Ideal)) v42_one (x1) (val_main_v33 (F := Ideal) x2) (val_main_v36 (F := Ideal) x2)
    (val_main_v40 (F := Ideal) x2) rfl (val_main_v44 (F := Ideal) x2) n k hden).trans ?_
  rw [show seg (val_main_v36 (F := Ideal) x2) n = (graphOf x2).segL n from segL_eq x2 n]
  exact mean_close _ _ _ fun e => congrArg (fun r => x1 (ix2 r k)) (rowT_eq x2 e)

/-- The first ligand layer at (n, j). -/
theorem hl_at (n : Fin 100000) (j : Fin 128) :
    val_main_v53 (F := Ideal) x0 x1 x2 x6 x7 x8 (ix2 n j) = Ref.hl G P n j := by
  rw [val_main_v53_apply, val_main_v51_apply, val_main_v49_apply, val_main_v46_apply, val_main_v50_apply,
    val_main_v48_apply, val_main_v47_apply, val_main_call1_v0_apply, val_main_call1_cst_apply, zero_lit]
  have h1 : ∀ k : Fin 1280, lidx_main_v46 (ix2 n j) k = ix2 n k := fun k => by idx2
  have h2 : ∀ k : Fin 1280, ridx_main_v46 (ix2 n j) k = ix2 k j := fun k => by idx2
  have h3 : ∀ k : Fin 4, lidx_main_v50 (ix2 n j) k = ix2 n k := fun k => by idx2
  have h4 : ∀ k : Fin 4, ridx_main_v50 (ix2 n j) k = ix2 k j := fun k => by idx2
  have h5 : idx_main_v47 (idx_main_v48 (ix2 n j)) = ix1 j := by idx1
  refine congrArg₂ max (congrArg₂ (· + ·) (congrArg₂ (· + ·) ?_ ?_) ?_) rfl
  · exact Finset.sum_congr rfl fun k _ => by
      rw [h1 k, h2 k, ml_at x0 x1 x2 x3 x4 x5 x6 x7 x8 x9 x10 x11 x12 x13 x14 x15 x16]; rfl
  · rw [h5]; rfl
  · exact Finset.sum_congr rfl fun k _ => by rw [h3 k, h4 k]; rfl

/-! ## Second round, target side -/

theorem v61_zero (i : S4000x128.Idx) : val_main_v61 (F := Ideal) i = 0 := by
  rw [val_main_v61_apply, val_main_cst_12_apply]; exact zero_lit
theorem v65_zero (i : S4000x1.Idx) : val_main_v65 (F := Ideal) i = 0 := by
  rw [val_main_v65_apply, val_main_cst_14_apply]; exact zero_lit
theorem v64_one (i : S150000x1.Idx) : val_main_v64 (F := Ideal) i = 1 := by
  rw [val_main_v64_apply, val_main_cst_13_apply]; exact one_lit
theorem v68_one (i : S4000x1.Idx) : val_main_v68 (F := Ideal) i = 1 := by
  rw [val_main_v68_apply, val_main_cst_15_apply]; exact one_lit

/-- The third aggregation at (n, k): the mean over target n's edges of the ligands' first-round features. -/
theorem mt2_at (n : Fin 4000) (k : Fin 128) : val_main_v71 (F := Ideal) x0 x1 x2 x6 x7 x8 (ix2 n k) = Ref.mt2 G P n k := by
  have hden : val_main_v70 (F := Ideal) x2 (ix2 n k)
      = maximumf (F := Ideal) (φ := .f32) (Host.scatterAdd (F := Ideal) (φ := .f32)
          scatter_S4000x1_S150000x1_S150000x1_1_0_0_1 (val_main_v65 (F := Ideal))
          (val_main_v66 (F := Ideal) x2) (val_main_v64 (F := Ideal))) (val_main_v68 (F := Ideal)) (ix2 n (0 : Fin 1)) := by
    rw [val_main_v70_apply]
    show val_main_v69 (F := Ideal) x2 _ = val_main_v69 (F := Ideal) x2 _
    congr 1
    idx2
  refine (seg_mean_apply (φ := .f32) (M := 100000) (N := 4000) (E := 150000) (C := 128)
    gather_S100000x128_S150000x1_S150000x128_1_0_n_n_0_1_1128.wf scatter_S4000x128_S150000x1_S150000x128_1_0_0_1.wf
    scatter_S4000x1_S150000x1_S150000x1_1_0_0_1.wf gather_S100000x128_S150000x1_S150000x128_1_0_n_n_0_1_1128 rfl
    scatter_S4000x128_S150000x1_S150000x128_1_0_0_1 rfl scatter_S4000x1_S150000x1_S150000x1_1_0_0_1 rfl (by omega)
    (val_main_v61 (F := Ideal)) v61_zero (val_main_v65 (F := Ideal)) v65_zero (val_main_v64 (F := Ideal)) v64_one
    (val_main_v68 (F := Ideal)) v68_one (val_main_v53 (F := Ideal) x0 x1 x2 x6 x7 x8) (val_main_v59 (F := Ideal) x2) (val_main_v62 (F := Ideal) x2)
    (val_main_v66 (F := Ideal) x2) rfl (val_main_v70 (F := Ideal) x2) n k hden).trans ?_
  rw [show seg (val_main_v62 (F := Ideal) x2) n = (graphOf x2).segT n from segT_eq x2 n]
  exact mean_close _ _ _ fun e => (congrArg (fun r => val_main_v53 (F := Ideal) x0 x1 x2 x6 x7 x8 (ix2 r k)) (rowL_eq x2 e)).trans
    (hl_at x0 x1 x2 x3 x4 x5 x6 x7 x8 x9 x10 x11 x12 x13 x14 x15 x16 ((graphOf x2).rowL e) k)

/-- The second target layer at (n, j). -/
theorem ht2_at (n : Fin 4000) (j : Fin 128) :
    val_main_v78 (F := Ideal) x0 x1 x2 x3 x4 x5 x6 x7 x8 x9 x10 x11 (ix2 n j) = Ref.ht2 G P n j := by
  rw [val_main_v78_apply, val_main_v77_apply, val_main_v75_apply, val_main_v72_apply, val_main_v76_apply,
    val_main_v74_apply, val_main_v73_apply, val_main_call2_v0_apply, val_main_call2_cst_apply, zero_lit]
  have h1 : ∀ k : Fin 128, lidx_main_v72 (ix2 n j) k = ix2 n k := fun k => by idx2
  have h2 : ∀ k : Fin 128, ridx_main_v72 (ix2 n j) k = ix2 k j := fun k => by idx2
  have h3 : ∀ k : Fin 128, lidx_main_v76 (ix2 n j) k = ix2 n k := fun k => by idx2
  have h4 : ∀ k : Fin 128, ridx_main_v76 (ix2 n j) k = ix2 k j := fun k => by idx2
  have h5 : idx_main_v73 (idx_main_v74 (ix2 n j)) = ix1 j := by idx1
  refine congrArg₂ max (congrArg₂ (· + ·) (congrArg₂ (· + ·) ?_ ?_) ?_) rfl
  · exact Finset.sum_congr rfl fun k _ => by
      rw [h1 k, h2 k, mt2_at x0 x1 x2 x3 x4 x5 x6 x7 x8 x9 x10 x11 x12 x13 x14 x15 x16]; rfl
  · rw [h5]; rfl
  · exact Finset.sum_congr rfl fun k _ => by rw [h3 k, h4 k, ht_at x0 x1 x2 x3 x4 x5 x6 x7 x8 x9 x10 x11 x12 x13 x14 x15 x16]; rfl

/-! ## Second round, ligand side -/

theorem v86_zero (i : S100000x128.Idx) : val_main_v86 (F := Ideal) i = 0 := by
  rw [val_main_v86_apply, val_main_cst_18_apply]; exact zero_lit
theorem v90_zero (i : S100000x1.Idx) : val_main_v90 (F := Ideal) i = 0 := by
  rw [val_main_v90_apply, val_main_cst_20_apply]; exact zero_lit
theorem v89_one (i : S150000x1.Idx) : val_main_v89 (F := Ideal) i = 1 := by
  rw [val_main_v89_apply, val_main_cst_19_apply]; exact one_lit
theorem v93_one (i : S100000x1.Idx) : val_main_v93 (F := Ideal) i = 1 := by
  rw [val_main_v93_apply, val_main_cst_21_apply]; exact one_lit

/-- The fourth aggregation at (n, k): the mean over ligand n's edges of the targets' first-round features. -/
theorem ml2_at (n : Fin 100000) (k : Fin 128) : val_main_v96 (F := Ideal) x0 x1 x2 x3 x4 x5 (ix2 n k) = Ref.ml2 G P n k := by
  have hden : val_main_v95 (F := Ideal) x2 (ix2 n k)
      = maximumf (F := Ideal) (φ := .f32) (Host.scatterAdd (F := Ideal) (φ := .f32)
          scatter_S100000x1_S150000x1_S150000x1_1_0_0_1 (val_main_v90 (F := Ideal))
          (val_main_v91 (F := Ideal) x2) (val_main_v89 (F := Ideal))) (val_main_v93 (F := Ideal)) (ix2 n (0 : Fin 1)) := by
    rw [val_main_v95_apply]
    show val_main_v94 (F := Ideal) x2 _ = val_main_v94 (F := Ideal) x2 _
    congr 1
    idx2
  refine (seg_mean_apply (φ := .f32) (M := 4000) (N := 100000) (E := 150000) (C := 128)
    gather_S4000x128_S150000x1_S150000x128_1_0_n_n_0_1_1128.wf scatter_S100000x128_S150000x1_S150000x128_1_0_0_1.wf
    scatter_S100000x1_S150000x1_S150000x1_1_0_0_1.wf gather_S4000x128_S150000x1_S150000x128_1_0_n_n_0_1_1128 rfl
    scatter_S100000x128_S150000x1_S150000x128_1_0_0_1 rfl scatter_S100000x1_S150000x1_S150000x1_1_0_0_1 rfl (by omega)
    (val_main_v86 (F := Ideal)) v86_zero (val_main_v90 (F := Ideal)) v90_zero (val_main_v89 (F := Ideal)) v89_one
    (val_main_v93 (F := Ideal)) v93_one (val_main_v52 (F := Ideal) x0 x1 x2 x3 x4 x5) (val_main_v84 (F := Ideal) x2) (val_main_v87 (F := Ideal) x2)
    (val_main_v91 (F := Ideal) x2) rfl (val_main_v95 (F := Ideal) x2) n k hden).trans ?_
  rw [show seg (val_main_v87 (F := Ideal) x2) n = (graphOf x2).segL n from segL_eq x2 n]
  exact mean_close _ _ _ fun e => (congrArg (fun r => val_main_v52 (F := Ideal) x0 x1 x2 x3 x4 x5 (ix2 r k)) (rowT_eq x2 e)).trans
    (ht_at x0 x1 x2 x3 x4 x5 x6 x7 x8 x9 x10 x11 x12 x13 x14 x15 x16 ((graphOf x2).rowT e) k)

/-- The second ligand layer at (n, j). -/
theorem hl2_at (n : Fin 100000) (j : Fin 128) :
    val_main_v103 (F := Ideal) x0 x1 x2 x3 x4 x5 x6 x7 x8 x12 x13 x14 (ix2 n j) = Ref.hl2 G P n j := by
  rw [val_main_v103_apply, val_main_v102_apply, val_main_v100_apply, val_main_v97_apply, val_main_v101_apply,
    val_main_v99_apply, val_main_v98_apply, val_main_call3_v0_apply, val_main_call3_cst_apply, zero_lit]
  have h1 : ∀ k : Fin 128, lidx_main_v97 (ix2 n j) k = ix2 n k := fun k => by idx2
  have h2 : ∀ k : Fin 128, ridx_main_v97 (ix2 n j) k = ix2 k j := fun k => by idx2
  have h3 : ∀ k : Fin 128, lidx_main_v101 (ix2 n j) k = ix2 n k := fun k => by idx2
  have h4 : ∀ k : Fin 128, ridx_main_v101 (ix2 n j) k = ix2 k j := fun k => by idx2
  have h5 : idx_main_v98 (idx_main_v99 (ix2 n j)) = ix1 j := by idx1
  refine congrArg₂ max (congrArg₂ (· + ·) (congrArg₂ (· + ·) ?_ ?_) ?_) rfl
  · exact Finset.sum_congr rfl fun k _ => by
      rw [h1 k, h2 k, ml2_at x0 x1 x2 x3 x4 x5 x6 x7 x8 x9 x10 x11 x12 x13 x14 x15 x16]; rfl
  · rw [h5]; rfl
  · exact Finset.sum_congr rfl fun k _ => by rw [h3 k, h4 k, hl_at x0 x1 x2 x3 x4 x5 x6 x7 x8 x9 x10 x11 x12 x13 x14 x15 x16]; rfl

end Cert.RefValue

end
-- ==== Proof.RefValue.lean ====
/-
  The reference's result is the specification's aggregate-then-map arrangement.

  After the two rounds the reference reads, for every edge, the final features of its ligand end and of its target end
  (two gathers of rows), lays the two rows side by side (a concatenation along the feature axis: places 0..127 the
  ligand's, places 128..255 the target's), takes the inner product with the score weights and adds the score bias.
  Read at edge e this is the specification's score of e.
-/
import proofs.«151303_j73272142069881_2_alg».proof.Proof.RefLayers

noncomputable section

namespace Cert.RefValue

open Cert.ReferenceIdeal Cert.ReferenceIdeal.Read Idealize.ShloMosaic Idealize.ShloMosaic.ValueIdx Cert.Net

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

variable (x0 : (⟨S100000x4, .f32⟩ : BufTy).Contents (Elt Ideal)) (x1 : (⟨S4000x1280, .f32⟩ : BufTy).Contents (Elt Ideal))
  (x2 : (⟨S2x150000, .i32⟩ : BufTy).Contents (Elt Ideal)) (x3 : (⟨S4x128, .f32⟩ : BufTy).Contents (Elt Ideal))
  (x4 : (⟨S128, .f32⟩ : BufTy).Contents (Elt Ideal)) (x5 x6 : (⟨S1280x128, .f32⟩ : BufTy).Contents (Elt Ideal))
  (x7 : (⟨S128, .f32⟩ : BufTy).Contents (Elt Ideal)) (x8 : (⟨S4x128, .f32⟩ : BufTy).Contents (Elt Ideal))
  (x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S256x1, .f32⟩ : BufTy).Contents (Elt Ideal))
  (x16 : (⟨S1, .f32⟩ : BufTy).Contents (Elt Ideal))

local notation "G" => graphOf x2
local notation "P" => paramsOf x0 x1 x3 x4 x5 x6 x7 x8 x9 x10 x11 x12 x13 x14 x15 x16

/-- The gathered ligand rows at (e, k): the ligand end's final features. -/
theorem v110_at (e : Fin 150000) (k : Fin 128) :
    val_main_v110 (F := Ideal) x0 x1 x2 x3 x4 x5 x6 x7 x8 x12 x13 x14 (ix2 e k) = Ref.hl2 G P ((graphOf x2).rowL e) k := by
  refine (Cert.Lib.GatherRows.gather_rows_apply (N := 100000) (E := 150000) (C := 128)
    gather_S100000x128_S150000x1_S150000x128_1_0_n_n_0_1_1128.wf (by omega) (val_main_v103 (F := Ideal) x0 x1 x2 x3 x4 x5 x6 x7 x8 x12 x13 x14)
    (val_main_v109 (F := Ideal) x2) e k).trans ?_
  exact (congrArg (fun r => val_main_v103 (F := Ideal) x0 x1 x2 x3 x4 x5 x6 x7 x8 x12 x13 x14 (ix2 r k)) (rowL_eq x2 e)).trans
    (hl2_at x0 x1 x2 x3 x4 x5 x6 x7 x8 x9 x10 x11 x12 x13 x14 x15 x16 ((graphOf x2).rowL e) k)

/-- The gathered target rows at (e, k): the target end's final features. -/
theorem v117_at (e : Fin 150000) (k : Fin 128) :
    val_main_v117 (F := Ideal) x0 x1 x2 x3 x4 x5 x6 x7 x8 x9 x10 x11 (ix2 e k) = Ref.ht2 G P ((graphOf x2).rowT e) k := by
  refine (Cert.Lib.GatherRows.gather_rows_apply (N := 4000) (E := 150000) (C := 128)
    gather_S4000x128_S150000x1_S150000x128_1_0_n_n_0_1_1128.wf (by omega) (val_main_v78 (F := Ideal) x0 x1 x2 x3 x4 x5 x6 x7 x8 x9 x10 x11)
    (val_main_v116 (F := Ideal) x2) e k).trans ?_
  exact (congrArg (fun r => val_main_v78 (F := Ideal) x0 x1 x2 x3 x4 x5 x6 x7 x8 x9 x10 x11 (ix2 r k)) (rowT_eq x2 e)).trans
    (ht2_at x0 x1 x2 x3 x4 x5 x6 x7 x8 x9 x10 x11 x12 x13 x14 x15 x16 ((graphOf x2).rowT e) k)

/-- The two rows side by side at (e, k). -/
theorem cat_at (e : Fin 150000) (k : Fin 256) :
    val_main_v118 (F := Ideal) x0 x1 x2 x3 x4 x5 x6 x7 x8 x9 x10 x11 x12 x13 x14 (ix2 e k) = Ref.cat G P e k := by
  unfold Ref.cat val_main_v118
  by_cases h : k.val < 128
  · rw [dif_pos h]
    refine (concatenate_pair_apply_left (t := S150000x256) (s₁ := S150000x128) (s₂ := S150000x128) _ _ _ _ (ix2 e k) rfl (ix2 e (⟨k.val, h⟩ : Fin 128))
      (fun b => match b with | ⟨0, _⟩ => rfl | ⟨1, _⟩ => rfl)).trans ?_
    exact v110_at x0 x1 x2 x3 x4 x5 x6 x7 x8 x9 x10 x11 x12 x13 x14 x15 x16 e ⟨k.val, h⟩
  · rw [dif_neg h]
    have hk : k.val - 128 < 128 := by have := k.isLt; omega
    refine (concatenate_pair_apply_right (t := S150000x256) (s₁ := S150000x128) (s₂ := S150000x128) _ _ _ _ (ix2 e k) rfl rfl (ix2 e (⟨k.val - 128, hk⟩ : Fin 128))
      (fun b hb => match b, hb with | ⟨0, _⟩, _ => rfl | ⟨1, _⟩, hb => absurd rfl hb)
      (by show (k.val - 128) + 128 = k.val; omega)).trans ?_
    exact v117_at x0 x1 x2 x3 x4 x5 x6 x7 x8 x9 x10 x11 x12 x13 x14 x15 x16 e ⟨k.val - 128, hk⟩

/-- THE REFERENCE IS THE SPECIFICATION: the reference's result at edge e is the score the aggregate-then-map
    arrangement gives e, on the graph and the parameters read off the arguments. -/
theorem ref_is_spec (e : Fin 150000) :
    val_main_v123 (F := Ideal) x0 x1 x2 x3 x4 x5 x6 x7 x8 x9 x10 x11 x12 x13 x14 x15 x16 (ix1 e) = Ref.out G P e := by
  have hi : idx_main_v123 (ix1 e) = ix2 e (0 : Fin 1) := by
    funext a
    match a with
    | ⟨0, _⟩ => exact Fin.ext (Nat.div_one _)
    | ⟨1, _⟩ => rfl
  rw [val_main_v123_apply, hi, val_main_v122_apply, val_main_v119_apply, val_main_v121_apply, val_main_v120_apply]
  have h1 : ∀ k : Fin 256, lidx_main_v119 (ix2 e (0 : Fin 1)) k = ix2 e k := fun k => by idx2
  have h2 : ∀ k : Fin 256, ridx_main_v119 (ix2 e (0 : Fin 1)) k = ix2 k (0 : Fin 1) := fun k => by idx2
  have h5 : idx_main_v120 (idx_main_v121 (ix2 e (0 : Fin 1))) = ix1 (0 : Fin 1) := by idx1
  refine congrArg₂ (· + ·) ?_ ?_
  · exact Finset.sum_congr rfl fun k _ => by
      rw [h1 k, h2 k, cat_at x0 x1 x2 x3 x4 x5 x6 x7 x8 x9 x10 x11 x12 x13 x14 x15 x16]; rfl
  · rw [h5]; rfl

end Cert.RefValue

end
-- ==== Proof.LibBatchStats.lean ====
/-
  Batch statistics over the extended reals.

  A batch-normalisation layer needs the mean and the (biased) variance of a finite family of numbers. Two
  spellings of the variance occur: the centred one, the mean of the squared deviations from the mean, and the
  one-pass one, the mean of the squares less the square of the mean, clamped below at zero. On real numbers the two
  are the same number, and the centred one is non-negative, so the clamp does nothing. The lemmas here say so over
  the reals, and carry the statement to the extended reals for families all of whose members are real, where a sum, a
  quotient by a non-zero real, a product and a difference of reals are again the coercions of the real results.
-/
import Idealize.ShloMosaic.PureOps.Ideal

noncomputable section

namespace Cert.Lib.BatchStats

open Idealize.ShloMosaic

variable {ι : Type*}

/-- The coercion of the reals into the extended reals commutes with a finite sum. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, on the extended reals is the real quotient. -/
theorem div_coe_coe (a b : ℝ) (hb : b ≠ 0) : Ideal.div (a : EReal) (b : EReal) = ((a / b : ℝ) : EReal) := by
  rw [Ideal.div_coe hb, ← EReal.coe_mul, mul_one_div]

/-- The sum of the squared deviations from a number mu, expanded: the sum of the squares, less twice mu times the
    sum, plus the count times mu squared. -/
theorem sum_sq_dev (s : Finset ι) (x : ι → ℝ) (μ : ℝ) :
    ∑ i ∈ s, (x i - μ) * (x i - μ) = ∑ i ∈ s, x i * x i - 2 * μ * ∑ i ∈ s, x i + (s.card : ℝ) * (μ * μ) := by
  have h : ∀ i ∈ s, (x i - μ) * (x i - μ) = x i * x i - 2 * μ * x i + μ * μ := fun i _ => by ring
  rw [Finset.sum_congr rfl h, Finset.sum_add_distrib, Finset.sum_sub_distrib, ← Finset.mul_sum, Finset.sum_const,
    nsmul_eq_mul]

/-- ONE-PASS VARIANCE IS THE CENTRED VARIANCE. For n real numbers (n not zero) the mean of the squares less the
    square of the mean is the mean of the squared deviations from the mean. -/
theorem var_onepass_eq_centred (s : Finset ι) (x : ι → ℝ) (n : ℝ) (hn : (s.card : ℝ) = n) (h0 : n ≠ 0) :
    (∑ i ∈ s, x i * x i) / n - (∑ i ∈ s, x i) / n * ((∑ i ∈ s, x i) / n)
      = (∑ i ∈ s, (x i - (∑ j ∈ s, x j) / n) * (x i - (∑ j ∈ s, x j) / n)) / n := by
  rw [sum_sq_dev, hn]
  field_simp
  ring

/-- The centred variance of real numbers is not negative (the divisor positive). -/
theorem centred_var_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- So clamping the one-pass variance below at zero changes nothing: it is the centred variance. -/
theorem max_var_onepass (s : Finset ι) (x : ι → ℝ) (n : ℝ) (hn : (s.card : ℝ) = n) (h0 : 0 < n) :
    max ((∑ i ∈ s, x i * x i) / n - (∑ i ∈ s, x i) / n * ((∑ i ∈ s, x i) / n)) 0
      = (∑ i ∈ s, (x i - (∑ j ∈ s, x j) / n) * (x i - (∑ j ∈ s, x j) / n)) / n := by
  rw [var_onepass_eq_centred s x n hn h0.ne']
  exact max_eq_left (centred_var_nonneg s x _ n h0)

/-- The same on the extended reals, for a family of reals: the sums, quotients, products, the difference and the
    maximum are the coercions of the real ones. The left side is the one-pass spelling with its clamp, the right
    side the centred spelling. -/
theorem max_var_onepass_ereal (s : Finset ι) (x : ι → ℝ) (n : ℝ) (hn : (s.card : ℝ) = n) (h0 : 0 < n) :
    max (Ideal.div (∑ i ∈ s, (x i : EReal) * (x i : EReal)) (n : EReal)
          - Ideal.div (∑ i ∈ s, (x i : EReal)) (n : EReal) * Ideal.div (∑ i ∈ s, (x i : EReal)) (n : EReal)) 0
      = Ideal.div (∑ i ∈ s, ((x i : EReal) - Ideal.div (∑ j ∈ s, (x j : EReal)) (n : EReal))
          * ((x i : EReal) - Ideal.div (∑ j ∈ s, (x j : EReal)) (n : EReal))) (n : EReal) := by
  have hne : n ≠ 0 := h0.ne'
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ hne, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne, ← EReal.coe_mul, ← EReal.coe_sub, ← EReal.coe_zero,
    ← EReal.coe_strictMono.monotone.map_max, max_var_onepass s x n hn h0]

end Cert.Lib.BatchStats

end
-- ==== Proof.LibReal.lean ====
/-
  Real-valued extended reals are closed under the operations the network uses.

  An extended real is called real here when it is the coercion of a real number. Sums (finite), products, differences,
  maxima and the ideal quotient of two such, and the inverse square root of a positive one, are again real.
-/
import proofs.«151303_j73272142069881_2_alg».proof.Proof.LibBatchStats

noncomputable section

namespace Cert.Lib.IsR

open Idealize.ShloMosaic Cert.Lib.BatchStats

/-- The extended real a is a real number. -/
def IsR (a : EReal) : Prop := ∃ r : ℝ, a = (r : EReal)

theorem coe (r : ℝ) : IsR (r : EReal) := ⟨r, rfl⟩
theorem zero : IsR 0 := ⟨0, rfl⟩
theorem add {a b : EReal} (ha : IsR a) (hb : IsR b) : IsR (a + b) := by
  obtain ⟨x, rfl⟩ := ha; obtain ⟨y, rfl⟩ := hb; exact ⟨x + y, (EReal.coe_add x y).symm⟩
theorem mul {a b : EReal} (ha : IsR a) (hb : IsR b) : IsR (a * b) := by
  obtain ⟨x, rfl⟩ := ha; obtain ⟨y, rfl⟩ := hb; exact ⟨x * y, (EReal.coe_mul x y).symm⟩
theorem sub {a b : EReal} (ha : IsR a) (hb : IsR b) : IsR (a - b) := by
  obtain ⟨x, rfl⟩ := ha; obtain ⟨y, rfl⟩ := hb; exact ⟨x - y, (EReal.coe_sub x y).symm⟩
theorem max {a b : EReal} (ha : IsR a) (hb : IsR b) : IsR (Max.max a b) := by
  rcases max_choice a b with h | h <;> rw [h] <;> assumption
theorem sum {ι : Type*} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))
theorem div {a : EReal} (ha : IsR a) (n : ℝ) (hn : n ≠ 0) : IsR (Ideal.div a (n : EReal)) := by
  obtain ⟨x, rfl⟩ := ha; exact ⟨x / n, div_coe_coe x n hn⟩
/-- The inverse square root of a positive real is real. -/
theorem rsqrt_pos (r : ℝ) (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

end Cert.Lib.IsR

end
-- ==== Proof.NetLaw.lean ====
/-
  The two arrangements of the network give the same edge scores on real inputs.

  A mean over an edge set is the sum divided by a real number that is at least one, so it is a real multiple of the
  sum. For real features and real weights this makes the mean commute with a linear map: the mean of the inner
  products is the inner product of the means, which is an exchange of two finite sums of real numbers. Everything
  else is the order of three summands under the rectifier, and the splitting of an inner product of length 256 into
  its first and second 128 places.
-/
import proofs.«151303_j73272142069881_2_alg».proof.Proof.NetSpec
import proofs.«151303_j73272142069881_2_alg».proof.Proof.LibReal

noncomputable section

namespace Cert.Net

open Idealize.ShloMosaic Cert.Lib Cert.Lib.BatchStats

/-! ## The mean is division by a real number that is not zero -/

/-- The divisor of a mean, as a real number: the larger of the number of edges and one. -/
def cnt (S : Finset (Fin NE)) : ℝ := max (∑ _e ∈ S, (1 : ℝ)) 1

theorem cnt_ne (S : Finset (Fin NE)) : cnt S ≠ 0 :=
  (lt_of_lt_of_le one_pos (le_max_right _ _)).ne'

theorem mean_eq (S : Finset (Fin NE)) (f : Fin NE → EReal) :
    mean S f = Ideal.div (∑ e ∈ S, f e) ((cnt S : ℝ) : EReal) := by
  unfold mean cnt
  rw [EReal.coe_strictMono.monotone.map_max, coe_sum, EReal.coe_one]

/-- The mean of real numbers is real. -/
theorem isR_mean (S : Finset (Fin NE)) (f : Fin NE → EReal) (hf : ∀ e, IsR.IsR (f e)) : IsR.IsR (mean S f) := by
  rw [mean_eq]
  exact IsR.div (IsR.sum S f fun e _ => hf e) (cnt S) (cnt_ne S)

/-- An inner product of real numbers is real. -/
theorem isR_dot {ι : Type*} [Fintype ι] (a b : ι → EReal) (ha : ∀ k, IsR.IsR (a k)) (hb : ∀ k, IsR.IsR (b k)) :
    IsR.IsR (∑ k, a k * b k) :=
  IsR.sum _ _ fun k _ => IsR.mul (ha k) (hb k)

/-! ## The mean commutes with a linear map -/

/-- For real numbers: the mean over S of the inner products of f e with w is the inner product with w of the
    means of f's coordinates. Both sides are the double sum of f e k * w k divided by the count. -/
theorem mean_lin_coe {ι : Type*} [Fintype ι] (S : Finset (Fin NE)) (fr : Fin NE → ι → ℝ) (wr : ι → ℝ) :
    mean S (fun e => ∑ k, ((fr e k : ℝ) : EReal) * ((wr k : ℝ) : EReal))
      = ∑ k, mean S (fun e => ((fr e k : ℝ) : EReal)) * ((wr k : ℝ) : EReal) := by
  have hL : ∑ e ∈ S, ∑ k, ((fr e k : ℝ) : EReal) * ((wr k : ℝ) : EReal)
      = ((∑ e ∈ S, ∑ k, fr e k * wr k : ℝ) : EReal) := by
    rw [coe_sum]
    refine Finset.sum_congr rfl fun e _ => ?_
    rw [coe_sum]
    exact Finset.sum_congr rfl fun k _ => (EReal.coe_mul _ _).symm
  have hR : ∀ k, mean S (fun e => ((fr e k : ℝ) : EReal)) * ((wr k : ℝ) : EReal)
      = (((∑ e ∈ S, fr e k) / cnt S * wr k : ℝ) : EReal) := by
    intro k
    rw [mean_eq, ← coe_sum, div_coe_coe _ _ (cnt_ne S), ← EReal.coe_mul]
  rw [mean_eq, hL, div_coe_coe _ _ (cnt_ne S), Finset.sum_congr rfl fun k _ => hR k, ← coe_sum]
  congr 1
  rw [Finset.sum_comm, Finset.sum_div]
  refine Finset.sum_congr rfl fun k _ => ?_
  rw [← Finset.sum_mul]
  ring

/-- The same for extended reals all of which are real. -/
theorem mean_lin {ι : Type*} [Fintype ι] (S : Finset (Fin NE)) (f : Fin NE → ι → EReal) (w : ι → EReal)
    (hf : ∀ e k, IsR.IsR (f e k)) (hw : ∀ k, IsR.IsR (w k)) :
    mean S (fun e => ∑ k, f e k * w k) = ∑ k, mean S (fun e => f e k) * w k := by
  choose fr hfr using hf
  choose wr hwr using hw
  simp only [hfr, hwr]
  exact mean_lin_coe S fr wr

variable (g : Graph) (p : Params)

/-! ## The first round -/

/-- The target side differs only in the order of the bias and the node's own term. -/
theorem ht_eq (n : Fin NT) (j : Fin 128) : Ker.ht g p n j = Ref.ht g p n j :=
  congrArg (fun x => max x 0) (add_right_comm _ _ _)

theorem ht_fun : Ker.ht g p = Ref.ht g p := funext fun n => funext fun j => ht_eq g p n j

/-- The ligand side: the mean of the mapped target features is the map of the mean target features. -/
theorem mlp_eq (hp : p.Real) (n : Fin NL) (j : Fin 128) :
    Ker.mlp g p n j = ∑ k : Fin 1280, Ref.ml g p n k * p.C k j :=
  mean_lin (g.segL n) (fun e k => p.xt (g.rowT e) k) (fun k => p.C k j) (fun e k => hp.xt _ k) (fun k => hp.C k j)

theorem hl_eq (hp : p.Real) (n : Fin NL) (j : Fin 128) : Ker.hl g p n j = Ref.hl g p n j := by
  unfold Ker.hl Ref.hl
  rw [mlp_eq g p hp, add_right_comm]

theorem hl_fun (hp : p.Real) : Ker.hl g p = Ref.hl g p := funext fun n => funext fun j => hl_eq g p hp n j

/-- The first round's features are real. -/
theorem isR_ht (hp : p.Real) (n : Fin NT) (j : Fin 128) : IsR.IsR (Ref.ht g p n j) := by
  unfold Ref.ht
  exact IsR.max (IsR.add (IsR.add
    (isR_dot _ _ (fun k => isR_mean _ _ fun e => hp.xl _ k) (fun k => hp.A k j)) (hp.bA j))
    (isR_dot _ _ (hp.xt n) (fun k => hp.B k j))) IsR.zero

theorem isR_hl (hp : p.Real) (n : Fin NL) (j : Fin 128) : IsR.IsR (Ref.hl g p n j) := by
  unfold Ref.hl
  exact IsR.max (IsR.add (IsR.add
    (isR_dot _ _ (fun k => isR_mean _ _ fun e => hp.xt _ k) (fun k => hp.C k j)) (hp.bC j))
    (isR_dot _ _ (hp.xl n) (fun k => hp.D k j))) IsR.zero

/-! ## The second round -/

theorem mqt2_eq (hp : p.Real) (n : Fin NT) (j : Fin 128) :
    Ker.mqt2 g p n j = ∑ k : Fin 128, Ref.mt2 g p n k * p.P k j := by
  unfold Ker.mqt2 Ker.ql Ref.mt2
  rw [hl_fun g p hp]
  exact mean_lin (g.segT n) (fun e k => Ref.hl g p (g.rowL e) k) (fun k => p.P k j)
    (fun e k => isR_hl g p hp _ k) (fun k => hp.P k j)

theorem mql2_eq (hp : p.Real) (n : Fin NL) (j : Fin 128) :
    Ker.mql2 g p n j = ∑ k : Fin 128, Ref.ml2 g p n k * p.R k j := by
  unfold Ker.mql2 Ker.qt Ref.ml2
  rw [ht_fun g p]
  exact mean_lin (g.segL n) (fun e k => Ref.ht g p (g.rowT e) k) (fun k => p.R k j)
    (fun e k => isR_ht g p hp _ k) (fun k => hp.R k j)

/-- The target's half of the score is its final features against the upper 128 score weights. -/
theorem pt2_eq (hp : p.Real) (n : Fin NT) :
    Ker.pt2 g p n = ∑ k : Fin 128, Ref.ht2 g p n k * p.wp ⟨128 + k.val, by omega⟩ := by
  unfold Ker.pt2 Ref.ht2
  refine Finset.sum_congr rfl fun k _ => ?_
  rw [mqt2_eq g p hp, ht_fun g p, add_right_comm]

/-- The ligand's half is its final features against the lower 128 score weights. -/
theorem pl2_eq (hp : p.Real) (n : Fin NL) :
    Ker.pl2 g p n = ∑ k : Fin 128, Ref.hl2 g p n k * p.wp ⟨k.val, by omega⟩ := by
  unfold Ker.pl2 Ref.hl2
  refine Finset.sum_congr rfl fun k _ => ?_
  rw [mql2_eq g p hp, hl_fun g p hp, add_right_comm]

/-! ## The edge score -/

/-- A sum over 256 places is the sum over the first 128 plus the sum over the last 128. -/
theorem sum_split (F : Fin 256 → EReal) :
    ∑ k : Fin 256, F k = (∑ k : Fin 128, F ⟨k.val, by omega⟩) + ∑ k : Fin 128, F ⟨128 + k.val, by omega⟩ :=
  Fin.sum_univ_add (a := 128) (b := 128) F

theorem cat_lo (e : Fin NE) (k : Fin 128) : Ref.cat g p e ⟨k.val, by omega⟩ = Ref.hl2 g p (g.rowL e) k :=
  dif_pos k.isLt

theorem cat_hi (e : Fin NE) (k : Fin 128) : Ref.cat g p e ⟨128 + k.val, by omega⟩ = Ref.ht2 g p (g.rowT e) k := by
  unfold Ref.cat
  rw [dif_neg (by simp)]
  congr 1
  exact Fin.ext (Nat.add_sub_cancel_left 128 k.val)

/-- MAP-THEN-AGGREGATE IS AGGREGATE-THEN-MAP. On real features and weights the two arrangements score every edge
    alike. -/
theorem ker_eq_ref (g : Graph) (p : Params) (hp : p.Real) (e : Fin NE) : Ker.out g p e = Ref.out g p e := by
  unfold Ker.out Ref.out
  rw [sum_split, pl2_eq g p hp, pt2_eq g p hp]
  simp only [cat_lo, cat_hi]

end Cert.Net

end
-- ==== Proof.Finite.lean ====
/-
  From the finiteness precondition to real parameters.

  The precondition asks, of each of the sixteen float arrays, that every entry's absolute value be below plus
  infinity, and takes the conjunction of the sixteen answers. An extended real whose absolute value is below plus
  infinity is neither infinity, so it is a real number. Read entry by entry, the precondition therefore says that
  every feature and every weight of the network is real.
-/
import proofs.«151303_j73272142069881_2_alg».proof.Pre_finite_inputs
import proofs.«151303_j73272142069881_2_alg».proof.Proof.NetSpec
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The pattern with all exponent bits set and no fraction bit denotes plus infinity. -/
theorem inf_bits : Ideal.ofBits .f32 0x7F800000#32 = ⊤ := by simp [Ideal.ofBits, Ideal.ieee]

/-- An extended real whose absolute value, the larger of x and -x, is below plus infinity is a real number: at
    either infinity the larger of the two is plus infinity. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- An array all of whose entries pass the test has only real entries: the conjunction over all entries being true,
    each entry's test is true. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi
        (cmpf (F := Ideal) .olt (Host.absf (F := Ideal) a)
          (broadcastInDim s ![] hb (constant (F := Ideal) S_ .f32 0x7F800000#32)))
        (constantI S_ 1 1#1) hr hu ix0 = 1#1) (i : s.Idx) : ∃ r : ℝ, a i = (r : EReal) :=
  real_of_abs_lt_inf (a i) (Host.reduce_andi_all _ _ hr hu ix0 h i)

/-- THE PRECONDITION MAKES EVERY PARAMETER REAL. The precondition is a conjunction of sixteen tests, one per float
    array (the integer edge array is not tested); each gives the realness of one field. -/
theorem real_of_pre [Facts] (a0 : FVec Ideal S100000x4 .f32) (a1 : FVec Ideal S4000x1280 .f32)
    (a2 : IVec S2x150000 32) (a3 : FVec Ideal S4x128 .f32) (a4 : FVec Ideal S128 .f32)
    (a5 : FVec Ideal S1280x128 .f32) (a6 : FVec Ideal S1280x128 .f32) (a7 : FVec Ideal S128 .f32)
    (a8 : FVec Ideal S4x128 .f32) (a9 : FVec Ideal S128x128 .f32) (a10 : FVec Ideal S128 .f32)
    (a11 : FVec Ideal S128x128 .f32) (a12 : FVec Ideal S128x128 .f32) (a13 : FVec Ideal S128 .f32)
    (a14 : FVec Ideal S128x128 .f32) (a15 : FVec Ideal S256x1 .f32) (a16 : FVec Ideal S1 .f32)
    (h : fn (F := Ideal) a0 a1 a2 a3 a4 a5 a6 a7 a8 a9 a10 a11 a12 a13 a14 a15 a16 = fun _ => 1#1) :
    (Cert.Net.paramsOf a0 a1 a3 a4 a5 a6 a7 a8 a9 a10 a11 a12 a13 a14 a15 a16).Real := by
  have h0 := congrFun h ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨⟨t0, t1⟩, t3⟩, t4⟩, t5⟩, t6⟩, t7⟩, t8⟩, t9⟩, t10⟩, t11⟩, t12⟩, t13⟩, t14⟩, t15⟩, t16⟩ := h0
  exact
    { xl := fun n k => all_real _ _ _ a0 t0 (ix2 n k)
      xt := fun n k => all_real _ _ _ a1 t1 (ix2 n k)
      A := fun k j => all_real _ _ _ a3 t3 (ix2 k j)
      bA := fun j => all_real _ _ _ a4 t4 (ix1 j)
      B := fun k j => all_real _ _ _ a5 t5 (ix2 k j)
      C := fun k j => all_real _ _ _ a6 t6 (ix2 k j)
      bC := fun j => all_real _ _ _ a7 t7 (ix1 j)
      D := fun k j => all_real _ _ _ a8 t8 (ix2 k j)
      P := fun k j => all_real _ _ _ a9 t9 (ix2 k j)
      bP := fun j => all_real _ _ _ a10 t10 (ix1 j)
      Q := fun k j => all_real _ _ _ a11 t11 (ix2 k j)
      R := fun k j => all_real _ _ _ a12 t12 (ix2 k j)
      bR := fun j => all_real _ _ _ a13 t13 (ix1 j)
      S := fun k j => all_real _ _ _ a14 t14 (ix2 k j)
      wp := fun k => all_real _ _ _ a15 t15 (ix2 k (0 : Fin 1))
      bp := all_real _ _ _ a16 t16 (ix1 (0 : Fin 1)) }

end Cert.Finite

end
-- ==== Proof.lean ====
/-
  A two-round bipartite graph network scoring its edges: the kernel and the reference agree on real inputs.

  Both programs compute, for each of 150000 edges between 100000 ligand nodes and 4000 target nodes, a score from two
  rounds of mean aggregation over the graph. The reference aggregates the neighbours' features and then applies each
  layer's linear map; the kernel applies the linear map to every node first, in four pipelined regions that also apply
  the bias, the node's own linear map and the rectifier, and aggregates the products on the host; and it splits the final
  inner product of length 256 into two per-node scores of length 128. Over the extended reals the two agree when every
  input is a real number, which the precondition says: a mean is a sum divided by a nonzero real, and a linear map
  commutes with finite sums and with division by a nonzero real on real numbers. At an infinite input the two
  arrangements can differ, so the precondition is used.

  Each program terminates without a fault and leaves its arguments unchanged: for the two kernels this is the generated
  frame, for the reference its generated run with the result dropped. The kernel and its reading over the extended
  reals are the same text: no operation was rewritten. For the value claim, the kernel's run ends with the result buffer
  at the last segment boundary's contents, which are the map-then-aggregate arrangement of the specification; the
  reference's run ends with the aggregate-then-map arrangement; the two arrangements are equal on real inputs; and the
  precondition makes every feature and weight real.
-/
import proofs.«151303_j73272142069881_2_alg».proof.Defs
import proofs.«151303_j73272142069881_2_alg».proof.Proof.Gen.Kernel
import proofs.«151303_j73272142069881_2_alg».proof.Proof.Gen.Kernel.Skeleton
import proofs.«151303_j73272142069881_2_alg».proof.Proof.Gen.Kernel.Launch
import proofs.«151303_j73272142069881_2_alg».proof.Proof.Gen.Kernel.Points
import proofs.«151303_j73272142069881_2_alg».proof.Proof.Gen.Kernel.Frame
import proofs.«151303_j73272142069881_2_alg».proof.Proof.Gen.KernelIdeal
import proofs.«151303_j73272142069881_2_alg».proof.Proof.Gen.KernelIdeal.Skeleton
import proofs.«151303_j73272142069881_2_alg».proof.Proof.Gen.KernelIdeal.Launch
import proofs.«151303_j73272142069881_2_alg».proof.Proof.Gen.KernelIdeal.Points
import proofs.«151303_j73272142069881_2_alg».proof.Proof.Gen.KernelIdeal.Frame
import proofs.«151303_j73272142069881_2_alg».proof.Proof.Gen.ReferenceIdeal
import proofs.«151303_j73272142069881_2_alg».proof.Proof.Gen.Pre_finite_inputs
import proofs.«151303_j73272142069881_2_alg».proof.Proof.Gen.ReferenceIdeal.Read
import proofs.«151303_j73272142069881_2_alg».proof.Proof.KerRun
import proofs.«151303_j73272142069881_2_alg».proof.Proof.KerValue
import proofs.«151303_j73272142069881_2_alg».proof.Proof.RefValue
import proofs.«151303_j73272142069881_2_alg».proof.Proof.NetLaw
import proofs.«151303_j73272142069881_2_alg».proof.Proof.Finite
import Idealize.ShloMosaic.Adequacy
import Idealize.ShloMosaic.Init

noncomputable section

namespace Cert.Proof

open Idealize.ShloMosaic Idealize.ShloMosaic.ValueIdx Idealize.SL.Sem

section Claims

variable [hK : Cert.Kernel.Facts] [hKI : Cert.KernelIdeal.Facts] [hR : Cert.ReferenceIdeal.Facts] [hP : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel read over the extended reals is its own text: no operation was rewritten. -/
theorem preserves : Cert.preserves_Kernel_KernelIdeal := trivial

/-- Both programs end with the edge scores of the specification: the kernel with the map-then-aggregate arrangement,
    the reference with the aggregate-then-map one, and on real inputs these are equal. -/
theorem algebraic : Cert.algebraic_KernelIdeal_ReferenceIdeal := by
  intro m ρ m' ρ' hpre hagree
  refine ⟨fun c => Cert.KernelIdeal.KerValue.result m c, ?_, ?_⟩
  · exact (θ_run Cert.KernelIdeal.defs _ _).mono
      (fun r h c => ⟨(h c).1.trans (Cert.KernelIdeal.KerValue.value m ρ c), (h c).2⟩)
      (Cert.KernelIdeal.KerRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v123_eq, e0, e1, e2, e3, e4, e5, e6, e7, e8, e9, e10, e11, e12, e13, e14, e15, e16]
    funext i
    obtain ⟨e, rfl⟩ : ∃ e : Fin 150000, i = ix1 e := ⟨⟨(i 0).val, (i 0).isLt⟩, eq_ix1 i⟩
    rw [Cert.RefValue.ref_is_spec]
    exact (Cert.Net.ker_eq_ref _ _ (Cert.Finite.real_of_pre _ _ _ _ _ _ _ _ _ _ _ _ _ _ _ _ _ (hpre c)) e).symm

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
